-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x20 : Shape := ⟨2, ![50000, 20]⟩
abbrev S2x1600000 : Shape := ⟨2, ![2, 1600000]⟩
abbrev S1600000 : Shape := ⟨1, ![1600000]⟩
abbrev S32x20 : Shape := ⟨2, ![32, 20]⟩
abbrev S32 : Shape := ⟨1, ![32]⟩
abbrev S64x32 : Shape := ⟨2, ![64, 32]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S50000x20 : S_.BroadcastsInDim S50000x20 (![] : Fin 0 → Fin S50000x20.rank)
  reducesTo_S50000x20_S_d0_1 : S50000x20.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S32x20 : S_.BroadcastsInDim S32x20 (![] : Fin 0 → Fin S32x20.rank)
  reducesTo_S32x20_S_d0_1 : S32x20.ReducesTo [0, 1] S_
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg5 : FVec F S64x32 .f32) (main_arg6 : FVec F S64 .f32) (main_arg7 : FVec F S2x64 .f32) (main_arg8 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x64 .f32 := Host.absf main_arg7
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg8 main_v33

def fn {F : FTy → Type} [FloatOps F] (main_arg0 : FVec F S50000x20 .f32) (main_arg1 : IVec S2x1600000 32) (main_arg2 : FVec F S1600000 .f32) (main_arg3 : FVec F S32x20 .f32) (main_arg4 : FVec F S32 .f32) (main_arg5 : FVec F S64x32 .f32) (main_arg6 : FVec F S64 .f32) (main_arg7 : FVec F S2x64 .f32) (main_arg8 : FVec F S2 .f32) : IVec S_ 1 :=
  let main_v0 : FVec F S50000x20 .f32 := Host.absf main_arg0
  let main_cst : FVec F S_ .f32 := constant S_ .f32 0x7F800000#32
  let main_v1 : FVec F S50000x20 .f32 := broadcastInDim S50000x20 ![] bcast_S_S50000x20 main_cst
  let main_v2 : IVec S50000x20 1 := cmpf .olt main_v0 main_v1
  let main_c : IVec S_ 1 := constantI S_ 1 1#1
  let main_v3 : IVec S_ 1 := (fun x v => Host.reduce IntOp.andi x v reducesTo_S50000x20_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S32x20 .f32 := Host.absf main_arg3
  let main_cst_2 : FVec F S_ .f32 := constant S_ .f32 0x7F800000#32
  let main_v10 : FVec F S32x20 .f32 := broadcastInDim S32x20 ![] bcast_S_S32x20 main_cst_2
  let main_v11 : IVec S32x20 1 := cmpf .olt main_v9 main_v10
  let main_c_3 : IVec S_ 1 := constantI S_ 1 1#1
  let main_v12 : IVec S_ 1 := (fun x v => Host.reduce IntOp.andi x v reducesTo_S32x20_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_v13 main_v16
-- ==== Kernel.lean ====
abbrev S50000x20 : Shape := ⟨2, ![50000, 20]⟩
abbrev S2x1600000 : Shape := ⟨2, ![2, 1600000]⟩
abbrev S1600000 : Shape := ⟨1, ![1600000]⟩
abbrev S32x20 : Shape := ⟨2, ![32, 20]⟩
abbrev S32 : Shape := ⟨1, ![32]⟩
abbrev S64x32 : Shape := ⟨2, ![64, 32]⟩
abbrev S64 : Shape := ⟨1, ![64]⟩
abbrev S2x64 : Shape := ⟨2, ![2, 64]⟩
abbrev S2 : Shape := ⟨1, ![2]⟩
abbrev S1x1600000 : Shape := ⟨2, ![1, 1600000]⟩
abbrev S1600000x1 : Shape := ⟨2, ![1600000, 1]⟩
abbrev S_ : Shape := ⟨0, ![]⟩
abbrev S50000x1 : Shape := ⟨2, ![50000, 1]⟩
abbrev S50000x32 : Shape := ⟨2, ![50000, 32]⟩
abbrev S5000x20 : Shape := ⟨2, ![5000, 20]⟩
abbrev S5000x32 : Shape := ⟨2, ![5000, 32]⟩
abbrev S20x32 : Shape := ⟨2, ![20, 32]⟩
abbrev S1x32 : Shape := ⟨2, ![1, 32]⟩
abbrev S1600000x32 : Shape := ⟨2, ![1600000, 32]⟩
abbrev S50000x64 : Shape := ⟨2, ![50000, 64]⟩
abbrev S5000x64 : Shape := ⟨2, ![5000, 64]⟩
abbrev S32x64 : Shape := ⟨2, ![32, 64]⟩
abbrev S1x64 : Shape := ⟨2, ![1, 64]⟩
abbrev S1600000x64 : Shape := ⟨2, ![1600000, 64]⟩
abbrev S64x2 : Shape := ⟨2, ![64, 2]⟩
abbrev S1x2 : Shape := ⟨2, ![1, 2]⟩
abbrev S1 : Shape := ⟨1, ![1]⟩
abbrev S1x1 : Shape := ⟨2, ![1, 1]⟩

abbrev nBuf : Space → Nat
  | .hbm => 113
  | .vmem => 16
  | .smem => 0
  | _ => 0

abbrev bufTy : (tb : Table) → Fin (tcTables nBuf tb) → BufTy
  | .hbm, ⟨0, _⟩ => ⟨S50000x20, .f32⟩
  | .hbm, ⟨1, _⟩ => ⟨S2x1600000, .i32⟩
  | .hbm, ⟨2, _⟩ => ⟨S1600000, .f32⟩
  | .hbm, ⟨3, _⟩ => ⟨S32x20, .f32⟩
  | .hbm, ⟨4, _⟩ => ⟨S32, .f32⟩
  | .hbm, ⟨5, _⟩ => ⟨S64x32, .f32⟩
  | .hbm, ⟨6, _⟩ => ⟨S64, .f32⟩
  | .hbm, ⟨7, _⟩ => ⟨S2x64, .f32⟩
  | .hbm, ⟨8, _⟩ => ⟨S2, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1600000x1, .f32⟩
  | .hbm, ⟨14, _⟩ => ⟨S_, .f32⟩
  | .hbm, ⟨15, _⟩ => ⟨S1600000x1, .f32⟩
  | .hbm, ⟨16, _⟩ => ⟨S_, .f32⟩
  | .hbm, ⟨17, _⟩ => ⟨S50000x1, .f32⟩
  | .hbm, ⟨18, _⟩ => ⟨S1600000x1, .i32⟩
  | .hbm, ⟨19, _⟩ => ⟨S50000x1, .f32⟩
  | .hbm, ⟨20, _⟩ => ⟨S_, .f32⟩
  | .hbm, ⟨21, _⟩ => ⟨S50000x1, .f32⟩
  | .hbm, ⟨22, _⟩ => ⟨S50000x1, .f32⟩
  | .hbm, ⟨23, _⟩ => ⟨S_, .f32⟩
  | .hbm, ⟨24, _⟩ => ⟨S50000x1, .f32⟩
  | .hbm, ⟨25, _⟩ => ⟨S50000x1, .f32⟩
  | .hbm, ⟨26, _⟩ => ⟨S50000x32, .f32⟩
  | .hbm, ⟨27, _⟩ => ⟨S50000x32, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x32, .f32⟩
  | .hbm, ⟨37, _⟩ => ⟨S1600000x32, .f32⟩
  | .hbm, ⟨38, _⟩ => ⟨S1600000x32, .f32⟩
  | .hbm, ⟨39, _⟩ => ⟨S1x32, .f32⟩
  | .hbm, ⟨40, _⟩ => ⟨S1600000x32, .f32⟩
  | .hbm, ⟨41, _⟩ => ⟨S1600000x32, .f32⟩
  | .hbm, ⟨42, _⟩ => ⟨S_, .f32⟩
  | .hbm, ⟨43, _⟩ => ⟨S_, .f32⟩
  | .hbm, ⟨44, _⟩ => ⟨S1600000x32, .f32⟩
  | .hbm, ⟨45, _⟩ => ⟨S1600000x32, .i1⟩
  | .hbm, ⟨46, _⟩ => ⟨S_, .f32⟩
  | .hbm, ⟨47, _⟩ => ⟨S1600000x32, .f32⟩
  | .hbm, ⟨48, _⟩ => ⟨S1600000x32, .f32⟩
  | .hbm, ⟨49, _⟩ => ⟨S1600000x32, .f32⟩
  | .hbm, ⟨50, _⟩ => ⟨S_, .f32⟩
  | .hbm, ⟨51, _⟩ => ⟨S50000x32, .f32⟩
  | .hbm, ⟨52, _⟩ => ⟨S1600000x1, .i32⟩
  | .hbm, ⟨53, _⟩ => ⟨S50000x32, .f32⟩
  | .hbm, ⟨54, _⟩ => ⟨S50000x32, .f32⟩
  | .hbm, ⟨55, _⟩ => ⟨S50000x32, .f32⟩
  | .hbm, ⟨56, _⟩ => ⟨S50000x32, .f32⟩
  | .hbm, ⟨57, _⟩ => ⟨S50000x64, .f32⟩
  | .hbm, ⟨58, _⟩ => ⟨S50000x64, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x64, .f32⟩
  | .hbm, ⟨68, _⟩ => ⟨S1600000x64, .f32⟩
  | .hbm, ⟨69, _⟩ => ⟨S1600000x64, .f32⟩
  | .hbm, ⟨70, _⟩ => ⟨S1x64, .f32⟩
  | .hbm, ⟨71, _⟩ => ⟨S1600000x64, .f32⟩
  | .hbm, ⟨72, _⟩ => ⟨S1600000x64, .f32⟩
  | .hbm, ⟨73, _⟩ => ⟨S_, .f32⟩
  | .hbm, ⟨74, _⟩ => ⟨S_, .f32⟩
  | .hbm, ⟨75, _⟩ => ⟨S1600000x64, .f32⟩
  | .hbm, ⟨76, _⟩ => ⟨S1600000x64, .i1⟩
  | .hbm, ⟨77, _⟩ => ⟨S_, .f32⟩
  | .hbm, ⟨78, _⟩ => ⟨S1600000x64, .f32⟩
  | .hbm, ⟨79, _⟩ => ⟨S1600000x64, .f32⟩
  | .hbm, ⟨80, _⟩ => ⟨S1600000x64, .f32⟩
  | .hbm, ⟨81, _⟩ => ⟨S_, .f32⟩
  | .hbm, ⟨82, _⟩ => ⟨S50000x64, .f32⟩
  | .hbm, ⟨83, _⟩ => ⟨S1600000x1, .i32⟩
  | .hbm, ⟨84, _⟩ => ⟨S50000x64, .f32⟩
  | .hbm, ⟨85, _⟩ => ⟨S50000x64, .f32⟩
  | .hbm, ⟨86, _⟩ => ⟨S50000x64, .f32⟩
  | .hbm, ⟨87, _⟩ => ⟨S50000x64, .f32⟩
  | .hbm, ⟨88, _⟩ => ⟨S_, .f32⟩
  | .hbm, ⟨89, _⟩ => ⟨S64, .f32⟩
  | .hbm, ⟨90, _⟩ => ⟨S1x64, .f32⟩
  | .hbm, ⟨91, _⟩ => ⟨S_, .f32⟩
  | .hbm, ⟨92, _⟩ => ⟨S1x64, .f32⟩
  | .hbm, ⟨93, _⟩ => ⟨S1x64, .f32⟩
  | .hbm, ⟨94, _⟩ => ⟨S64x2, .f32⟩
  | .hbm, ⟨95, _⟩ => ⟨S1x2, .f32⟩
  | .hbm, ⟨96, _⟩ => ⟨S1x2, .f32⟩
  | .hbm, ⟨97, _⟩ => ⟨S1x2, .f32⟩
  | .hbm, ⟨98, _⟩ => ⟨S_, .f32⟩
  | .hbm, ⟨99, _⟩ => ⟨S1, .f32⟩
  | .hbm, ⟨100, _⟩ => ⟨S_, .f32⟩
  | .hbm, ⟨101, _⟩ => ⟨S1, .f32⟩
  | .hbm, ⟨102, _⟩ => ⟨S1, .f32⟩
  | .hbm, ⟨103, _⟩ => ⟨S1x1, .f32⟩
  | .hbm, ⟨104, _⟩ => ⟨S1x2, .f32⟩
  | .hbm, ⟨105, _⟩ => ⟨S1x2, .f32⟩
  | .hbm, ⟨106, _⟩ => ⟨S1x2, .f32⟩
  | .hbm, ⟨107, _⟩ => ⟨S_, .f32⟩
  | .hbm, ⟨108, _⟩ => ⟨S1, .f32⟩
  | .hbm, ⟨109, _⟩ => ⟨S1x1, .f32⟩
  | .hbm, ⟨110, _⟩ => ⟨S1x1, .f32⟩
  | .hbm, ⟨111, _⟩ => ⟨S1x2, .f32⟩
  | .hbm, ⟨112, _⟩ => ⟨S1x2, .f32⟩
  | .local _ .vmem, ⟨0, _⟩ => ⟨S5000x20, .f32⟩
  | .local _ .vmem, ⟨1, _⟩ => ⟨S5000x20, .f32⟩
  | .local _ .vmem, ⟨2, _⟩ => ⟨S32x20, .f32⟩
  | .local _ .vmem, ⟨3, _⟩ => ⟨S32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S64x32, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | _, _ => ⟨S50000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33_0 : Ref sig .tc := ⟨.hbm, 57, rfl⟩
abbrev main_v33_1 : Ref sig .tc := ⟨.hbm, 58, rfl⟩
abbrev main_c_6 : Ref sig .tc := ⟨.hbm, 59, rfl⟩
abbrev main_v34 : Ref sig .tc := ⟨.hbm, 60, rfl⟩
abbrev main_v35 : Ref sig .tc := ⟨.hbm, 61, rfl⟩
abbrev main_c_7 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_8 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_v46 : Ref sig .tc := ⟨.hbm, 80, rfl⟩
abbrev main_cst_9 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_10 : Ref sig .tc := ⟨.hbm, 88, rfl⟩
abbrev main_v53 : Ref sig .tc := ⟨.hbm, 89, rfl⟩
abbrev main_v54 : Ref sig .tc := ⟨.hbm, 90, rfl⟩
abbrev main_cst_11 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_call2_cst : Ref sig .tc := ⟨.hbm, 98, rfl⟩
abbrev main_call2_v0 : Ref sig .tc := ⟨.hbm, 99, rfl⟩
abbrev main_call2_cst_0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_v6 : Ref sig .tc := ⟨.hbm, 106, rfl⟩
abbrev main_call2_cst_1 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_v61 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S_S50000x1 : S_.BroadcastsInDim S50000x1 (![] : Fin 0 → Fin S50000x1.rank)
  inb_S5000x20_S5000x20_0_0 : ∀ a, (![0, 0] : Fin 2 → Nat) a + S5000x20.size a ≤ S5000x20.size a
  h_S5000x20 : 0 < S5000x20.numel
  bitsLt_bf16_f32 : FTy.bits .bf16 < FTy.bits .f32
  inb_S32x20_S32x20_0_0 : ∀ a, (![0, 0] : Fin 2 → Nat) a + S32x20.size a ≤ S32x20.size a
  h_S32x20 : 0 < S32x20.numel
  transposes_S32x20_p1_0_S20x32 : S32x20.Transposes [1, 0] S20x32
  inb_S5000x32_S5000x32_0_0 : ∀ a, (![0, 0] : Fin 2 → Nat) a + S5000x32.size a ≤ S5000x32.size a
  h_S5000x32 : 0 < S5000x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  bcast_S_S1600000 : S_.BroadcastsInDim S1600000 (![] : Fin 0 → Fin S1600000.rank)
  bcast_S1600000x1_S1600000x32_0_1 : S1600000x1.BroadcastsInDim S1600000x32 (![0, 1] : Fin 2 → Fin S1600000x32.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  shapeCasts_S5000x32_S5000x32 : S5000x32.ShapeCasts S5000x32
  inb_S64x32_S64x32_0_0 : ∀ a, (![0, 0] : Fin 2 → Nat) a + S64x32.size a ≤ S64x32.size a
  h_S64x32 : 0 < S64x32.numel
  transposes_S64x32_p1_0_S32x64 : S64x32.Transposes [1, 0] S32x64
  inb_S5000x64_S5000x64_0_0 : ∀ a, (![0, 0] : Fin 2 → Nat) a + S5000x64.size a ≤ S5000x64.size a
  h_S5000x64 : 0 < S5000x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S1600000x1_S1600000x64_0_1 : S1600000x1.BroadcastsInDim S1600000x64 (![0, 1] : Fin 2 → Fin S1600000x64.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  reducesTo_S50000x64_S64_d0 : S50000x64.ReducesTo [0] S64
  h_S_ : 0 < S_.numel
  bcast_S_S1x64 : S_.BroadcastsInDim S1x64 (![] : Fin 0 → Fin S1x64.rank)
  transposes_S2x64_S64x2_1_0 : S2x64.Transposes [1, 0] S64x2
  bcast_S2_S1x2_1 : S2.BroadcastsInDim S1x2 (![1] : Fin 1 → Fin S1x2.rank)
  reducesTo_S1x2_S1_d1 : S1x2.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x2_0_1 : S1x1.BroadcastsInDim S1x2 (![0, 1] : Fin 2 → Fin S1x2.rank)
  scatter_S50000x1_S1600000x1_S1600000x1_1_0_0_1_wf : ScatterDims.WF S50000x1 S1600000x1 S1600000x1 [1] [0] [0] 1
  dot_S5000x20_S20x32_S5000x32_1_0_0_1_n_n_wf : DotDims.WF S5000x20 S20x32 S5000x32 [1] [0] [0] [1] [] []
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  dot_S5000x32_S32x64_S5000x64_1_0_0_1_n_n_wf : DotDims.WF S5000x32 S32x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S1x64_S64x2_S1x2_1_0_0_1_n_n_wf : DotDims.WF S1x64 S64x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x20.size a ≤ S50000x20.size a
  hwx0_0 : ∀ i : grid0.Coords, EltTy.bits .f32 = 32 ∨ (Rect.block (s := S50000x20) S5000x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x20.size a ≤ S32x20.size a
  hwx0_1 : ∀ i : grid0.Coords, EltTy.bits .f32 = 32 ∨ (Rect.block (s := S32x20) S32x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S50000x32.size a
  hwx0_3 : ∀ i : grid0.Coords, EltTy.bits .f32 = 32 ∨ (Rect.block (s := S50000x32) S5000x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x32.size a ≤ S50000x32.size a
  hwx0_4 : ∀ i : grid0.Coords, EltTy.bits .f32 = 32 ∨ (Rect.block (s := S50000x32) S5000x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S50000x32.size a
  hwx1_0 : ∀ i : grid1.Coords, EltTy.bits .f32 = 32 ∨ (Rect.block (s := S50000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S5000x20_S20x32_S5000x32_1_0_0_1_n_n : DotDims S5000x20 S20x32 S5000x32 where
  lhsContracting := [1]
  rhsContracting := [0]
  lhsNonContracting := [0]
  rhsNonContracting := [1]
  lhsBatch := []
  rhsBatch := []
  wf := dot_S5000x20_S20x32_S5000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S1x64_S64x2_S1x2_1_0_0_1_n_n : DotDims S1x64 S64x2 S1x2 where
  lhsContracting := [1]
  rhsContracting := [0]
  lhsNonContracting := [0]
  rhsNonContracting := [1]
  lhsBatch := []
  rhsBatch := []
  wf := dot_S1x64_S64x2_S1x2_1_0_0_1_n_n_wf

abbrev win0_0 : Pipeline.Window sig grid0 :=
  Pipeline.Window.ofSpec (Memref.whole main_arg0) S5000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S5000x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S5000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v32) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v33_1) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x20 : Shape := ⟨2, ![50000, 20]⟩
abbrev S2x1600000 : Shape := ⟨2, ![2, 1600000]⟩
abbrev S1600000 : Shape := ⟨1, ![1600000]⟩
abbrev S32x20 : Shape := ⟨2, ![32, 20]⟩
abbrev S32 : Shape := ⟨1, ![32]⟩
abbrev S64x32 : Shape := ⟨2, ![64, 32]⟩
abbrev S64 : Shape := ⟨1, ![64]⟩
abbrev S2x64 : Shape := ⟨2, ![2, 64]⟩
abbrev S2 : Shape := ⟨1, ![2]⟩
abbrev S1x1600000 : Shape := ⟨2, ![1, 1600000]⟩
abbrev S_ : Shape := ⟨0, ![]⟩
abbrev S1600000x1 : Shape := ⟨2, ![1600000, 1]⟩
abbrev S1600000x20 : Shape := ⟨2, ![1600000, 20]⟩
abbrev S20x32 : Shape := ⟨2, ![20, 32]⟩
abbrev S1600000x32 : Shape := ⟨2, ![1600000, 32]⟩
abbrev S1x32 : Shape := ⟨2, ![1, 32]⟩
abbrev S50000x32 : Shape := ⟨2, ![50000, 32]⟩
abbrev S50000x1 : Shape := ⟨2, ![50000, 1]⟩
abbrev S32x64 : Shape := ⟨2, ![32, 64]⟩
abbrev S1600000x64 : Shape := ⟨2, ![1600000, 64]⟩
abbrev S1x64 : Shape := ⟨2, ![1, 64]⟩
abbrev S50000x64 : Shape := ⟨2, ![50000, 64]⟩
abbrev S64x2 : Shape := ⟨2, ![64, 2]⟩
abbrev S1x2 : Shape := ⟨2, ![1, 2]⟩
abbrev S1 : Shape := ⟨1, ![1]⟩
abbrev S1x1 : Shape := ⟨2, ![1, 1]⟩

abbrev nBuf : Space → Nat
  | .hbm => 146
  | .vmem => 0
  | .smem => 0
  | _ => 0

abbrev hbmTy0_0 (i : Nat) : BufTy := match i % 128 with
  | 0 => ⟨S50000x20, .f32⟩
  | 1 => ⟨S2x1600000, .i32⟩
  | 2 => ⟨S1600000, .f32⟩
  | 3 => ⟨S32x20, .f32⟩
  | 4 => ⟨S32, .f32⟩
  | 5 => ⟨S64x32, .f32⟩
  | 6 => ⟨S64, .f32⟩
  | 7 => ⟨S2x64, .f32⟩
  | 8 => ⟨S2, .f32⟩
  | 9 => ⟨S1x1600000, .i32⟩
  | 10 => ⟨S1600000, .i32⟩
  | 11 => ⟨S1x1600000, .i32⟩
  | 12 => ⟨S1600000, .i32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x20, .f32⟩
  | 22 => ⟨S1600000x1, .f32⟩
  | 23 => ⟨S1600000x20, .f32⟩
  | 24 => ⟨S1600000x20, .f32⟩
  | 25 => ⟨S20x32, .f32⟩
  | 26 => ⟨S1600000x32, .f32⟩
  | 27 => ⟨S1x32, .f32⟩
  | 28 => ⟨S1600000x32, .f32⟩
  | 29 => ⟨S1600000x32, .f32⟩
  | 30 => ⟨S_, .f32⟩
  | 31 => ⟨S_, .f32⟩
  | 32 => ⟨S1600000x32, .f32⟩
  | 33 => ⟨S1600000x32, .i1⟩
  | 34 => ⟨S_, .f32⟩
  | 35 => ⟨S1600000x32, .f32⟩
  | 36 => ⟨S1600000x32, .f32⟩
  | 37 => ⟨S1600000x32, .f32⟩
  | 38 => ⟨S_, .f32⟩
  | 39 => ⟨S50000x32, .f32⟩
  | 40 => ⟨S1600000x1, .i32⟩
  | 41 => ⟨S50000x32, .f32⟩
  | 42 => ⟨S_, .f32⟩
  | 43 => ⟨S1600000x1, .f32⟩
  | 44 => ⟨S_, .f32⟩
  | 45 => ⟨S50000x1, .f32⟩
  | 46 => ⟨S1600000x1, .i32⟩
  | 47 => ⟨S50000x1, .f32⟩
  | 48 => ⟨S_, .f32⟩
  | 49 => ⟨S50000x1, .f32⟩
  | 50 => ⟨S50000x1, .f32⟩
  | 51 => ⟨S50000x32, .f32⟩
  | 52 => ⟨S50000x32, .f32⟩
  | 53 => ⟨S20x32, .f32⟩
  | 54 => ⟨S50000x32, .f32⟩
  | 55 => ⟨S1x32, .f32⟩
  | 56 => ⟨S50000x32, .f32⟩
  | 57 => ⟨S50000x32, .f32⟩
  | 58 => ⟨S_, .f32⟩
  | 59 => ⟨S_, .f32⟩
  | 60 => ⟨S50000x32, .f32⟩
  | 61 => ⟨S50000x32, .i1⟩
  | 62 => ⟨S_, .f32⟩
  | 63 => ⟨S50000x32, .f32⟩
  | 64 => ⟨S50000x32, .f32⟩
  | 65 => ⟨S50000x32, .f32⟩
  | 66 => ⟨S50000x32, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x32, .f32⟩
  | 76 => ⟨S1600000x1, .f32⟩
  | 77 => ⟨S1600000x32, .f32⟩
  | 78 => ⟨S1600000x32, .f32⟩
  | 79 => ⟨S32x64, .f32⟩
  | 80 => ⟨S1600000x64, .f32⟩
  | 81 => ⟨S1x64, .f32⟩
  | 82 => ⟨S1600000x64, .f32⟩
  | 83 => ⟨S1600000x64, .f32⟩
  | 84 => ⟨S_, .f32⟩
  | 85 => ⟨S_, .f32⟩
  | 86 => ⟨S1600000x64, .f32⟩
  | 87 => ⟨S1600000x64, .i1⟩
  | 88 => ⟨S_, .f32⟩
  | 89 => ⟨S1600000x64, .f32⟩
  | 90 => ⟨S1600000x64, .f32⟩
  | 91 => ⟨S1600000x64, .f32⟩
  | 92 => ⟨S_, .f32⟩
  | 93 => ⟨S50000x64, .f32⟩
  | 94 => ⟨S1600000x1, .i32⟩
  | 95 => ⟨S50000x64, .f32⟩
  | 96 => ⟨S_, .f32⟩
  | 97 => ⟨S1600000x1, .f32⟩
  | 98 => ⟨S_, .f32⟩
  | 99 => ⟨S50000x1, .f32⟩
  | 100 => ⟨S1600000x1, .i32⟩
  | 101 => ⟨S50000x1, .f32⟩
  | 102 => ⟨S_, .f32⟩
  | 103 => ⟨S50000x1, .f32⟩
  | 104 => ⟨S50000x1, .f32⟩
  | 105 => ⟨S50000x64, .f32⟩
  | 106 => ⟨S50000x64, .f32⟩
  | 107 => ⟨S32x64, .f32⟩
  | 108 => ⟨S50000x64, .f32⟩
  | 109 => ⟨S1x64, .f32⟩
  | 110 => ⟨S50000x64, .f32⟩
  | 111 => ⟨S50000x64, .f32⟩
  | 112 => ⟨S_, .f32⟩
  | 113 => ⟨S_, .f32⟩
  | 114 => ⟨S50000x64, .f32⟩
  | 115 => ⟨S50000x64, .i1⟩
  | 116 => ⟨S_, .f32⟩
  | 117 => ⟨S50000x64, .f32⟩
  | 118 => ⟨S50000x64, .f32⟩
  | 119 => ⟨S50000x64, .f32⟩
  | 120 => ⟨S50000x64, .f32⟩
  | 121 => ⟨S_, .f32⟩
  | 122 => ⟨S64, .f32⟩
  | 123 => ⟨S1x64, .f32⟩
  | 124 => ⟨S_, .f32⟩
  | 125 => ⟨S1x64, .f32⟩
  | 126 => ⟨S1x64, .f32⟩
  | 127 => ⟨S64x2, .f32⟩
  | _ => ⟨S50000x20, .f32⟩

abbrev hbmTy0_1 (i : Nat) : BufTy := match i % 128 with
  | 0 => ⟨S1x2, .f32⟩
  | 1 => ⟨S1x2, .f32⟩
  | 2 => ⟨S1x2, .f32⟩
  | 3 => ⟨S_, .f32⟩
  | 4 => ⟨S1, .f32⟩
  | 5 => ⟨S_, .f32⟩
  | 6 => ⟨S1, .f32⟩
  | 7 => ⟨S1, .f32⟩
  | 8 => ⟨S1x1, .f32⟩
  | 9 => ⟨S1x2, .f32⟩
  | 10 => ⟨S1x2, .f32⟩
  | 11 => ⟨S1x2, .f32⟩
  | 12 => ⟨S_, .f32⟩
  | 13 => ⟨S1, .f32⟩
  | 14 => ⟨S1x1, .f32⟩
  | 15 => ⟨S1x1, .f32⟩
  | 16 => ⟨S1x2, .f32⟩
  | 17 => ⟨S1x2, .f32⟩
  | _ => ⟨S50000x20, .f32⟩

abbrev hbmTy (i : Nat) : BufTy := match i / 128 with
  | 0 => hbmTy0_0 i
  | 1 => hbmTy0_1 i
  | _ => ⟨S50000x20, .f32⟩

abbrev bufTy : (tb : Table) → Fin (tcTables nBuf tb) → BufTy
  | .hbm, ⟨i, _⟩ => hbmTy i
  | _, _ => ⟨S50000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v36 : Ref sig .tc := ⟨.hbm, 65, rfl⟩
abbrev main_v37 : Ref sig .tc := ⟨.hbm, 66, rfl⟩
abbrev main_c_6 : Ref sig .tc := ⟨.hbm, 67, rfl⟩
abbrev main_v38 : Ref sig .tc := ⟨.hbm, 68, rfl⟩
abbrev main_v39 : Ref sig .tc := ⟨.hbm, 69, rfl⟩
abbrev main_c_7 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_8 : Ref sig .tc := ⟨.hbm, 84, rfl⟩
abbrev main_call2_cst : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_v53 : Ref sig .tc := ⟨.hbm, 91, rfl⟩
abbrev main_cst_9 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_10 : Ref sig .tc := ⟨.hbm, 96, rfl⟩
abbrev main_v57 : Ref sig .tc := ⟨.hbm, 97, rfl⟩
abbrev main_cst_11 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_12 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_13 : Ref sig .tc := ⟨.hbm, 112, rfl⟩
abbrev main_call3_cst : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_v70 : Ref sig .tc := ⟨.hbm, 119, rfl⟩
abbrev main_v71 : Ref sig .tc := ⟨.hbm, 120, rfl⟩
abbrev main_cst_14 : Ref sig .tc := ⟨.hbm, 121, rfl⟩
abbrev main_v72 : Ref sig .tc := ⟨.hbm, 122, rfl⟩
abbrev main_v73 : Ref sig .tc := ⟨.hbm, 123, rfl⟩
abbrev main_cst_15 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_call4_cst : Ref sig .tc := ⟨.hbm, 131, rfl⟩
abbrev main_call4_v0 : Ref sig .tc := ⟨.hbm, 132, rfl⟩
abbrev main_call4_cst_0 : Ref sig .tc := ⟨.hbm, 133, rfl⟩
abbrev main_call4_v1 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_call4_v5 : Ref sig .tc := ⟨.hbm, 138, rfl⟩
abbrev main_call4_v6 : Ref sig .tc := ⟨.hbm, 139, rfl⟩
abbrev main_call4_cst_1 : Ref sig .tc := ⟨.hbm, 140, rfl⟩
abbrev main_call4_v7 : Ref sig .tc := ⟨.hbm, 141, rfl⟩
abbrev main_call4_v8 : Ref sig .tc := ⟨.hbm, 142, rfl⟩
abbrev main_call4_v9 : Ref sig .tc := ⟨.hbm, 143, rfl⟩
abbrev main_call4_v10 : Ref sig .tc := ⟨.hbm, 144, rfl⟩
abbrev main_v80 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x20_0_1 : S1600000x1.BroadcastsInDim S1600000x20 (![0, 1] : Fin 2 → Fin S1600000x20.rank)
  transposes_S32x20_S20x32_1_0 : S32x20.Transposes [1, 0] S20x32
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S_S50000x32 : S_.BroadcastsInDim S50000x32 (![] : Fin 0 → Fin S50000x32.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x32_0_1 : S50000x1.BroadcastsInDim S50000x32 (![0, 1] : Fin 2 → Fin S50000x32.rank)
  bcast_S1x32_S50000x32_0_1 : S1x32.BroadcastsInDim S50000x32 (![0, 1] : Fin 2 → Fin S50000x32.rank)
  bcast_S1600000x1_S1600000x32_0_1 : S1600000x1.BroadcastsInDim S1600000x32 (![0, 1] : Fin 2 → Fin S1600000x32.rank)
  transposes_S64x32_S32x64_1_0 : S64x32.Transposes [1, 0] S32x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S1x64 : S_.BroadcastsInDim S1x64 (![] : Fin 0 → Fin S1x64.rank)
  transposes_S2x64_S64x2_1_0 : S2x64.Transposes [1, 0] S64x2
  bcast_S2_S1x2_1 : S2.BroadcastsInDim S1x2 (![1] : Fin 1 → Fin S1x2.rank)
  reducesTo_S1x2_S1_d1 : S1x2.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x2_0_1 : S1x1.BroadcastsInDim S1x2 (![0, 1] : Fin 2 → Fin S1x2.rank)
  gather_S50000x20_S1600000x1_S1600000x20_1_0_n_n_0_1_120_wf : GatherDims.WF S50000x20 S1600000x1 S1600000x20 [1] [0] [] [0] [] 1 ![1, 20]
  dot_S1600000x20_S20x32_S1600000x32_1_0_0_1_n_n_wf : DotDims.WF S1600000x20 S20x32 S1600000x32 [1] [0] [0] [1] [] []
  scatter_S50000x32_S1600000x1_S1600000x32_1_0_0_1_wf : ScatterDims.WF S50000x32 S1600000x1 S1600000x32 [1] [0] [0] 1
  scatter_S50000x1_S1600000x1_S1600000x1_1_0_0_1_wf : ScatterDims.WF S50000x1 S1600000x1 S1600000x1 [1] [0] [0] 1
  dot_S50000x20_S20x32_S50000x32_1_0_0_1_n_n_wf : DotDims.WF S50000x20 S20x32 S50000x32 [1] [0] [0] [1] [] []
  gather_S50000x32_S1600000x1_S1600000x32_1_0_n_n_0_1_132_wf : GatherDims.WF S50000x32 S1600000x1 S1600000x32 [1] [0] [] [0] [] 1 ![1, 32]
  dot_S1600000x32_S32x64_S1600000x64_1_0_0_1_n_n_wf : DotDims.WF S1600000x32 S32x64 S1600000x64 [1] [0] [0] [1] [] []
  scatter_S50000x64_S1600000x1_S1600000x64_1_0_0_1_wf : ScatterDims.WF S50000x64 S1600000x1 S1600000x64 [1] [0] [0] 1
  dot_S50000x32_S32x64_S50000x64_1_0_0_1_n_n_wf : DotDims.WF S50000x32 S32x64 S50000x64 [1] [0] [0] [1] [] []
  dot_S1x64_S64x2_S1x2_1_0_0_1_n_n_wf : DotDims.WF S1x64 S64x2 S1x2 [1] [0] [0] [1] [] []

variable [Facts₀]

def gather_S50000x20_S1600000x1_S1600000x20_1_0_n_n_0_1_120 : GatherDims S50000x20 S1600000x1 S1600000x20 where
  offsetDims := [1]
  collapsedSliceDims := [0]
  operandBatchingDims := []
  startIndicesBatchingDims := []
  startIndexMap := [0]
  indexVectorDim := 1
  sliceSizes := ![1, 20]
  wf := gather_S50000x20_S1600000x1_S1600000x20_1_0_n_n_0_1_120_wf
def dot_S1600000x20_S20x32_S1600000x32_1_0_0_1_n_n : DotDims S1600000x20 S20x32 S1600000x32 where
  lhsContracting := [1]
  rhsContracting := [0]
  lhsNonContracting := [0]
  rhsNonContracting := [1]
  lhsBatch := []
  rhsBatch := []
  wf := dot_S1600000x20_S20x32_S1600000x32_1_0_0_1_n_n_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S50000x20_S20x32_S50000x32_1_0_0_1_n_n : DotDims S50000x20 S20x32 S50000x32 where
  lhsContracting := [1]
  rhsContracting := [0]
  lhsNonContracting := [0]
  rhsNonContracting := [1]
  lhsBatch := []
  rhsBatch := []
  wf := dot_S50000x20_S20x32_S50000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S1600000x32_S32x64_S1600000x64_1_0_0_1_n_n : DotDims S1600000x32 S32x64 S1600000x64 where
  lhsContracting := [1]
  rhsContracting := [0]
  lhsNonContracting := [0]
  rhsNonContracting := [1]
  lhsBatch := []
  rhsBatch := []
  wf := dot_S1600000x32_S32x64_S1600000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def dot_S1x64_S64x2_S1x2_1_0_0_1_n_n : DotDims S1x64 S64x2 S1x2 where
  lhsContracting := [1]
  rhsContracting := [0]
  lhsNonContracting := [0]
  rhsNonContracting := [1]
  lhsBatch := []
  rhsBatch := []
  wf := dot_S1x64_S64x2_S1x2_1_0_0_1_n_n_wf

class Facts : Prop extends Facts₀ where

variable [Facts]
-- ==== Proof.KerRun.lean ====
/-
  The program's run with its result buffer named. From any memory with zero counters every weakly fair execution of the
  program on the TensorCores terminates, nothing faulting; every final state has the result buffer at the contents the
  last segment boundary gives it — the fold of the host operations and of the two regions' write-backs over the launch
  memory — and each of the nine argument arrays as launched. The thread state the segments hand from one to the next
  holds EVERY unscoped buffer at the boundary's contents, so the final state is read at the result buffer exactly as it
  is read at an argument's.
-/
import proofs.«168688_j12120397709448_2_alg».proof.Proof.Gen.KernelIdeal.Frame

-- membership in a rectangle of production extents: the elaborator's structural look recurses once per coordinate
set_option maxRecDepth 16384

noncomputable section

namespace Cert.KernelIdeal.KerSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: termination, the result buffer at the last boundary's contents, the arguments as launched. The segments'
    last thread state holds every unscoped buffer at the last boundary's contents; read against the final state it
    gives the physical contents of each, the result buffer among them; an argument's contents there walk back
    through the fold to the launch memory. -/
theorem run_main : θ_run defs (onTc (τ := τ) (main (F := F))) ⟨m, fun _ => 0, ρ⟩ (fun r => ∀ c : Dev nD,
      r.2.mem ((c.tc : Thread nD τ).loc main_v61) = W10 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v61 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

/-- info: 'Cert.KernelIdeal.KerSide.run_main' depends on axioms: [propext, Classical.choice, Quot.sound] -/
#guard_msgs in #print axioms run_main

end Cert.KernelIdeal.KerSide

end
-- ==== Proof.KerTerm.lean ====
/-
  The values the program's host operations compute, written as functions of the argument arrays and of the two
  kernels' output arrays. Each definition composes the host operations in the program's order: the row and column
  index vectors read off the edge list, the reciprocal of each node's in-degree (at least one), the leaky rectifier
  on the per-edge messages, each layer's aggregated output, and the tail — the mean over the nodes, the final linear
  map and the logarithm of the softmax.
-/
import proofs.«168688_j12120397709448_2_alg».proof.KernelIdeal
import proofs.«168688_j12120397709448_2_alg».proof.Proof.Gen.KernelIdeal
import Idealize.ShloMosaic.PureOps.Ideal

noncomputable section

namespace Cert.KernelIdeal.KerSide

open Cert.KernelIdeal Cert.KernelIdeal.Gen Idealize.ShloMosaic Idealize.SL.Sem

/-! ## The index vectors -/

/-- Row 0 of the edge list, as a flat vector: the slice of the row, reshaped. -/
def row0 (edge : IVec S2x1600000 32) : IVec S1600000 32 :=
  shapeCast S1600000 (extractStridedSlice S1x1600000 ![0, 0] edge slices_S2x1600000_S1x1600000_0_0)
    shapeCasts_S1x1600000_S1600000

/-- Row 1 of the edge list, as a flat vector. -/
def row1 (edge : IVec S2x1600000 32) : IVec S1600000 32 :=
  shapeCast S1600000 (extractStridedSlice S1x1600000 ![1, 0] edge slices_S2x1600000_S1x1600000_1_0)
    shapeCasts_S1x1600000_S1600000

/-- The scatter's index table: row 0 of the edge list as a column, one index per edge. -/
def rowIdx (edge : IVec S2x1600000 32) : IVec S1600000x1 32 :=
  broadcastInDim S1600000x1 ![0] bcast_S1600000_S1600000x1_0 (row0 edge)

/-- The gather's index table: row 1 of the edge list, a negative entry moved up by the number of nodes, as a
    column. -/
def colIdx (edge : IVec S2x1600000 32) : IVec S1600000x1 32 :=
  broadcastInDim S1600000x1 ![0] bcast_S1600000_S1600000x1_0
    (select (cmpi .slt (row1 edge) (broadcastInDim S1600000 ![] bcast_S_S1600000 (constantI S_ 32 0#32)))
      (addi (row1 edge) (broadcastInDim S1600000 ![] bcast_S_S1600000 (constantI S_ 32 50000#32)))
      (row1 edge))

/-! ## The degree normalisation -/

/-- One over each node's count of incoming edges, the count taken as at least one: ones scattered and summed
    at the row indices over zeros, the maximum with one, and one divided by it. -/
def invCnt (edge : IVec S2x1600000 32) : FVec Ideal S50000x1 .f32 :=
  Host.divf (F := Ideal)
    (broadcastInDim S50000x1 ![] bcast_S_S50000x1 (constant (F := Ideal) S_ .f32 0x3F800000#32))
    (maximumf (F := Ideal)
      (Host.scatterAdd (F := Ideal) scatter_S50000x1_S1600000x1_S1600000x1_1_0_0_1
        (broadcastInDim S50000x1 ![] bcast_S_S50000x1 (constant (F := Ideal) S_ .f32 0x00000000#32))
        (rowIdx edge)
        (broadcastInDim S1600000x1 ![] bcast_S_S1600000x1 (constant (F := Ideal) S_ .f32 0x3F800000#32)))
      (broadcastInDim S50000x1 ![] bcast_S_S50000x1 (constant (F := Ideal) S_ .f32 0x3F800000#32)))

/-! ## The leaky rectifier -/

/-- The leaky rectifier on the first layer's messages: an entry at least zero is kept, any other is multiplied
    by the slope. -/
def lreluE32 (v : FVec Ideal S1600000x32 .f32) : FVec Ideal S1600000x32 .f32 :=
  select
    (cmpf (F := Ideal) .oge v
      (broadcastInDim S1600000x32 ![] bcast_S_S1600000x32 (constant (F := Ideal) S_ .f32 0x00000000#32)))
    v
    (mulf (F := Ideal)
      (broadcastInDim S1600000x32 ![] bcast_S_S1600000x32 (id (constant (F := Ideal) S_ .f32 0x3C23D70A#32)))
      v)

/-- The leaky rectifier on the second layer's messages. -/
def lreluE64 (v : FVec Ideal S1600000x64 .f32) : FVec Ideal S1600000x64 .f32 :=
  select
    (cmpf (F := Ideal) .oge v
      (broadcastInDim S1600000x64 ![] bcast_S_S1600000x64 (constant (F := Ideal) S_ .f32 0x00000000#32)))
    v
    (mulf (F := Ideal)
      (broadcastInDim S1600000x64 ![] bcast_S_S1600000x64 (id (constant (F := Ideal) S_ .f32 0x3C23D70A#32)))
      v)

/-! ## The two layers -/

/-- The edge weights as a column. -/
def wCol (w : FVec Ideal S1600000 .f32) : FVec Ideal S1600000x1 .f32 :=
  broadcastInDim S1600000x1 ![0] bcast_S1600000_S1600000x1_0 w

/-- The first layer's message on each edge before the rectifier: the row of z1 at the edge's column index,
    times the edge's weight, plus the bias. -/
def pre1 (edge : IVec S2x1600000 32) (w : FVec Ideal S1600000 .f32) (b1 : FVec Ideal S32 .f32)
    (z1 : FVec Ideal S50000x32 .f32) : FVec Ideal S1600000x32 .f32 :=
  addf (F := Ideal)
    (mulf (F := Ideal)
      (broadcastInDim S1600000x32 ![0, 1] bcast_S1600000x1_S1600000x32_0_1 (wCol w))
      (Host.gather gather_S50000x32_S1600000x1_S1600000x32_1_0_n_n_0_1_132 z1 (colIdx edge)))
    (broadcastInDim S1600000x32 ![0, 1] bcast_S1x32_S1600000x32_0_1
      (broadcastInDim S1x32 ![1] bcast_S32_S1x32_1 b1))

/-- The first layer's output: the rectified messages summed into their row nodes, each node's sum times one over
    its count, plus the node's own term. -/
def out1 (edge : IVec S2x1600000 32) (w : FVec Ideal S1600000 .f32) (b1 : FVec Ideal S32 .f32)
    (z1 res1 : FVec Ideal S50000x32 .f32) : FVec Ideal S50000x32 .f32 :=
  addf (F := Ideal)
    (mulf (F := Ideal)
      (Host.scatterAdd (F := Ideal) scatter_S50000x32_S1600000x1_S1600000x32_1_0_0_1
        (broadcastInDim S50000x32 ![] bcast_S_S50000x32 (constant (F := Ideal) S_ .f32 0x00000000#32))
        (rowIdx edge)
        (lreluE32 (pre1 edge w b1 z1)))
      (broadcastInDim S50000x32 ![0, 1] bcast_S50000x1_S50000x32_0_1 (invCnt edge)))
    res1

/-- The second layer's message on each edge before the rectifier. -/
def pre2 (edge : IVec S2x1600000 32) (w : FVec Ideal S1600000 .f32) (b3 : FVec Ideal S64 .f32)
    (z2 : FVec Ideal S50000x64 .f32) : FVec Ideal S1600000x64 .f32 :=
  addf (F := Ideal)
    (mulf (F := Ideal)
      (broadcastInDim S1600000x64 ![0, 1] bcast_S1600000x1_S1600000x64_0_1 (wCol w))
      (Host.gather gather_S50000x64_S1600000x1_S1600000x64_1_0_n_n_0_1_164 z2 (colIdx edge)))
    (broadcastInDim S1600000x64 ![0, 1] bcast_S1x64_S1600000x64_0_1
      (broadcastInDim S1x64 ![1] bcast_S64_S1x64_1 b3))

/-- The second layer's output. -/
def out2 (edge : IVec S2x1600000 32) (w : FVec Ideal S1600000 .f32) (b3 : FVec Ideal S64 .f32)
    (z2 res2 : FVec Ideal S50000x64 .f32) : FVec Ideal S50000x64 .f32 :=
  addf (F := Ideal)
    (mulf (F := Ideal)
      (Host.scatterAdd (F := Ideal) scatter_S50000x64_S1600000x1_S1600000x64_1_0_0_1
        (broadcastInDim S50000x64 ![] bcast_S_S50000x64 (constant (F := Ideal) S_ .f32 0x00000000#32))
        (rowIdx edge)
        (lreluE64 (pre2 edge w b3 z2)))
      (broadcastInDim S50000x64 ![0, 1] bcast_S50000x1_S50000x64_0_1 (invCnt edge)))
    res2

/-! ## The tail -/

/-- The two logits: the mean of the second layer's output over the nodes, through the last linear map, plus its
    bias. -/
def logits (o2 : FVec Ideal S50000x64 .f32) (W7 : FVec Ideal S2x64 .f32) (b7 : FVec Ideal S2 .f32) :
    FVec Ideal S1x2 .f32 :=
  addf (F := Ideal)
    (Host.dotGeneral (F := Ideal) dot_S1x64_S64x2_S1x2_1_0_0_1_n_n none
      (Host.divf (F := Ideal)
        (broadcastInDim S1x64 ![1] bcast_S64_S1x64_1
          (Host.reduceAdd (F := Ideal) o2 (constant (F := Ideal) S_ .f32 0x00000000#32) reducesTo_S50000x64_S64_d0 h_S_))
        (broadcastInDim S1x64 ![] bcast_S_S1x64 (constant (F := Ideal) S_ .f32 0x47435000#32)))
      (transpose S64x2 [1, 0] W7 transposes_S2x64_S64x2_1_0))
    (broadcastInDim S1x2 ![1] bcast_S2_S1x2_1 b7)

/-- The logits less their maximum (the maximum with minus infinity, as the program takes it). -/
def shifted (v : FVec Ideal S1x2 .f32) : FVec Ideal S1x2 .f32 :=
  subf (F := Ideal) v
    (broadcastInDim S1x2 ![0, 1] bcast_S1x1_S1x2_0_1
      (broadcastInDim S1x1 ![0] bcast_S1_S1x1_0
        (maximumf (F := Ideal)
          (broadcastInDim S1 ![] bcast_S_S1 (constant (F := Ideal) S_ .f32 0xFF800000#32))
          (Host.reduce (FloatOps.maximumf (F := Ideal)) v (constant (F := Ideal) S_ .f32 0xFF800000#32)
            reducesTo_S1x2_S1_d1 h_S_))))

/-- The logarithm of the softmax of a pair: the shifted pair less the logarithm of the sum of its exponentials. -/
def logSoftmax (v : FVec Ideal S1x2 .f32) : FVec Ideal S1x2 .f32 :=
  subf (F := Ideal) (shifted v)
    (broadcastInDim S1x2 ![0, 1] bcast_S1x1_S1x2_0_1
      (Host.log (F := Ideal)
        (broadcastInDim S1x1 ![0] bcast_S1_S1x1_0
          (Host.reduceAdd (F := Ideal) (Host.exp (F := Ideal) (shifted v))
            (constant (F := Ideal) S_ .f32 0x00000000#32) reducesTo_S1x2_S1_d1 h_S_))))

/-- The program's result from the second layer's output. -/
def tail (o2 : FVec Ideal S50000x64 .f32) (W7 : FVec Ideal S2x64 .f32) (b7 : FVec Ideal S2 .f32) :
    FVec Ideal S1x2 .f32 :=
  logSoftmax (logits o2 W7 b7)

end Cert.KernelIdeal.KerSide

end
-- ==== Proof.KerFold.lean ====
/-
  The buffer contents at the program's segment boundaries, read at the buffers that matter, as the composed host terms:
  one lemma per stretch of host operations — what the stretch leaves at a buffer, from ANY contents before it, is the
  stretch's operations applied to those contents at its operand buffers —, then the stretches chained from the launch
  memory to the return, each region crossed at its output arrays by what its write-backs leave and at every other buffer
  by what was there.
-/
import proofs.«168688_j12120397709448_2_alg».proof.Proof.Gen.KernelIdeal.Frame
import proofs.«168688_j12120397709448_2_alg».proof.Proof.KerTerm

set_option maxRecDepth 16384

noncomputable section

namespace Cert.KernelIdeal.KerSide

open Cert.KernelIdeal Cert.KernelIdeal.Gen
open Idealize.ShloMosaic Idealize.ShloMosaic.TcCoe Idealize.ShloMosaic.StableHlo
open Idealize.SL.Sem

/-! ## What each stretch writes

A stretch's operations write the buffers of one literal list; a reference outside the list keeps its contents through
the stretch. -/

/-- The buffers the first stretch writes. -/
def wr0 : List (Ref sig .tc) :=
  [main_v0, main_v1, main_v2, main_v3, main_v4, main_cst, main_v5, main_cst_0, main_v6, main_v7, main_v8, main_cst_1, main_v9, main_v10, main_cst_2, main_v11, main_v12]

theorem wr0_sub : (hostOps0 : List (HloOp τ sig (Elt Ideal))).Forall
    fun op => op.writes ⊆ (wr0.map (Proc.devRef (τ := τ) .tc)).toFinset := by
  simp only [hostOps0, List.Forall, nullary_writes, unary_writes, binary_writes, ternary_writes, reshape_writes]
  repeat' apply And.intro
  all_goals exact Finset.singleton_subset_iff.mpr (List.mem_toFinset.mpr (List.mem_map_of_mem (by decide)))

/-- A reference the first stretch does not write keeps its contents through it. -/
theorem keep0 (V : Valuation τ sig (Elt Ideal)) (r : Ref sig .tc) (hr : r ∉ wr0) :
    after hostOps0 V (Proc.devRef .tc r) = V (Proc.devRef .tc r) :=
  after_of_writes_sub hostOps0 V wr0_sub hr

/-- The buffers the second stretch writes. -/
def wr1 : List (Ref sig .tc) :=
  [main_c, main_v14, main_v15, main_c_3, main_v16, main_v17, main_v18, main_v19, main_v20, main_v21, main_v22, main_v23, main_v24, main_v25, main_cst_4]

theorem wr1_sub : (hostOps1 : List (HloOp τ sig (Elt Ideal))).Forall
    fun op => op.writes ⊆ (wr1.map (Proc.devRef (τ := τ) .tc)).toFinset := by
  simp only [hostOps1, List.Forall, nullary_writes, unary_writes, binary_writes, ternary_writes, reshape_writes]
  repeat' apply And.intro
  all_goals exact Finset.singleton_subset_iff.mpr (List.mem_toFinset.mpr (List.mem_map_of_mem (by decide)))

/-- A reference the second stretch does not write keeps its contents through it. -/
theorem keep1 (V : Valuation τ sig (Elt Ideal)) (r : Ref sig .tc) (hr : r ∉ wr1) :
    after hostOps1 V (Proc.devRef .tc r) = V (Proc.devRef .tc r) :=
  after_of_writes_sub hostOps1 V wr1_sub hr

/-- The buffers the fifth stretch writes. -/
def wr2 : List (Ref sig .tc) :=
  [main_c_6, main_v34, main_v35, main_c_7, main_v36, main_v37, main_v38, main_v39, main_v40, main_v41, main_v42, main_v43, main_v44, main_v45, main_cst_8]

theorem wr2_sub : (hostOps2 : List (HloOp τ sig (Elt Ideal))).Forall
    fun op => op.writes ⊆ (wr2.map (Proc.devRef (τ := τ) .tc)).toFinset := by
  simp only [hostOps2, List.Forall, nullary_writes, unary_writes, binary_writes, ternary_writes, reshape_writes]
  repeat' apply And.intro
  all_goals exact Finset.singleton_subset_iff.mpr (List.mem_toFinset.mpr (List.mem_map_of_mem (by decide)))

/-- A reference the fifth stretch does not write keeps its contents through it. -/
theorem keep2 (V : Valuation τ sig (Elt Ideal)) (r : Ref sig .tc) (hr : r ∉ wr2) :
    after hostOps2 V (Proc.devRef .tc r) = V (Proc.devRef .tc r) :=
  after_of_writes_sub hostOps2 V wr2_sub hr

/-- The buffers the third stretch writes. -/
def wr1_1 : List (Ref sig .tc) :=
  [main_call0_cst, main_call0_v0, main_call0_v1, main_call0_v2, main_call0_v3, main_call0_v4, main_v26]

theorem wr1_1_sub : (hostOps1_1 : List (HloOp τ sig (Elt Ideal))).Forall
    fun op => op.writes ⊆ (wr1_1.map (Proc.devRef (τ := τ) .tc)).toFinset := by
  simp only [hostOps1_1, List.Forall, nullary_writes, unary_writes, binary_writes, ternary_writes, reshape_writes]
  repeat' apply And.intro
  all_goals exact Finset.singleton_subset_iff.mpr (List.mem_toFinset.mpr (List.mem_map_of_mem (by decide)))

/-- A reference the third stretch does not write keeps its contents through it. -/
theorem keep1_1 (V : Valuation τ sig (Elt Ideal)) (r : Ref sig .tc) (hr : r ∉ wr1_1) :
    after hostOps1_1 V (Proc.devRef .tc r) = V (Proc.devRef .tc r) :=
  after_of_writes_sub hostOps1_1 V wr1_1_sub hr

/-- The buffers the fourth stretch writes. -/
def wr1_2 : List (Ref sig .tc) :=
  [main_cst_5, main_v27, main_v28, main_v29, main_v30, main_v31, main_v32]

theorem wr1_2_sub : (hostOps1_2 : List (HloOp τ sig (Elt Ideal))).Forall
    fun op => op.writes ⊆ (wr1_2.map (Proc.devRef (τ := τ) .tc)).toFinset := by
  simp only [hostOps1_2, List.Forall, nullary_writes, unary_writes, binary_writes, ternary_writes, reshape_writes]
  repeat' apply And.intro
  all_goals exact Finset.singleton_subset_iff.mpr (List.mem_toFinset.mpr (List.mem_map_of_mem (by decide)))

/-- A reference the fourth stretch does not write keeps its contents through it. -/
theorem keep1_2 (V : Valuation τ sig (Elt Ideal)) (r : Ref sig .tc) (hr : r ∉ wr1_2) :
    after hostOps1_2 V (Proc.devRef .tc r) = V (Proc.devRef .tc r) :=
  after_of_writes_sub hostOps1_2 V wr1_2_sub hr

/-- The buffers the sixth stretch writes. -/
def wr2_1 : List (Ref sig .tc) :=
  [main_call1_cst, main_call1_v0, main_call1_v1, main_call1_v2, main_call1_v3, main_call1_v4, main_v46]

theorem wr2_1_sub : (hostOps2_1 : List (HloOp τ sig (Elt Ideal))).Forall
    fun op => op.writes ⊆ (wr2_1.map (Proc.devRef (τ := τ) .tc)).toFinset := by
  simp only [hostOps2_1, List.Forall, nullary_writes, unary_writes, binary_writes, ternary_writes, reshape_writes]
  repeat' apply And.intro
  all_goals exact Finset.singleton_subset_iff.mpr (List.mem_toFinset.mpr (List.mem_map_of_mem (by decide)))

/-- A reference the sixth stretch does not write keeps its contents through it. -/
theorem keep2_1 (V : Valuation τ sig (Elt Ideal)) (r : Ref sig .tc) (hr : r ∉ wr2_1) :
    after hostOps2_1 V (Proc.devRef .tc r) = V (Proc.devRef .tc r) :=
  after_of_writes_sub hostOps2_1 V wr2_1_sub hr

/-! ## What each stretch computes

Each from ANY contents `V` before the stretch. Where a stretch reads a buffer an earlier stretch wrote (an index vector,
the weights' column, the reciprocal counts), the lemma takes that buffer's contents as a hypothesis, so that its
statement is the composed term over the argument arrays. -/

/-- The first stretch leaves row 0 of the edge list, flat, at its buffer. -/
theorem ops0_v1 (V : Valuation τ sig (Elt Ideal)) :
    after hostOps0 V (Proc.devRef .tc main_v1) = row0 (V (Proc.devRef .tc main_arg1)) := by
  dsimp only [hostOps0]; after_results; rfl

/-- … row 1 of the edge list, flat, -/
theorem ops0_v3 (V : Valuation τ sig (Elt Ideal)) :
    after hostOps0 V (Proc.devRef .tc main_v3) = row1 (V (Proc.devRef .tc main_arg1)) := by
  dsimp only [hostOps0]; after_results; rfl

/-- … the edge weights as a column, -/
theorem ops0_v4 (V : Valuation τ sig (Elt Ideal)) :
    after hostOps0 V (Proc.devRef .tc main_v4) = wCol (V (Proc.devRef .tc main_arg2)) := by
  dsimp only [hostOps0]; after_results; rfl

/-- … and the reciprocal in-degree counts. -/
theorem ops0_v12 (V : Valuation τ sig (Elt Ideal)) :
    after hostOps0 V (Proc.devRef .tc main_v12) = invCnt (V (Proc.devRef .tc main_arg1)) := by
  dsimp only [hostOps0]; after_results; rfl

/-- The second stretch leaves the first layer's messages before the rectifier: over the flat row 1 and the weights'
    column found in their buffers, the bias and the first kernel's first output as found. -/
theorem ops1_v25 (V : Valuation τ sig (Elt Ideal)) (edge : IVec S2x1600000 32) (w : FVec Ideal S1600000 .f32)
    (h3 : V (Proc.devRef .tc main_v3) = row1 edge) (h4 : V (Proc.devRef .tc main_v4) = wCol w) :
    after hostOps1 V (Proc.devRef .tc main_v25) = pre1 edge w (V (Proc.devRef .tc main_arg4)) (V (Proc.devRef .tc main_v13_0)) := by
  dsimp only [hostOps1]; after_results_simp; rw [h3, h4]; rfl

/-- … and the rectifier's slope, a constant, in its buffer. -/
theorem ops1_cst4 (V : Valuation τ sig (Elt Ideal)) :
    after hostOps1 V (Proc.devRef .tc main_cst_4) = constant (F := Ideal) S_ .f32 0x3C23D70A#32 := by
  dsimp only [hostOps1]; after_results

/-- The third stretch — the rectifier's body, inlined — leaves the rectified messages: of the messages found, at the
    slope found in its buffer, which is that constant. -/
theorem ops1_1_v26 (V : Valuation τ sig (Elt Ideal))
    (hs : V (Proc.devRef .tc main_cst_4) = constant (F := Ideal) S_ .f32 0x3C23D70A#32) :
    after hostOps1_1 V (Proc.devRef .tc main_v26) = lreluE32 (V (Proc.devRef .tc main_v25)) := by
  dsimp only [hostOps1_1]; after_results; rw [hs]; rfl

/-- The fourth stretch leaves the first layer's output: the messages found, summed into their row nodes, times the
    reciprocal counts found, plus the first kernel's second output as found. -/
theorem ops1_2_v32 (V : Valuation τ sig (Elt Ideal)) (edge : IVec S2x1600000 32)
    (h1 : V (Proc.devRef .tc main_v1) = row0 edge) (h12 : V (Proc.devRef .tc main_v12) = invCnt edge) :
    after hostOps1_2 V (Proc.devRef .tc main_v32)
      = addf (F := Ideal)
          (mulf (F := Ideal)
            (Host.scatterAdd (F := Ideal) scatter_S50000x32_S1600000x1_S1600000x32_1_0_0_1
              (broadcastInDim S50000x32 ![] bcast_S_S50000x32 (constant (F := Ideal) S_ .f32 0x00000000#32))
              (rowIdx edge) (V (Proc.devRef .tc main_v26)))
            (broadcastInDim S50000x32 ![0, 1] bcast_S50000x1_S50000x32_0_1 (invCnt edge)))
          (V (Proc.devRef .tc main_v13_1)) := by
  dsimp only [hostOps1_2]; after_results; rw [h1, h12]; rfl

/-- The fifth stretch leaves the second layer's messages before the rectifier. -/
theorem ops2_v45 (V : Valuation τ sig (Elt Ideal)) (edge : IVec S2x1600000 32) (w : FVec Ideal S1600000 .f32)
    (h3 : V (Proc.devRef .tc main_v3) = row1 edge) (h4 : V (Proc.devRef .tc main_v4) = wCol w) :
    after hostOps2 V (Proc.devRef .tc main_v45) = pre2 edge w (V (Proc.devRef .tc main_arg6)) (V (Proc.devRef .tc main_v33_0)) := by
  dsimp only [hostOps2]; after_results_simp; rw [h3, h4]; rfl

/-- … and the second rectifier's slope in its buffer. -/
theorem ops2_cst8 (V : Valuation τ sig (Elt Ideal)) :
    after hostOps2 V (Proc.devRef .tc main_cst_8) = constant (F := Ideal) S_ .f32 0x3C23D70A#32 := by
  dsimp only [hostOps2]; after_results

/-- The sixth stretch — the second rectifier's body, inlined — leaves the rectified messages. -/
theorem ops2_1_v46 (V : Valuation τ sig (Elt Ideal))
    (hs : V (Proc.devRef .tc main_cst_8) = constant (F := Ideal) S_ .f32 0x3C23D70A#32) :
    after hostOps2_1 V (Proc.devRef .tc main_v46) = lreluE64 (V (Proc.devRef .tc main_v45)) := by
  dsimp only [hostOps2_1]; after_results; rw [hs]; rfl

/-- The seventh stretch leaves the two logits: of the second layer's output — the messages found, summed into their row
    nodes, times the reciprocal counts found, plus the second kernel's second output as found. -/
theorem ops2_2_v60 (V : Valuation τ sig (Elt Ideal)) (edge : IVec S2x1600000 32)
    (h1 : V (Proc.devRef .tc main_v1) = row0 edge) (h12 : V (Proc.devRef .tc main_v12) = invCnt edge) :
    after hostOps2_2 V (Proc.devRef .tc main_v60)
      = logits
          (addf (F := Ideal)
            (mulf (F := Ideal)
              (Host.scatterAdd (F := Ideal) scatter_S50000x64_S1600000x1_S1600000x64_1_0_0_1
                (broadcastInDim S50000x64 ![] bcast_S_S50000x64 (constant (F := Ideal) S_ .f32 0x00000000#32))
                (rowIdx edge) (V (Proc.devRef .tc main_v46)))
              (broadcastInDim S50000x64 ![0, 1] bcast_S50000x1_S50000x64_0_1 (invCnt edge)))
            (V (Proc.devRef .tc main_v33_1)))
          (V (Proc.devRef .tc main_arg7)) (V (Proc.devRef .tc main_arg8)) := by
  dsimp only [hostOps2_2]; after_results_simp; rw [h1, h12]; rfl

/-- The last stretch — the log-softmax's body, inlined — leaves the result. -/
theorem ops2_3_v61 (V : Valuation τ sig (Elt Ideal)) :
    after hostOps2_3 V (Proc.devRef .tc main_v61) = logSoftmax (V (Proc.devRef .tc main_v60)) := by
  dsimp only [hostOps2_3]; after_results; rfl

/-! ## The stretches chained from the launch memory

At `F := Ideal`. The launch memory is `m`; the contents at the boundaries are the generated fold's. -/

section Chain

variable (m : (ℓ : Loc nD τ sig) → Buf (Elt Ideal) ℓ) (ρ : Dev nD → PrngReg) (c : Dev nD)

/-! ### Up to the first region -/

/-- A reference the first stretch does not write is, at the first region's entry, as launched. -/
theorem W1_arg (r : Ref sig .tc) (hr : r ∉ wr0) : W1 m ρ c (Proc.devRef .tc r) = m ((c.tc : Thread nD τ).loc r) :=
  keep0 (W0 m ρ c) r hr

theorem V1_arg0 : V1 m ρ c main_arg0 = m ((c.tc : Thread nD τ).loc main_arg0) := W1_arg m ρ c main_arg0 (by decide)
theorem V1_arg3 : V1 m ρ c main_arg3 = m ((c.tc : Thread nD τ).loc main_arg3) := W1_arg m ρ c main_arg3 (by decide)
theorem V1_arg4 : V1 m ρ c main_arg4 = m ((c.tc : Thread nD τ).loc main_arg4) := W1_arg m ρ c main_arg4 (by decide)

theorem W1_v1 : W1 m ρ c (Proc.devRef .tc main_v1) = row0 (m ((c.tc : Thread nD τ).loc main_arg1)) := ops0_v1 (W0 m ρ c)
theorem W1_v3 : W1 m ρ c (Proc.devRef .tc main_v3) = row1 (m ((c.tc : Thread nD τ).loc main_arg1)) := ops0_v3 (W0 m ρ c)
theorem W1_v4 : W1 m ρ c (Proc.devRef .tc main_v4) = wCol (m ((c.tc : Thread nD τ).loc main_arg2)) := ops0_v4 (W0 m ρ c)
theorem W1_v12 : W1 m ρ c (Proc.devRef .tc main_v12) = invCnt (m ((c.tc : Thread nD τ).loc main_arg1)) := ops0_v12 (W0 m ρ c)

/-! ### Through the first region and the three stretches after it -/

/-- A reference that is no array of the first region and that the second stretch does not write: after that stretch as
    at the region's entry. -/
theorem W3_of_W1 (r : Ref sig .tc) (h0 : ∀ w, Pipeline.arrRef spec0 w ≠ r) (h1 : r ∉ wr1) :
    W3 m ρ c (Proc.devRef .tc r) = W1 m ρ c (Proc.devRef .tc r) :=
  (keep1 (W2 m ρ c) r h1).trans (W2_of_ne m ρ c r h0)

/-- … nor the third: after the third as at the region's entry. -/
theorem W4_of_W1 (r : Ref sig .tc) (h0 : ∀ w, Pipeline.arrRef spec0 w ≠ r) (h1 : r ∉ wr1) (h11 : r ∉ wr1_1) :
    W4 m ρ c (Proc.devRef .tc r) = W1 m ρ c (Proc.devRef .tc r) :=
  (keep1_1 (W3 m ρ c) r h11).trans (W3_of_W1 m ρ c r h0 h1)

/-- … nor the fourth: at the second region's entry as at the first's. -/
theorem W5_of_W1 (r : Ref sig .tc) (h0 : ∀ w, Pipeline.arrRef spec0 w ≠ r) (h1 : r ∉ wr1) (h11 : r ∉ wr1_1)
    (h12 : r ∉ wr1_2) : W5 m ρ c (Proc.devRef .tc r) = W1 m ρ c (Proc.devRef .tc r) :=
  (keep1_2 (W4 m ρ c) r h12).trans (W4_of_W1 m ρ c r h0 h1 h11)

/-- The first kernel's two outputs at its exit: what its write-backs leave. -/
theorem W2_v13_0 : W2 m ρ c (Proc.devRef .tc main_v13_0) = (dat0 (V1 m ρ) c).arrAt 3 cfg0.N := W2_arr m ρ c 3
theorem W2_v13_1 : W2 m ρ c (Proc.devRef .tc main_v13_1) = (dat0 (V1 m ρ) c).arrAt 4 cfg0.N := W2_arr m ρ c 4

/-- The first layer's bias is an input array of the first region: at its exit as at its entry, so as launched. -/
theorem W2_arg4 : W2 m ρ c (Proc.devRef .tc main_arg4) = m ((c.tc : Thread nD τ).loc main_arg4) :=
  ((W2_arr m ρ c 2).trans (((dat0 (V1 m ρ) c).arrAt_in 2 rfl _).trans (A_eq0 (V1 m ρ) c 2))).trans
    (W1_arg m ρ c main_arg4 (by decide))

/-- The first layer's messages before the rectifier, after the second stretch. -/
theorem W3_v25 : W3 m ρ c (Proc.devRef .tc main_v25) = pre1 (m ((c.tc : Thread nD τ).loc main_arg1)) (m ((c.tc : Thread nD τ).loc main_arg2)) (m ((c.tc : Thread nD τ).loc main_arg4)) ((dat0 (V1 m ρ) c).arrAt 3 cfg0.N) := by
  have e := ops1_v25 (W2 m ρ c) (m ((c.tc : Thread nD τ).loc main_arg1)) (m ((c.tc : Thread nD τ).loc main_arg2))
    ((W2_of_ne m ρ c main_v3 (by decide)).trans (W1_v3 m ρ c))
    ((W2_of_ne m ρ c main_v4 (by decide)).trans (W1_v4 m ρ c))
  rw [W2_arg4 m ρ c, W2_v13_0 m ρ c] at e
  exact e

/-- The rectified messages, after the third. -/
theorem W4_v26 : W4 m ρ c (Proc.devRef .tc main_v26) = lreluE32 (pre1 (m ((c.tc : Thread nD τ).loc main_arg1)) (m ((c.tc : Thread nD τ).loc main_arg2)) (m ((c.tc : Thread nD τ).loc main_arg4)) ((dat0 (V1 m ρ) c).arrAt 3 cfg0.N)) := by
  have e := ops1_1_v26 (W3 m ρ c) (ops1_cst4 (W2 m ρ c))
  rw [W3_v25 m ρ c] at e
  exact e

/-- The first kernel's second output is still in its buffer after the third stretch. -/
theorem W4_v13_1 : W4 m ρ c (Proc.devRef .tc main_v13_1) = (dat0 (V1 m ρ) c).arrAt 4 cfg0.N :=
  (keep1_1 (W3 m ρ c) main_v13_1 (by decide)).trans ((keep1 (W2 m ρ c) main_v13_1 (by decide)).trans (W2_v13_1 m ρ c))

/-- The first layer's output: the program's term over the argument arrays and the first kernel's two outputs. -/
def o1 : FVec Ideal S50000x32 .f32 := out1 (m ((c.tc : Thread nD τ).loc main_arg1)) (m ((c.tc : Thread nD τ).loc main_arg2)) (m ((c.tc : Thread nD τ).loc main_arg4)) ((dat0 (V1 m ρ) c).arrAt 3 cfg0.N) ((dat0 (V1 m ρ) c).arrAt 4 cfg0.N)

/-- At the second region's entry its first operand holds the first layer's output. -/
theorem V5_v32 : V5 m ρ c main_v32 = o1 m ρ c := by
  have e := ops1_2_v32 (W4 m ρ c) (m ((c.tc : Thread nD τ).loc main_arg1))
    ((W4_of_W1 m ρ c main_v1 (by decide) (by decide) (by decide)).trans (W1_v1 m ρ c))
    ((W4_of_W1 m ρ c main_v12 (by decide) (by decide) (by decide)).trans (W1_v12 m ρ c))
  rw [W4_v26 m ρ c, W4_v13_1 m ρ c] at e
  exact e

/-- The second layer's weights and bias at the second region's entry: as launched. -/
theorem V5_arg5 : V5 m ρ c main_arg5 = m ((c.tc : Thread nD τ).loc main_arg5) :=
  (W5_of_W1 m ρ c main_arg5 (by decide) (by decide) (by decide) (by decide)).trans (W1_arg m ρ c main_arg5 (by decide))
theorem V5_arg6 : V5 m ρ c main_arg6 = m ((c.tc : Thread nD τ).loc main_arg6) :=
  (W5_of_W1 m ρ c main_arg6 (by decide) (by decide) (by decide) (by decide)).trans (W1_arg m ρ c main_arg6 (by decide))

/-! ### Through the second region and the stretches after it -/

/-- A reference that is no array of the second region and that the fifth stretch does not write: after that stretch as
    at the region's entry. -/
theorem W7_of_W5 (r : Ref sig .tc) (h0 : ∀ w, Pipeline.arrRef spec1 w ≠ r) (h2 : r ∉ wr2) :
    W7 m ρ c (Proc.devRef .tc r) = W5 m ρ c (Proc.devRef .tc r) :=
  (keep2 (W6 m ρ c) r h2).trans (W6_of_ne m ρ c r h0)

/-- … nor the sixth. -/
theorem W8_of_W5 (r : Ref sig .tc) (h0 : ∀ w, Pipeline.arrRef spec1 w ≠ r) (h2 : r ∉ wr2) (h21 : r ∉ wr2_1) :
    W8 m ρ c (Proc.devRef .tc r) = W5 m ρ c (Proc.devRef .tc r) :=
  (keep2_1 (W7 m ρ c) r h21).trans (W7_of_W5 m ρ c r h0 h2)

/-- A reference untouched from the first region's entry to the seventh stretch: there as at that entry. -/
theorem W8_of_W1 (r : Ref sig .tc) (h0 : ∀ w, Pipeline.arrRef spec0 w ≠ r) (h1 : r ∉ wr1) (h11 : r ∉ wr1_1)
    (h12 : r ∉ wr1_2) (h0' : ∀ w, Pipeline.arrRef spec1 w ≠ r) (h2 : r ∉ wr2) (h21 : r ∉ wr2_1) :
    W8 m ρ c (Proc.devRef .tc r) = W1 m ρ c (Proc.devRef .tc r) :=
  (W8_of_W5 m ρ c r h0' h2 h21).trans (W5_of_W1 m ρ c r h0 h1 h11 h12)

/-- The second kernel's two outputs at its exit: what its write-backs leave. -/
theorem W6_v33_0 : W6 m ρ c (Proc.devRef .tc main_v33_0) = (dat1 (V5 m ρ) c).arrAt 3 cfg1.N := W6_arr m ρ c 3
theorem W6_v33_1 : W6 m ρ c (Proc.devRef .tc main_v33_1) = (dat1 (V5 m ρ) c).arrAt 4 cfg1.N := W6_arr m ρ c 4

/-- The second layer's bias is an input array of the second region: at its exit as at its entry, so as launched. -/
theorem W6_arg6 : W6 m ρ c (Proc.devRef .tc main_arg6) = m ((c.tc : Thread nD τ).loc main_arg6) :=
  ((W6_arr m ρ c 2).trans (((dat1 (V5 m ρ) c).arrAt_in 2 rfl _).trans (A_eq1 (V5 m ρ) c 2))).trans (V5_arg6 m ρ c)

/-- The second layer's messages before the rectifier, after the fifth stretch. -/
theorem W7_v45 : W7 m ρ c (Proc.devRef .tc main_v45) = pre2 (m ((c.tc : Thread nD τ).loc main_arg1)) (m ((c.tc : Thread nD τ).loc main_arg2)) (m ((c.tc : Thread nD τ).loc main_arg6)) ((dat1 (V5 m ρ) c).arrAt 3 cfg1.N) := by
  have e := ops2_v45 (W6 m ρ c) (m ((c.tc : Thread nD τ).loc main_arg1)) (m ((c.tc : Thread nD τ).loc main_arg2))
    ((W6_of_ne m ρ c main_v3 (by decide)).trans
      ((W5_of_W1 m ρ c main_v3 (by decide) (by decide) (by decide) (by decide)).trans (W1_v3 m ρ c)))
    ((W6_of_ne m ρ c main_v4 (by decide)).trans
      ((W5_of_W1 m ρ c main_v4 (by decide) (by decide) (by decide) (by decide)).trans (W1_v4 m ρ c)))
  rw [W6_arg6 m ρ c, W6_v33_0 m ρ c] at e
  exact e

/-- The rectified messages, after the sixth. -/
theorem W8_v46 : W8 m ρ c (Proc.devRef .tc main_v46) = lreluE64 (pre2 (m ((c.tc : Thread nD τ).loc main_arg1)) (m ((c.tc : Thread nD τ).loc main_arg2)) (m ((c.tc : Thread nD τ).loc main_arg6)) ((dat1 (V5 m ρ) c).arrAt 3 cfg1.N)) := by
  have e := ops2_1_v46 (W7 m ρ c) (ops2_cst8 (W6 m ρ c))
  rw [W7_v45 m ρ c] at e
  exact e

/-- The second kernel's second output is still in its buffer after the sixth stretch. -/
theorem W8_v33_1 : W8 m ρ c (Proc.devRef .tc main_v33_1) = (dat1 (V5 m ρ) c).arrAt 4 cfg1.N :=
  (keep2_1 (W7 m ρ c) main_v33_1 (by decide)).trans ((keep2 (W6 m ρ c) main_v33_1 (by decide)).trans (W6_v33_1 m ρ c))

/-- The last linear map's weights and bias before the seventh stretch: as launched. -/
theorem W8_arg7 : W8 m ρ c (Proc.devRef .tc main_arg7) = m ((c.tc : Thread nD τ).loc main_arg7) :=
  (W8_of_W1 m ρ c main_arg7 (by decide) (by decide) (by decide) (by decide) (by decide) (by decide) (by decide)).trans
    (W1_arg m ρ c main_arg7 (by decide))
theorem W8_arg8 : W8 m ρ c (Proc.devRef .tc main_arg8) = m ((c.tc : Thread nD τ).loc main_arg8) :=
  (W8_of_W1 m ρ c main_arg8 (by decide) (by decide) (by decide) (by decide) (by decide) (by decide) (by decide)).trans
    (W1_arg m ρ c main_arg8 (by decide))

/-- The two logits, after the seventh stretch. -/
theorem W9_v60 : W9 m ρ c (Proc.devRef .tc main_v60)
    = logits (out2 (m ((c.tc : Thread nD τ).loc main_arg1)) (m ((c.tc : Thread nD τ).loc main_arg2)) (m ((c.tc : Thread nD τ).loc main_arg6)) ((dat1 (V5 m ρ) c).arrAt 3 cfg1.N) ((dat1 (V5 m ρ) c).arrAt 4 cfg1.N)) (m ((c.tc : Thread nD τ).loc main_arg7)) (m ((c.tc : Thread nD τ).loc main_arg8)) := by
  have e := ops2_2_v60 (W8 m ρ c) (m ((c.tc : Thread nD τ).loc main_arg1))
    ((W8_of_W1 m ρ c main_v1 (by decide) (by decide) (by decide) (by decide) (by decide) (by decide) (by decide)).trans
      (W1_v1 m ρ c))
    ((W8_of_W1 m ρ c main_v12 (by decide) (by decide) (by decide) (by decide) (by decide) (by decide) (by decide)).trans
      (W1_v12 m ρ c))
  rw [W8_v46 m ρ c, W8_v33_1 m ρ c, W8_arg7 m ρ c, W8_arg8 m ρ c] at e
  exact e

/-- THE RESULT: at the return the result buffer holds the tail of the second layer's output — the program's term over the
    argument arrays and the second kernel's two outputs. -/
theorem result_eq : W10 m ρ c (Proc.devRef .tc main_v61)
    = tail (out2 (m ((c.tc : Thread nD τ).loc main_arg1)) (m ((c.tc : Thread nD τ).loc main_arg2)) (m ((c.tc : Thread nD τ).loc main_arg6)) ((dat1 (V5 m ρ) c).arrAt 3 cfg1.N) ((dat1 (V5 m ρ) c).arrAt 4 cfg1.N)) (m ((c.tc : Thread nD τ).loc main_arg7)) (m ((c.tc : Thread nD τ).loc main_arg8)) := by
  have e := ops2_3_v61 (W9 m ρ c)
  rw [W9_v60 m ρ c] at e
  exact e

end Chain

/-- info: 'Cert.KernelIdeal.KerSide.V5_v32' depends on axioms: [propext, Classical.choice, Quot.sound] -/
#guard_msgs in #print axioms V5_v32
/-- info: 'Cert.KernelIdeal.KerSide.result_eq' depends on axioms: [propext, Classical.choice, Quot.sound] -/
#guard_msgs in #print axioms result_eq

end Cert.KernelIdeal.KerSide

end
-- ==== Proof.LibNodeLinear.lean ====
/-
  The node-side linear map of one message-passing layer, as whole-array functions over the extended reals.

  For node features `x : [N, Din]`, a weight matrix `W : [Dout, Din]` and a bias `b : [Dout]`:
  `zfun x W` is the raw product, entry `(n, j)` the sum over `d` of `x (n, d) * W (j, d)` (the weight matrix is
  contracted on its LAST axis, i.e. `x · Wᵀ`), and `resfun x W b` is the leaky rectifier of `zfun x W + b`,
  the bias added along the rows.  The leaky rectifier keeps a value that compares `≥ 0` and scales any other by
  the slope literal `0x3C23D70A` (the single-precision number nearest 0.01), slope first.
-/
import Idealize.ShloMosaic.Lib.ValueIdx
import Idealize.ShloMosaic.PureOps.Ideal

noncomputable section

namespace Cert.GNN

open Idealize.ShloMosaic Idealize.ShloMosaic.ValueIdx

/-- The leaky rectifier on one extended real: `v` when `v ≥ 0` (the ordered comparison at the ideal instance),
    otherwise `slope * v`. -/
def lrelu (v : EReal) : EReal :=
  Scalar.select (FloatOps.cmpf (F := Ideal) (φ := .f32) .oge v (Ideal.ofBits .f32 0x00000000#32)) v
    (Ideal.ofBits .f32 0x3C23D70A#32 * v)

/-- The raw node product `x · Wᵀ`: entry `(n, j)` is `∑ d, x (n, d) * W (j, d)`. -/
def zfun {N Din Dout : ℕ} (x : FVec Ideal ⟨2, ![N, Din]⟩ .f32) (W : FVec Ideal ⟨2, ![Dout, Din]⟩ .f32) :
    FVec Ideal ⟨2, ![N, Dout]⟩ .f32 :=
  fun i => ∑ d : Fin Din, x (ix2 (⟨(i 0).val, idx2_lt0 i⟩ : Fin N) d) * W (ix2 (⟨(i 1).val, idx2_lt1 i⟩ : Fin Dout) d)

/-- The residual branch: the leaky rectifier of the raw product plus the bias of the column. -/
def resfun {N Din Dout : ℕ} (x : FVec Ideal ⟨2, ![N, Din]⟩ .f32) (W : FVec Ideal ⟨2, ![Dout, Din]⟩ .f32)
    (b : FVec Ideal ⟨1, ![Dout]⟩ .f32) : FVec Ideal ⟨2, ![N, Dout]⟩ .f32 :=
  fun i => lrelu (zfun x W i + b (ix1 (⟨(i 1).val, idx2_lt1 i⟩ : Fin Dout)))

theorem zfun_apply {N Din Dout : ℕ} (x : FVec Ideal ⟨2, ![N, Din]⟩ .f32) (W : FVec Ideal ⟨2, ![Dout, Din]⟩ .f32)
    (n : Fin N) (j : Fin Dout) : zfun x W (ix2 n j) = ∑ d : Fin Din, x (ix2 n d) * W (ix2 j d) := rfl

theorem resfun_apply {N Din Dout : ℕ} (x : FVec Ideal ⟨2, ![N, Din]⟩ .f32) (W : FVec Ideal ⟨2, ![Dout, Din]⟩ .f32)
    (b : FVec Ideal ⟨1, ![Dout]⟩ .f32) (n : Fin N) (j : Fin Dout) :
    resfun x W b (ix2 n j) = lrelu ((∑ d : Fin Din, x (ix2 n d) * W (ix2 j d)) + b (ix1 j)) := rfl

end Cert.GNN

end
-- ==== Proof.LibMatmul.lean ====
/-
  A plain matrix product read at an entry, over the extended reals, at any extents.

  The product of an `[M, K]` matrix with a `[K, N]` matrix (left operand contracted on its second axis, right operand
  on its first, no batch axis) accumulated into the zero matrix is, at `(p, e)`, the sum over the contracted coordinate
  `f` of the left operand at `(p, f)` times the right operand at `(f, e)`: the operand indices the product names at
  an output index and a contraction index are `(p, f)` and `(f, e)`, and the one-axis contraction index is its one
  coordinate. `dotGeneral_plain_apply` is the same reading of the host's product, which has no accumulator.
-/
import Idealize.ShloMosaic.Lib.ValueIdx
import Idealize.ShloMosaic.PureOps.Ideal.Laws

open scoped BigOperators

noncomputable section

namespace Cert.Lib.Matmul

open Idealize.ShloMosaic Idealize.ShloMosaic.ValueIdx

variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the product's contraction index, re-indexed by the contracted coordinate. -/
theorem plain_sum {φ₁ φ₂ : FTy} (L : FVec Ideal ⟨2, ![M, K]⟩ φ₁) (R : FVec Ideal ⟨2, ![K, N]⟩ φ₂) (p : Fin M) (e : Fin N) :
    (∑ k : (DotDims.plain M K N).contr.Idx,
        L ((DotDims.plain M K N).lhsIdx (ix2 p e) k) * R ((DotDims.plain M K N).rhsIdx (ix2 p e) k))
      = ∑ f : Fin K, L (ix2 p f) * R (ix2 f e) := by
  rw [← Equiv.sum_comp (contrEquiv1 (DotDims.plain M K N) K rfl rfl).symm]
  refine Finset.sum_congr rfl fun f _ => ?_
  have hk := contrEquiv1_symm_val (DotDims.plain M K N) K rfl rfl f
  have el : (DotDims.plain M K N).lhsIdx (ix2 p e) ((contrEquiv1 (DotDims.plain M K N) K rfl rfl).symm f) = ix2 p f :=
    funext fun a => Fin.ext (by
      match a with
      | ⟨0, _⟩ => exact plain_lhs0 _ _
      | ⟨1, _⟩ => exact (plain_lhs1 _ _).trans hk)
  have er : (DotDims.plain M K N).rhsIdx (ix2 p e) ((contrEquiv1 (DotDims.plain M K N) K rfl rfl).symm f) = ix2 f e :=
    funext fun a => Fin.ext (by
      match a with
      | ⟨0, _⟩ => exact (plain_rhs0 _ _).trans hk
      | ⟨1, _⟩ => exact plain_rhs1 _ _)
  rw [el, er]

/-- A plain `[M, K]` by `[K, N]` product into the zero accumulator, at `(p, e)`. -/
theorem matmul_plain_zero_apply {φ₁ φ₂ : FTy} (prec : Option ContractPrecision) (L : FVec Ideal ⟨2, ![M, K]⟩ φ₁)
    (R : FVec Ideal ⟨2, ![K, N]⟩ φ₂) (p : Fin M) (e : Fin N) :
    matmul (DotDims.plain M K N) prec L R (constant ⟨2, ![M, N]⟩ .f32 0x00000000#32) (ix2 p e)
      = ∑ f : Fin K, L (ix2 p f) * R (ix2 f e) :=
  (Ideal.matmul_constant_zero_apply (DotDims.plain M K N) prec L R (ix2 p e)).trans (plain_sum L R p e)

/-- The same product with an accumulator `acc`: its entry plus the sum. -/
theorem matmul_plain_apply {φ₁ φ₂ : FTy} (prec : Option ContractPrecision) (L : FVec Ideal ⟨2, ![M, K]⟩ φ₁)
    (R : FVec Ideal ⟨2, ![K, N]⟩ φ₂) (acc : FVec Ideal ⟨2, ![M, N]⟩ .f32) (p : Fin M) (e : Fin N) :
    matmul (DotDims.plain M K N) prec L R acc (ix2 p e) = acc (ix2 p e) + ∑ f : Fin K, L (ix2 p f) * R (ix2 f e) :=
  (Ideal.matmul_apply (DotDims.plain M K N) prec L R acc (ix2 p e)).trans (congrArg (acc (ix2 p e) + ·) (plain_sum L R p e))

end Cert.Lib.Matmul

end
-- ==== Proof.RegionValue0.lean ====
/-
  The value of the first node-side linear region, as whole-array functions over the extended reals.

  The region runs one body over ten row blocks of 5000 rows. On a block `x` of the node features, the whole weight
  matrix `W` and the whole bias `b`, the body stores the raw product `x · Wᵀ` to one output block and the leaky
  rectifier of `x · Wᵀ + b` to another. Read at an entry `(p, e)` the first is the sum over `d` of
  `x (p, d) * W (e, d)` and the second is the rectifier of that sum plus `b e`. Block `t` of each output array is
  rows `5000 t … 5000 t + 4999`, the input block the same rows of the features, the weights and the bias whole at
  every point; the ten blocks cover the 50000 rows, so each output array ends holding the whole-array function.
-/
import proofs.«168688_j12120397709448_2_alg».proof.Proof.Gen.KernelIdeal.Frame
import proofs.«168688_j12120397709448_2_alg».proof.Proof.LibNodeLinear
import proofs.«168688_j12120397709448_2_alg».proof.Proof.LibMatmul
import Idealize.ShloMosaic.Lib.Pipeline.Value
import Idealize.ShloMosaic.Lib.ValueIdx
import Idealize.ShloMosaic.Lib.ValueLayout

open scoped BigOperators

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

/-! ## The body's two stored values at an entry -/

/-- The raw product at `(p, e)`: the row `p` of the block against the row `e` of the weights. -/
theorem pay0_raw_apply (x0 : Vec Ideal S5000x20 .f32) (x1 : Vec Ideal S32x20 .f32) (p : Fin 5000) (e : Fin 32) :
    k0_pay1 (F := Ideal) x0 x1 (ix2 p e) = ∑ d : Fin 20, x0 (ix2 p d) * x1 (ix2 e d) := by
  unfold k0_pay1
  refine (Cert.Lib.Matmul.matmul_plain_zero_apply (M := 5000) (K := 20) (N := 32) none _ _ p e).trans ?_
  refine Finset.sum_congr rfl fun d _ => ?_
  rw [transpose_ix2_apply]
  rfl

/-- The bias row added to the raw product, at `(p, e)`: the bias of column `e`. -/
theorem pay0_sum_apply (x0 : Vec Ideal S5000x20 .f32) (x1 : Vec Ideal S32x20 .f32) (x2 : Vec Ideal S32 .f32)
    (p : Fin 5000) (e : Fin 32) :
    addf (k0_pay1 (F := Ideal) x0 x1)
        (broadcastTo S5000x32 (shapeCast S1x32 x2 shapeCasts_S32_S1x32) broadcasts_S1x32_S5000x32) (ix2 p e)
      = (∑ d : Fin 20, x0 (ix2 p d) * x1 (ix2 e d)) + x2 (ix1 e) := by
  rw [addf_apply, pay0_raw_apply, broadcastTo_1b_ab_apply, shapeCast_a_1a_apply]

/-- The rectified value at `(p, e)`: the leaky rectifier of the raw product plus the bias of column `e`. -/
theorem pay0_res_apply (x0 : Vec Ideal S5000x20 .f32) (x1 : Vec Ideal S32x20 .f32) (x2 : Vec Ideal S32 .f32)
    (p : Fin 5000) (e : Fin 32) :
    k0_pay2 (F := Ideal) x0 x1 x2 (ix2 p e)
      = Cert.GNN.lrelu ((∑ d : Fin 20, x0 (ix2 p d) * x1 (ix2 e d)) + x2 (ix1 e)) := by
  unfold k0_pay2
  exact (show _ = Cert.GNN.lrelu (addf (k0_pay1 (F := Ideal) x0 x1)
      (broadcastTo S5000x32 (shapeCast S1x32 x2 shapeCasts_S32_S1x32) broadcasts_S1x32_S5000x32) (ix2 p e)) from rfl).trans
    (congrArg Cert.GNN.lrelu (pay0_sum_apply x0 x1 x2 p e))

/-! ## From blocks to the arrays -/

variable (V : (c : Dev nD) → (b : Ref sig .tc) → Buf (Elt Ideal) ((c : Thread nD τ).loc b))

theorem zeros2_0 : (![0, 0] : Fin 2 → Nat) = fun _ => 0 := funext fun a => by fin_cases a <;> rfl
theorem zeros1_0 : (![0] : Fin 1 → Nat) = fun _ => 0 := funext fun a => by fin_cases a; rfl

/-- The index maps, decided over the ten grid points: the feature block and both output blocks are row block `t`, the
    weights and the bias are whole at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The feature block at point `t` is rows `5000 t … 5000 t + 4999` of the feature array. -/
theorem iblk0_0_apply (c : Dev nD) (t : Fin cfg0.N) (y : S5000x20.Idx) (k : S50000x20.Idx)
    (hk0 : (k 0).val = 5000 * t.val + (y 0).val) (hk1 : (k 1).val = (y 1).val) :
    (iblk0 V c 0 t : Vec Ideal S5000x20 .f32) y = (V c main_arg0 : S50000x20.Idx → Elt Ideal .f32) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 5000 + 1 * (y 0).val = (k 0).val; rw [e0, hk0]; omega
  | ⟨1, _⟩ => show win0_0.index t 1 * 20 + 1 * (y 1).val = (k 1).val; rw [e1, hk1]; omega

/-- The weight block at every point is the whole weight matrix. -/
theorem iblk0_1_eq (c : Dev nD) (t : Fin cfg0.N) :
    (iblk0 V c 1 t : Vec Ideal S32x20 .f32) = (V c main_arg3 : S32x20.Idx → Elt Ideal .f32) := by
  obtain ⟨-, -, e2, e3, -⟩ := idx_facts0 t
  funext y
  unfold iblk0
  rw [View.read_apply]
  show V c main_arg3 _ = V c main_arg3 _
  congr 1
  funext a
  apply Fin.ext
  match a with
  | ⟨0, _⟩ => show win0_1.index t 0 * 32 + 1 * (y 0).val = (y 0).val; rw [e2]; omega
  | ⟨1, _⟩ => show win0_1.index t 1 * 20 + 1 * (y 1).val = (y 1).val; rw [e3]; omega

/-- The bias block at every point is the whole bias. -/
theorem iblk0_2_eq (c : Dev nD) (t : Fin cfg0.N) :
    (iblk0 V c 2 t : Vec Ideal S32 .f32) = (V c main_arg4 : S32.Idx → Elt Ideal .f32) := by
  obtain ⟨-, -, -, -, e4, -⟩ := idx_facts0 t
  funext y
  unfold iblk0
  rw [View.read_apply]
  show V c main_arg4 _ = V c main_arg4 _
  congr 1
  funext a
  apply Fin.ext
  match a with
  | ⟨0, _⟩ => show win0_2.index t 0 * 32 + 1 * (y 0).val = (y 0).val; rw [e4]; omega

/-- One entry of the raw product of a block, from a row of the block that is a row of the array. -/
theorem raw_point0 (x0 : Vec Ideal S5000x20 .f32) (x1 : Vec Ideal S32x20 .f32)
    (A0 : FVec Ideal ⟨2, ![50000, 20]⟩ .f32) (A1 : FVec Ideal ⟨2, ![32, 20]⟩ .f32)
    (y : S5000x32.Idx) (i : S50000x32.Idx)
    (hx0 : ∀ d : Fin 20, x0 (ix2 (⟨(y 0).val, idx2_lt0 y⟩ : Fin 5000) d) = A0 (ix2 (⟨(i 0).val, idx2_lt0 i⟩ : Fin 50000) d))
    (hx1 : ∀ d : Fin 20, x1 (ix2 (⟨(y 1).val, idx2_lt1 y⟩ : Fin 32) d) = A1 (ix2 (⟨(i 1).val, idx2_lt1 i⟩ : Fin 32) d)) :
    k0_pay1 (F := Ideal) x0 x1 y = Cert.GNN.zfun A0 A1 i := by
  obtain ⟨p, e, rfl⟩ : ∃ (p : Fin 5000) (e : Fin 32), y = ix2 p e := ⟨y 0, y 1, eq_ix2 y⟩
  rw [pay0_raw_apply]
  exact Finset.sum_congr rfl fun d _ => congrArg₂ (· * ·) (hx0 d) (hx1 d)

/-- One entry of the rectified value of a block, likewise, the bias entry the array's. -/
theorem res_point0 (x0 : Vec Ideal S5000x20 .f32) (x1 : Vec Ideal S32x20 .f32) (x2 : Vec Ideal S32 .f32)
    (A0 : FVec Ideal ⟨2, ![50000, 20]⟩ .f32) (A1 : FVec Ideal ⟨2, ![32, 20]⟩ .f32) (A2 : FVec Ideal ⟨1, ![32]⟩ .f32)
    (y : S5000x32.Idx) (i : S50000x32.Idx)
    (hx0 : ∀ d : Fin 20, x0 (ix2 (⟨(y 0).val, idx2_lt0 y⟩ : Fin 5000) d) = A0 (ix2 (⟨(i 0).val, idx2_lt0 i⟩ : Fin 50000) d))
    (hx1 : ∀ d : Fin 20, x1 (ix2 (⟨(y 1).val, idx2_lt1 y⟩ : Fin 32) d) = A1 (ix2 (⟨(i 1).val, idx2_lt1 i⟩ : Fin 32) d))
    (hx2 : x2 (ix1 (⟨(y 1).val, idx2_lt1 y⟩ : Fin 32)) = A2 (ix1 (⟨(i 1).val, idx2_lt1 i⟩ : Fin 32))) :
    k0_pay2 (F := Ideal) x0 x1 x2 y = Cert.GNN.resfun A0 A1 A2 i := by
  obtain ⟨p, e, rfl⟩ : ∃ (p : Fin 5000) (e : Fin 32), y = ix2 p e := ⟨y 0, y 1, eq_ix2 y⟩
  rw [pay0_res_apply]
  exact congrArg Cert.GNN.lrelu (congrArg₂ (· + ·)
    (Finset.sum_congr rfl fun d _ => congrArg₂ (· * ·) (hx0 d) (hx1 d)) hx2)

/-- What point `t` writes back to the raw output is block `t` of the whole-array product. -/
theorem flushed0_3_eq (c : Dev nD) (t : Fin cfg0.N) :
    (dat0 (F := Ideal) V c).flushed 3 t = ((cfg0.win 3).blk t).view.read (Elt Ideal)
      (Cert.GNN.zfun (N := 50000) (Din := 20) (Dout := 32) (V c main_arg0) (V c main_arg3)) := by
  show (cfg0.win 3).cut (grid0.coords t) ((dat0 (F := Ideal) V c).after 3 t) = _
  rw [after0_3]
  unfold out0_3
  rw [View.canon_unit_zero zeros2_0]
  simp only [View.ld_unit_zero (S := S5000x20) zeros2_0, View.ld_unit_zero (S := S32x20) zeros2_0]
  obtain ⟨-, -, -, -, -, e5, e6, -⟩ := idx_facts0 t
  funext j
  show k0_pay1 (F := Ideal) (iblk0 V c 0 t) (iblk0 V c 1 t) j
    = Cert.GNN.zfun (N := 50000) (Din := 20) (Dout := 32) (V c main_arg0) (V c main_arg3) (((cfg0.win 3).blk t).view.emb j)
  have h0 : ((((cfg0.win 3).blk t).view.emb j) 0).val = 5000 * t.val + (j 0).val := by
    show win0_3.index t 0 * 5000 + 1 * (j 0).val = 5000 * t.val + (j 0).val
    rw [e5]; omega
  have h1 : ((((cfg0.win 3).blk t).view.emb j) 1).val = (j 1).val := by
    show win0_3.index t 1 * 32 + 1 * (j 1).val = (j 1).val
    rw [e6]; omega
  refine raw_point0 _ _ _ _ j _ (fun d => ?_) (fun d => ?_)
  · exact iblk0_0_apply V c t _ _ h0 rfl
  · rw [iblk0_1_eq]
    exact congrArg (fun q : Fin 32 => (V c main_arg3 : S32x20.Idx → Elt Ideal .f32) (ix2 q d)) (Fin.ext h1.symm)

/-- What point `t` writes back to the rectified output is block `t` of the whole-array rectified value. -/
theorem flushed0_4_eq (c : Dev nD) (t : Fin cfg0.N) :
    (dat0 (F := Ideal) V c).flushed 4 t = ((cfg0.win 4).blk t).view.read (Elt Ideal)
      (Cert.GNN.resfun (N := 50000) (Din := 20) (Dout := 32) (V c main_arg0) (V c main_arg3) (V c main_arg4)) := by
  show (cfg0.win 4).cut (grid0.coords t) ((dat0 (F := Ideal) V c).after 4 t) = _
  rw [after0_4]
  unfold out0_4
  rw [View.canon_unit_zero zeros2_0]
  simp only [View.ld_unit_zero (S := S5000x20) zeros2_0, View.ld_unit_zero (S := S32x20) zeros2_0,
    View.ld_unit_zero (S := S32) zeros1_0]
  obtain ⟨-, -, -, -, -, -, -, e7, e8⟩ := idx_facts0 t
  funext j
  show k0_pay2 (F := Ideal) (iblk0 V c 0 t) (iblk0 V c 1 t) (iblk0 V c 2 t) j
    = Cert.GNN.resfun (N := 50000) (Din := 20) (Dout := 32) (V c main_arg0) (V c main_arg3) (V c main_arg4)
        (((cfg0.win 4).blk t).view.emb j)
  have h0 : ((((cfg0.win 4).blk t).view.emb j) 0).val = 5000 * t.val + (j 0).val := by
    show win0_4.index t 0 * 5000 + 1 * (j 0).val = 5000 * t.val + (j 0).val
    rw [e7]; omega
  have h1 : ((((cfg0.win 4).blk t).view.emb j) 1).val = (j 1).val := by
    show win0_4.index t 1 * 32 + 1 * (j 1).val = (j 1).val
    rw [e8]; omega
  refine res_point0 _ _ _ _ _ _ j _ (fun d => ?_) (fun d => ?_) ?_
  · exact iblk0_0_apply V c t _ _ h0 rfl
  · rw [iblk0_1_eq]
    exact congrArg (fun q : Fin 32 => (V c main_arg3 : S32x20.Idx → Elt Ideal .f32) (ix2 q d)) (Fin.ext h1.symm)
  · rw [iblk0_2_eq]
    exact congrArg (fun q : Fin 32 => (V c main_arg4 : S32.Idx → Elt Ideal .f32) (ix1 q)) (Fin.ext h1.symm)

/-- An index of the raw output array is in point `t`'s block iff each coordinate is in the block's range. -/
theorem mem_blk0_3 (t : Fin cfg0.N) (i : S50000x32.Idx) :
    i ∈ ((cfg0.win 3).blk t).view.set ↔ ∀ a : Fin 2, win0_3.index t a * S5000x32.size a ≤ (i a).val
      ∧ (i a).val < win0_3.index t a * S5000x32.size a + S5000x32.size a := by
  show i ∈ ((View.whole main_v13_0).slice (win0_3.rect t)).set ↔ _
  rw [View.set_slice_whole, Rect.mem_set_unit]
  exact Iff.rfl

/-- Likewise for the rectified output array. -/
theorem mem_blk0_4 (t : Fin cfg0.N) (i : S50000x32.Idx) :
    i ∈ ((cfg0.win 4).blk t).view.set ↔ ∀ a : Fin 2, win0_4.index t a * S5000x32.size a ≤ (i a).val
      ∧ (i a).val < win0_4.index t a * S5000x32.size a + S5000x32.size a := by
  show i ∈ ((View.whole main_v13_1).slice (win0_4.rect t)).set ↔ _
  rw [View.set_slice_whole, Rect.mem_set_unit]
  exact Iff.rfl

/-- The grid point whose row block holds row `r`: `r / 5000`. -/
theorem point_of_row0 (r : Nat) (hr : r < 50000) : ∃ t : Fin cfg0.N, t.val = r / 5000 :=
  ⟨⟨r / 5000, by show r / 5000 < grid0.N; rw [N_0]; omega⟩, rfl⟩

/-- Every index of the raw output array is in the block of the point `row / 5000`. -/
theorem covered0_3 (i : S50000x32.Idx) :
    ∃ t : Fin cfg0.N, (cfg0.win 3).flush t = true ∧ i ∈ ((cfg0.win 3).blk t).view.set := by
  have hi0 : (i 0).val < 50000 := (i 0).isLt
  have hi1 : (i 1).val < 32 := (i 1).isLt
  obtain ⟨t, ht⟩ := point_of_row0 (i 0).val hi0
  obtain ⟨-, -, -, -, -, e5, e6, -⟩ := idx_facts0 t
  refine ⟨t, flush0_3 t, ?_⟩
  rw [mem_blk0_3]
  intro a
  match a with
  | ⟨0, _⟩ =>
    show win0_3.index t (0 : Fin 2) * 5000 ≤ (i 0).val ∧ (i 0).val < win0_3.index t (0 : Fin 2) * 5000 + 5000
    rw [e5, ht]; omega
  | ⟨1, _⟩ =>
    show win0_3.index t (1 : Fin 2) * 32 ≤ (i 1).val ∧ (i 1).val < win0_3.index t (1 : Fin 2) * 32 + 32
    rw [e6]; omega

/-- Likewise for the rectified output array. -/
theorem covered0_4 (i : S50000x32.Idx) :
    ∃ t : Fin cfg0.N, (cfg0.win 4).flush t = true ∧ i ∈ ((cfg0.win 4).blk t).view.set := by
  have hi0 : (i 0).val < 50000 := (i 0).isLt
  have hi1 : (i 1).val < 32 := (i 1).isLt
  obtain ⟨t, ht⟩ := point_of_row0 (i 0).val hi0
  obtain ⟨-, -, -, -, -, -, -, e7, e8⟩ := idx_facts0 t
  refine ⟨t, flush0_4 t, ?_⟩
  rw [mem_blk0_4]
  intro a
  match a with
  | ⟨0, _⟩ =>
    show win0_4.index t (0 : Fin 2) * 5000 ≤ (i 0).val ∧ (i 0).val < win0_4.index t (0 : Fin 2) * 5000 + 5000
    rw [e7, ht]; omega
  | ⟨1, _⟩ =>
    show win0_4.index t (1 : Fin 2) * 32 ≤ (i 1).val ∧ (i 1).val < win0_4.index t (1 : Fin 2) * 32 + 32
    rw [e8]; omega

/-! ## The two output arrays after the region -/

/-- The raw output array ends holding the whole-array product of the features with the weights. -/
theorem arr0_3 (c : Dev nD) : (dat0 (F := Ideal) V c).arrAt 3 cfg0.N
    = Cert.GNN.zfun (N := 50000) (Din := 20) (Dout := 32) (V c main_arg0) (V c main_arg3) :=
  (dat0 (F := Ideal) V c).arrAt_eq_of_cover 3 _ (fun t _ => flushed0_3_eq V c t) covered0_3

/-- The rectified output array ends holding the leaky rectifier of that product plus the bias. -/
theorem arr0_4 (c : Dev nD) : (dat0 (F := Ideal) V c).arrAt 4 cfg0.N
    = Cert.GNN.resfun (N := 50000) (Din := 20) (Dout := 32) (V c main_arg0) (V c main_arg3) (V c main_arg4) :=
  (dat0 (F := Ideal) V c).arrAt_eq_of_cover 4 _ (fun t _ => flushed0_4_eq V c t) covered0_4

end Cert.KernelIdeal.RegionValue

end
-- ==== Proof.RegionValue1.lean ====
/-
  The value of the second node-side linear region, as whole-array functions over the extended reals.

  The region runs one body over ten row blocks of 5000 rows. On a block `x` of the layer's input (the node states,
  one row per node), the whole weight matrix `W` and the whole bias `b`, the body stores the raw product `x · Wᵀ` to
  one output block and the leaky rectifier of `x · Wᵀ + b` to another. Read at an entry `(p, e)` the first is the
  sum over `d` of `x (p, d) * W (e, d)` and the second is the rectifier of that sum plus `b e`. Block `t` of each output array is
  rows `5000 t … 5000 t + 4999`, the input block the same rows of the input array, the weights and the bias whole at
  every point; the ten blocks cover the 50000 rows, so each output array ends holding the whole-array function.
-/
import proofs.«168688_j12120397709448_2_alg».proof.Proof.Gen.KernelIdeal.Frame
import proofs.«168688_j12120397709448_2_alg».proof.Proof.LibNodeLinear
import proofs.«168688_j12120397709448_2_alg».proof.Proof.LibMatmul
import Idealize.ShloMosaic.Lib.Pipeline.Value
import Idealize.ShloMosaic.Lib.ValueIdx
import Idealize.ShloMosaic.Lib.ValueLayout

open scoped BigOperators

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

/-! ## The body's two stored values at an entry -/

/-- The raw product at `(p, e)`: the row `p` of the block against the row `e` of the weights. -/
theorem pay1_raw_apply (x0 : Vec Ideal S5000x32 .f32) (x1 : Vec Ideal S64x32 .f32) (p : Fin 5000) (e : Fin 64) :
    k1_pay1 (F := Ideal) x0 x1 (ix2 p e) = ∑ d : Fin 32, x0 (ix2 p d) * x1 (ix2 e d) := by
  unfold k1_pay1
  refine (Cert.Lib.Matmul.matmul_plain_zero_apply (M := 5000) (K := 32) (N := 64) none _ _ p e).trans ?_
  refine Finset.sum_congr rfl fun d _ => ?_
  rw [transpose_ix2_apply, shapeCast_self]
  rfl

/-- The bias row added to the raw product, at `(p, e)`: the bias of column `e`. -/
theorem pay1_sum_apply (x0 : Vec Ideal S5000x32 .f32) (x1 : Vec Ideal S64x32 .f32) (x2 : Vec Ideal S64 .f32)
    (p : Fin 5000) (e : Fin 64) :
    addf (k1_pay1 (F := Ideal) x0 x1)
        (broadcastTo S5000x64 (shapeCast S1x64 x2 shapeCasts_S64_S1x64) broadcasts_S1x64_S5000x64) (ix2 p e)
      = (∑ d : Fin 32, x0 (ix2 p d) * x1 (ix2 e d)) + x2 (ix1 e) := by
  rw [addf_apply, pay1_raw_apply, broadcastTo_1b_ab_apply, shapeCast_a_1a_apply]

/-- The rectified value at `(p, e)`: the leaky rectifier of the raw product plus the bias of column `e`. -/
theorem pay1_res_apply (x0 : Vec Ideal S5000x32 .f32) (x1 : Vec Ideal S64x32 .f32) (x2 : Vec Ideal S64 .f32)
    (p : Fin 5000) (e : Fin 64) :
    k1_pay2 (F := Ideal) x0 x1 x2 (ix2 p e)
      = Cert.GNN.lrelu ((∑ d : Fin 32, x0 (ix2 p d) * x1 (ix2 e d)) + x2 (ix1 e)) := by
  unfold k1_pay2
  exact (show _ = Cert.GNN.lrelu (addf (k1_pay1 (F := Ideal) x0 x1)
      (broadcastTo S5000x64 (shapeCast S1x64 x2 shapeCasts_S64_S1x64) broadcasts_S1x64_S5000x64) (ix2 p e)) from rfl).trans
    (congrArg Cert.GNN.lrelu (pay1_sum_apply x0 x1 x2 p e))

/-! ## From blocks to the arrays -/

variable (V : (c : Dev nD) → (b : Ref sig .tc) → Buf (Elt Ideal) ((c : Thread nD τ).loc b))

theorem zeros2_1 : (![0, 0] : Fin 2 → Nat) = fun _ => 0 := funext fun a => by fin_cases a <;> rfl
theorem zeros1_1 : (![0] : Fin 1 → Nat) = fun _ => 0 := funext fun a => by fin_cases a; rfl

/-- The index maps, decided over the ten grid points: the input block and both output blocks are row block `t`, the
    weights and the bias are whole at every point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The input block at point `t` is rows `5000 t … 5000 t + 4999` of the input array. -/
theorem iblk1_0_apply (c : Dev nD) (t : Fin cfg1.N) (y : S5000x32.Idx) (k : S50000x32.Idx)
    (hk0 : (k 0).val = 5000 * t.val + (y 0).val) (hk1 : (k 1).val = (y 1).val) :
    (iblk1 V c 0 t : Vec Ideal S5000x32 .f32) y = (V c main_v32 : S50000x32.Idx → Elt Ideal .f32) k := by
  obtain ⟨e0, e1, -⟩ := idx_facts1 t
  unfold iblk1
  rw [View.read_apply]
  show V c main_v32 _ = V c main_v32 _
  congr 1
  funext a
  apply Fin.ext
  match a with
  | ⟨0, _⟩ => show win1_0.index t 0 * 5000 + 1 * (y 0).val = (k 0).val; rw [e0, hk0]; omega
  | ⟨1, _⟩ => show win1_0.index t 1 * 32 + 1 * (y 1).val = (k 1).val; rw [e1, hk1]; omega

/-- The weight block at every point is the whole weight matrix. -/
theorem iblk1_1_eq (c : Dev nD) (t : Fin cfg1.N) :
    (iblk1 V c 1 t : Vec Ideal S64x32 .f32) = (V c main_arg5 : S64x32.Idx → Elt Ideal .f32) := by
  obtain ⟨-, -, e2, e3, -⟩ := idx_facts1 t
  funext y
  unfold iblk1
  rw [View.read_apply]
  show V c main_arg5 _ = V c main_arg5 _
  congr 1
  funext a
  apply Fin.ext
  match a with
  | ⟨0, _⟩ => show win1_1.index t 0 * 64 + 1 * (y 0).val = (y 0).val; rw [e2]; omega
  | ⟨1, _⟩ => show win1_1.index t 1 * 32 + 1 * (y 1).val = (y 1).val; rw [e3]; omega

/-- The bias block at every point is the whole bias. -/
theorem iblk1_2_eq (c : Dev nD) (t : Fin cfg1.N) :
    (iblk1 V c 2 t : Vec Ideal S64 .f32) = (V c main_arg6 : S64.Idx → Elt Ideal .f32) := by
  obtain ⟨-, -, -, -, e4, -⟩ := idx_facts1 t
  funext y
  unfold iblk1
  rw [View.read_apply]
  show V c main_arg6 _ = V c main_arg6 _
  congr 1
  funext a
  apply Fin.ext
  match a with
  | ⟨0, _⟩ => show win1_2.index t 0 * 64 + 1 * (y 0).val = (y 0).val; rw [e4]; omega

/-- One entry of the raw product of a block, from a row of the block that is a row of the array. -/
theorem raw_point1 (x0 : Vec Ideal S5000x32 .f32) (x1 : Vec Ideal S64x32 .f32)
    (A0 : FVec Ideal ⟨2, ![50000, 32]⟩ .f32) (A1 : FVec Ideal ⟨2, ![64, 32]⟩ .f32)
    (y : S5000x64.Idx) (i : S50000x64.Idx)
    (hx0 : ∀ d : Fin 32, x0 (ix2 (⟨(y 0).val, idx2_lt0 y⟩ : Fin 5000) d) = A0 (ix2 (⟨(i 0).val, idx2_lt0 i⟩ : Fin 50000) d))
    (hx1 : ∀ d : Fin 32, x1 (ix2 (⟨(y 1).val, idx2_lt1 y⟩ : Fin 64) d) = A1 (ix2 (⟨(i 1).val, idx2_lt1 i⟩ : Fin 64) d)) :
    k1_pay1 (F := Ideal) x0 x1 y = Cert.GNN.zfun A0 A1 i := by
  obtain ⟨p, e, rfl⟩ : ∃ (p : Fin 5000) (e : Fin 64), y = ix2 p e := ⟨y 0, y 1, eq_ix2 y⟩
  rw [pay1_raw_apply]
  exact Finset.sum_congr rfl fun d _ => congrArg₂ (· * ·) (hx0 d) (hx1 d)

/-- One entry of the rectified value of a block, likewise, the bias entry the array's. -/
theorem res_point1 (x0 : Vec Ideal S5000x32 .f32) (x1 : Vec Ideal S64x32 .f32) (x2 : Vec Ideal S64 .f32)
    (A0 : FVec Ideal ⟨2, ![50000, 32]⟩ .f32) (A1 : FVec Ideal ⟨2, ![64, 32]⟩ .f32) (A2 : FVec Ideal ⟨1, ![64]⟩ .f32)
    (y : S5000x64.Idx) (i : S50000x64.Idx)
    (hx0 : ∀ d : Fin 32, x0 (ix2 (⟨(y 0).val, idx2_lt0 y⟩ : Fin 5000) d) = A0 (ix2 (⟨(i 0).val, idx2_lt0 i⟩ : Fin 50000) d))
    (hx1 : ∀ d : Fin 32, x1 (ix2 (⟨(y 1).val, idx2_lt1 y⟩ : Fin 64) d) = A1 (ix2 (⟨(i 1).val, idx2_lt1 i⟩ : Fin 64) d))
    (hx2 : x2 (ix1 (⟨(y 1).val, idx2_lt1 y⟩ : Fin 64)) = A2 (ix1 (⟨(i 1).val, idx2_lt1 i⟩ : Fin 64))) :
    k1_pay2 (F := Ideal) x0 x1 x2 y = Cert.GNN.resfun A0 A1 A2 i := by
  obtain ⟨p, e, rfl⟩ : ∃ (p : Fin 5000) (e : Fin 64), y = ix2 p e := ⟨y 0, y 1, eq_ix2 y⟩
  rw [pay1_res_apply]
  exact congrArg Cert.GNN.lrelu (congrArg₂ (· + ·)
    (Finset.sum_congr rfl fun d _ => congrArg₂ (· * ·) (hx0 d) (hx1 d)) hx2)

/-- What point `t` writes back to the raw output is block `t` of the whole-array product. -/
theorem flushed1_3_eq (c : Dev nD) (t : Fin cfg1.N) :
    (dat1 (F := Ideal) V c).flushed 3 t = ((cfg1.win 3).blk t).view.read (Elt Ideal)
      (Cert.GNN.zfun (N := 50000) (Din := 32) (Dout := 64) (V c main_v32) (V c main_arg5)) := by
  show (cfg1.win 3).cut (grid1.coords t) ((dat1 (F := Ideal) V c).after 3 t) = _
  rw [after1_3]
  unfold out1_3
  rw [View.canon_unit_zero zeros2_1]
  simp only [View.ld_unit_zero (S := S5000x32) zeros2_1, View.ld_unit_zero (S := S64x32) zeros2_1]
  obtain ⟨-, -, -, -, -, e5, e6, -⟩ := idx_facts1 t
  funext j
  show k1_pay1 (F := Ideal) (iblk1 V c 0 t) (iblk1 V c 1 t) j
    = Cert.GNN.zfun (N := 50000) (Din := 32) (Dout := 64) (V c main_v32) (V c main_arg5) (((cfg1.win 3).blk t).view.emb j)
  have h0 : ((((cfg1.win 3).blk t).view.emb j) 0).val = 5000 * t.val + (j 0).val := by
    show win1_3.index t 0 * 5000 + 1 * (j 0).val = 5000 * t.val + (j 0).val
    rw [e5]; omega
  have h1 : ((((cfg1.win 3).blk t).view.emb j) 1).val = (j 1).val := by
    show win1_3.index t 1 * 64 + 1 * (j 1).val = (j 1).val
    rw [e6]; omega
  refine raw_point1 _ _ _ _ j _ (fun d => ?_) (fun d => ?_)
  · exact iblk1_0_apply V c t _ _ h0 rfl
  · rw [iblk1_1_eq]
    exact congrArg (fun q : Fin 64 => (V c main_arg5 : S64x32.Idx → Elt Ideal .f32) (ix2 q d)) (Fin.ext h1.symm)

/-- What point `t` writes back to the rectified output is block `t` of the whole-array rectified value. -/
theorem flushed1_4_eq (c : Dev nD) (t : Fin cfg1.N) :
    (dat1 (F := Ideal) V c).flushed 4 t = ((cfg1.win 4).blk t).view.read (Elt Ideal)
      (Cert.GNN.resfun (N := 50000) (Din := 32) (Dout := 64) (V c main_v32) (V c main_arg5) (V c main_arg6)) := by
  show (cfg1.win 4).cut (grid1.coords t) ((dat1 (F := Ideal) V c).after 4 t) = _
  rw [after1_4]
  unfold out1_4
  rw [View.canon_unit_zero zeros2_1]
  simp only [View.ld_unit_zero (S := S5000x32) zeros2_1, View.ld_unit_zero (S := S64x32) zeros2_1,
    View.ld_unit_zero (S := S64) zeros1_1]
  obtain ⟨-, -, -, -, -, -, -, e7, e8⟩ := idx_facts1 t
  funext j
  show k1_pay2 (F := Ideal) (iblk1 V c 0 t) (iblk1 V c 1 t) (iblk1 V c 2 t) j
    = Cert.GNN.resfun (N := 50000) (Din := 32) (Dout := 64) (V c main_v32) (V c main_arg5) (V c main_arg6)
        (((cfg1.win 4).blk t).view.emb j)
  have h0 : ((((cfg1.win 4).blk t).view.emb j) 0).val = 5000 * t.val + (j 0).val := by
    show win1_4.index t 0 * 5000 + 1 * (j 0).val = 5000 * t.val + (j 0).val
    rw [e7]; omega
  have h1 : ((((cfg1.win 4).blk t).view.emb j) 1).val = (j 1).val := by
    show win1_4.index t 1 * 64 + 1 * (j 1).val = (j 1).val
    rw [e8]; omega
  refine res_point1 _ _ _ _ _ _ j _ (fun d => ?_) (fun d => ?_) ?_
  · exact iblk1_0_apply V c t _ _ h0 rfl
  · rw [iblk1_1_eq]
    exact congrArg (fun q : Fin 64 => (V c main_arg5 : S64x32.Idx → Elt Ideal .f32) (ix2 q d)) (Fin.ext h1.symm)
  · rw [iblk1_2_eq]
    exact congrArg (fun q : Fin 64 => (V c main_arg6 : S64.Idx → Elt Ideal .f32) (ix1 q)) (Fin.ext h1.symm)

/-- An index of the raw output array is in point `t`'s block iff each coordinate is in the block's range. -/
theorem mem_blk1_3 (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v33_0).slice (win1_3.rect t)).set ↔ _
  rw [View.set_slice_whole, Rect.mem_set_unit]
  exact Iff.rfl

/-- Likewise for the rectified output array. -/
theorem mem_blk1_4 (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v33_1).slice (win1_4.rect t)).set ↔ _
  rw [View.set_slice_whole, Rect.mem_set_unit]
  exact Iff.rfl

/-- The grid point whose row block holds row `r`: `r / 5000`. -/
theorem point_of_row1 (r : Nat) (hr : r < 50000) : ∃ t : Fin cfg1.N, t.val = r / 5000 :=
  ⟨⟨r / 5000, by show r / 5000 < grid1.N; rw [N_1]; omega⟩, rfl⟩

/-- Every index of the raw output array is in the block of the point `row / 5000`. -/
theorem covered1_3 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := point_of_row1 (i 0).val hi0
  obtain ⟨-, -, -, -, -, e5, e6, -⟩ := idx_facts1 t
  refine ⟨t, flush1_3 t, ?_⟩
  rw [mem_blk1_3]
  intro a
  match a with
  | ⟨0, _⟩ =>
    show win1_3.index t (0 : Fin 2) * 5000 ≤ (i 0).val ∧ (i 0).val < win1_3.index t (0 : Fin 2) * 5000 + 5000
    rw [e5, ht]; omega
  | ⟨1, _⟩ =>
    show win1_3.index t (1 : Fin 2) * 64 ≤ (i 1).val ∧ (i 1).val < win1_3.index t (1 : Fin 2) * 64 + 64
    rw [e6]; omega

/-- Likewise for the rectified output array. -/
theorem covered1_4 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := point_of_row1 (i 0).val hi0
  obtain ⟨-, -, -, -, -, -, -, e7, e8⟩ := idx_facts1 t
  refine ⟨t, flush1_4 t, ?_⟩
  rw [mem_blk1_4]
  intro a
  match a with
  | ⟨0, _⟩ =>
    show win1_4.index t (0 : Fin 2) * 5000 ≤ (i 0).val ∧ (i 0).val < win1_4.index t (0 : Fin 2) * 5000 + 5000
    rw [e7, ht]; omega
  | ⟨1, _⟩ =>
    show win1_4.index t (1 : Fin 2) * 64 ≤ (i 1).val ∧ (i 1).val < win1_4.index t (1 : Fin 2) * 64 + 64
    rw [e8]; omega

/-! ## The two output arrays after the region -/

/-- The raw output array ends holding the whole-array product of the layer's input with the weights. -/
theorem arr1_3 (c : Dev nD) : (dat1 (F := Ideal) V c).arrAt 3 cfg1.N
    = Cert.GNN.zfun (N := 50000) (Din := 32) (Dout := 64) (V c main_v32) (V c main_arg5) :=
  (dat1 (F := Ideal) V c).arrAt_eq_of_cover 3 _ (fun t _ => flushed1_3_eq V c t) covered1_3

/-- The rectified output array ends holding the leaky rectifier of that product plus the bias. -/
theorem arr1_4 (c : Dev nD) : (dat1 (F := Ideal) V c).arrAt 4 cfg1.N
    = Cert.GNN.resfun (N := 50000) (Din := 32) (Dout := 64) (V c main_v32) (V c main_arg5) (V c main_arg6) :=
  (dat1 (F := Ideal) V c).arrAt_eq_of_cover 4 _ (fun t _ => flushed1_4_eq V c t) covered1_4

end Cert.KernelIdeal.RegionValue

end
-- ==== Proof.RefTerm.lean ====
/-
  The reference program's result as a composed term of whole-array host operations of its nine argument arrays.

  The reference is a two-layer message-passing network over a graph with N = 50000 nodes and E = 1600000 edges, followed by a
  mean over the nodes, a linear classifier and a logarithmic soft-max.  Row 0 of the edge array lists each edge's target node
  (where its message is summed) and row 1 its source node (whose features are gathered; a negative entry is counted from the
  end, as array indexing does).  One layer, for node features `h`, edge weights `w`, a weight matrix `W` and a bias `b`:

    message of edge e      = lrelu ((h[col e] * w e) · Wᵀ + b)
    new features of node n = (sum of the messages of the edges with row e = n) / max (number of such edges, 1)
                             + lrelu (h n · Wᵀ + b)

  Each definition below is the program's own operations composed in the program's order, with the same shape records and the
  same side conditions, so that the contents a run leaves in a buffer are the corresponding term by unfolding alone.
-/
import proofs.«168688_j12120397709448_2_alg».proof.ReferenceIdeal
import proofs.«168688_j12120397709448_2_alg».proof.Proof.Gen.ReferenceIdeal
import Idealize.ShloMosaic.PureOps.Ideal

noncomputable section

namespace Cert.ReferenceIdeal.RefSide

open Cert.ReferenceIdeal Cert.ReferenceIdeal.Facts₀ Idealize.ShloMosaic Idealize.SL.Sem

/-- Row 0 of the edge array as a vector of length E: the target node of every edge. -/
def rowVec (edge : IVec S2x1600000 32) : IVec S1600000 32 :=
  shapeCast S1600000 (extractStridedSlice S1x1600000 ![0, 0] edge slices_S2x1600000_S1x1600000_0_0) shapeCasts_S1x1600000_S1600000

/-- Row 1 of the edge array as a vector of length E: the source node of every edge, as written (possibly negative). -/
def colVec (edge : IVec S2x1600000 32) : IVec S1600000 32 :=
  shapeCast S1600000 (extractStridedSlice S1x1600000 ![1, 0] edge slices_S2x1600000_S1x1600000_1_0) shapeCasts_S1x1600000_S1600000

/-- The target nodes as the [E, 1] index array the scatters take. -/
def rowIdx (edge : IVec S2x1600000 32) : IVec S1600000x1 32 :=
  broadcastInDim S1600000x1 ![0] bcast_S1600000_S1600000x1_0 (rowVec edge)

/-- The source nodes as the [E, 1] index array the gathers take: an entry below zero has N = 50000 added to it first. -/
def colIdx (edge : IVec S2x1600000 32) : IVec S1600000x1 32 :=
  broadcastInDim S1600000x1 ![0] bcast_S1600000_S1600000x1_0
    (select (cmpi .slt (colVec edge) (broadcastInDim S1600000 ![] bcast_S_S1600000 (constantI S_ 32 0#32)))
      (addi (colVec edge) (broadcastInDim S1600000 ![] bcast_S_S1600000 (constantI S_ 32 50000#32)))
      (colVec edge))

/-- The number of edges arriving at each node, at least one: ones summed at the target nodes into zeros, then the maximum with one. -/
def cnt (edge : IVec S2x1600000 32) : FVec Ideal S50000x1 .f32 :=
  maximumf
    (Host.scatterAdd scatter_S50000x1_S1600000x1_S1600000x1_1_0_0_1
      (broadcastInDim S50000x1 ![] bcast_S_S50000x1 (constant S_ .f32 0x00000000#32))
      (rowIdx edge)
      (broadcastInDim S1600000x1 ![] bcast_S_S1600000x1 (constant S_ .f32 0x3F800000#32)))
    (broadcastInDim S50000x1 ![] bcast_S_S50000x1 (constant S_ .f32 0x3F800000#32))

/-- The leaky rectifier on an [E, 32] array: an entry that compares `≥ 0` is kept, any other is multiplied by the slope
    `0x3C23D70A` (the single-precision number nearest 0.01), slope first. -/
def lreluE32 (v : FVec Ideal S1600000x32 .f32) : FVec Ideal S1600000x32 .f32 :=
  select (cmpf .oge v (broadcastInDim S1600000x32 ![] bcast_S_S1600000x32 (constant S_ .f32 0x00000000#32))) v
    (mulf (broadcastInDim S1600000x32 ![] bcast_S_S1600000x32 (id (constant S_ .f32 0x3C23D70A#32))) v)

/-- The leaky rectifier on an [N, 32] array. -/
def lreluN32 (v : FVec Ideal S50000x32 .f32) : FVec Ideal S50000x32 .f32 :=
  select (cmpf .oge v (broadcastInDim S50000x32 ![] bcast_S_S50000x32 (constant S_ .f32 0x00000000#32))) v
    (mulf (broadcastInDim S50000x32 ![] bcast_S_S50000x32 (id (constant S_ .f32 0x3C23D70A#32))) v)

/-- The leaky rectifier on an [E, 64] array. -/
def lreluE64 (v : FVec Ideal S1600000x64 .f32) : FVec Ideal S1600000x64 .f32 :=
  select (cmpf .oge v (broadcastInDim S1600000x64 ![] bcast_S_S1600000x64 (constant S_ .f32 0x00000000#32))) v
    (mulf (broadcastInDim S1600000x64 ![] bcast_S_S1600000x64 (id (constant S_ .f32 0x3C23D70A#32))) v)

/-- The leaky rectifier on an [N, 64] array. -/
def lreluN64 (v : FVec Ideal S50000x64 .f32) : FVec Ideal S50000x64 .f32 :=
  select (cmpf .oge v (broadcastInDim S50000x64 ![] bcast_S_S50000x64 (constant S_ .f32 0x00000000#32))) v
    (mulf (broadcastInDim S50000x64 ![] bcast_S_S50000x64 (id (constant S_ .f32 0x3C23D70A#32))) v)

/-- Layer 1's edge messages, [E, 32]: the source node's features gathered, scaled by the edge weight, multiplied by `W1ᵀ`,
    the bias added along the rows, the leaky rectifier. -/
def msg1 (x : FVec Ideal S50000x20 .f32) (edge : IVec S2x1600000 32) (w : FVec Ideal S1600000 .f32)
    (W1 : FVec Ideal S32x20 .f32) (b1 : FVec Ideal S32 .f32) : FVec Ideal S1600000x32 .f32 :=
  lreluE32
    (addf
      (Host.dotGeneral dot_S1600000x20_S20x32_S1600000x32_1_0_0_1_n_n none
        (mulf (Host.gather gather_S50000x20_S1600000x1_S1600000x20_1_0_n_n_0_1_120 x (colIdx edge))
          (broadcastInDim S1600000x20 ![0, 1] bcast_S1600000x1_S1600000x20_0_1
            (broadcastInDim S1600000x1 ![0] bcast_S1600000_S1600000x1_0 w)))
        (transpose S20x32 [1, 0] W1 transposes_S32x20_S20x32_1_0))
      (broadcastInDim S1600000x32 ![0, 1] bcast_S1x32_S1600000x32_0_1 (broadcastInDim S1x32 ![1] bcast_S32_S1x32_1 b1)))

/-- Layer 1's node features, [N, 32]: the messages summed at their target nodes and divided by the edge count, plus the
    node's own rectified linear image. -/
def out1 (x : FVec Ideal S50000x20 .f32) (edge : IVec S2x1600000 32) (w : FVec Ideal S1600000 .f32)
    (W1 : FVec Ideal S32x20 .f32) (b1 : FVec Ideal S32 .f32) : FVec Ideal S50000x32 .f32 :=
  addf
    (Host.divf
      (Host.scatterAdd scatter_S50000x32_S1600000x1_S1600000x32_1_0_0_1
        (broadcastInDim S50000x32 ![] bcast_S_S50000x32 (constant S_ .f32 0x00000000#32))
        (rowIdx edge)
        (msg1 x edge w W1 b1))
      (broadcastInDim S50000x32 ![0, 1] bcast_S50000x1_S50000x32_0_1 (cnt edge)))
    (lreluN32
      (addf
        (Host.dotGeneral dot_S50000x20_S20x32_S50000x32_1_0_0_1_n_n none x
          (transpose S20x32 [1, 0] W1 transposes_S32x20_S20x32_1_0))
        (broadcastInDim S50000x32 ![0, 1] bcast_S1x32_S50000x32_0_1 (broadcastInDim S1x32 ![1] bcast_S32_S1x32_1 b1))))

/-- Layer 2's edge products before the bias, [E, 64]: layer 1's features gathered at the source node, scaled by the edge
    weight, multiplied by `W3ᵀ`. -/
def edgeLin2 (o1 : FVec Ideal S50000x32 .f32) (edge : IVec S2x1600000 32) (w : FVec Ideal S1600000 .f32)
    (W3 : FVec Ideal S64x32 .f32) : FVec Ideal S1600000x64 .f32 :=
  Host.dotGeneral dot_S1600000x32_S32x64_S1600000x64_1_0_0_1_n_n none
    (mulf (Host.gather gather_S50000x32_S1600000x1_S1600000x32_1_0_n_n_0_1_132 o1 (colIdx edge))
      (broadcastInDim S1600000x32 ![0, 1] bcast_S1600000x1_S1600000x32_0_1
        (broadcastInDim S1600000x1 ![0] bcast_S1600000_S1600000x1_0 w)))
    (transpose S32x64 [1, 0] W3 transposes_S64x32_S32x64_1_0)

/-- Layer 2's edge messages, [E, 64]: the bias added along the rows of the edge products, the leaky rectifier. -/
def msg2 (o1 : FVec Ideal S50000x32 .f32) (edge : IVec S2x1600000 32) (w : FVec Ideal S1600000 .f32)
    (W3 : FVec Ideal S64x32 .f32) (b3 : FVec Ideal S64 .f32) : FVec Ideal S1600000x64 .f32 :=
  lreluE64
    (addf (edgeLin2 o1 edge w W3)
      (broadcastInDim S1600000x64 ![0, 1] bcast_S1x64_S1600000x64_0_1 (broadcastInDim S1x64 ![1] bcast_S64_S1x64_1 b3)))

/-- Layer 2's node features, [N, 64], from layer 1's features `o1`. -/
def out2 (o1 : FVec Ideal S50000x32 .f32) (edge : IVec S2x1600000 32) (w : FVec Ideal S1600000 .f32)
    (W3 : FVec Ideal S64x32 .f32) (b3 : FVec Ideal S64 .f32) : FVec Ideal S50000x64 .f32 :=
  addf
    (Host.divf
      (Host.scatterAdd scatter_S50000x64_S1600000x1_S1600000x64_1_0_0_1
        (broadcastInDim S50000x64 ![] bcast_S_S50000x64 (constant S_ .f32 0x00000000#32))
        (rowIdx edge)
        (msg2 o1 edge w W3 b3))
      (broadcastInDim S50000x64 ![0, 1] bcast_S50000x1_S50000x64_0_1 (cnt edge)))
    (lreluN64
      (addf
        (Host.dotGeneral dot_S50000x32_S32x64_S50000x64_1_0_0_1_n_n none o1
          (transpose S32x64 [1, 0] W3 transposes_S64x32_S32x64_1_0))
        (broadcastInDim S50000x64 ![0, 1] bcast_S1x64_S50000x64_0_1 (broadcastInDim S1x64 ![1] bcast_S64_S1x64_1 b3))))

/-- The classifier's two logits, [1, 2], from layer 2's features `o2`: the sum over the nodes divided by `0x47435000`
    (50000), multiplied by `W7ᵀ`, the bias added. -/
def logits (o2 : FVec Ideal S50000x64 .f32) (W7 : FVec Ideal S2x64 .f32) (b7 : FVec Ideal S2 .f32) : FVec Ideal S1x2 .f32 :=
  addf
    (Host.dotGeneral dot_S1x64_S64x2_S1x2_1_0_0_1_n_n none
      (Host.divf
        (broadcastInDim S1x64 ![1] bcast_S64_S1x64_1
          (Host.reduceAdd o2 (constant S_ .f32 0x00000000#32) reducesTo_S50000x64_S64_d0 h_S_))
        (broadcastInDim S1x64 ![] bcast_S_S1x64 (constant S_ .f32 0x47435000#32)))
      (transpose S64x2 [1, 0] W7 transposes_S2x64_S64x2_1_0))
    (broadcastInDim S1x2 ![1] bcast_S2_S1x2_1 b7)

/-- A [1, 2] array minus its row maximum (the maximum of `-∞` and the row's fold by maximum from `-∞`). -/
def shifted (l : FVec Ideal S1x2 .f32) : FVec Ideal S1x2 .f32 :=
  subf l
    (broadcastInDim S1x2 ![0, 1] bcast_S1x1_S1x2_0_1
      (broadcastInDim S1x1 ![0] bcast_S1_S1x1_0
        (maximumf (broadcastInDim S1 ![] bcast_S_S1 (constant S_ .f32 0xFF800000#32))
          (Host.reduce FloatOps.maximumf l (constant S_ .f32 0xFF800000#32) reducesTo_S1x2_S1_d1 h_S_))))

/-- The logarithmic soft-max of a [1, 2] array along its row: the shifted array minus the logarithm of the row sum of its
    exponentials. -/
def logSoftmax (l : FVec Ideal S1x2 .f32) : FVec Ideal S1x2 .f32 :=
  subf (shifted l)
    (broadcastInDim S1x2 ![0, 1] bcast_S1x1_S1x2_0_1
      (Host.log
        (broadcastInDim S1x1 ![0] bcast_S1_S1x1_0
          (Host.reduceAdd (Host.exp (shifted l)) (constant S_ .f32 0x00000000#32) reducesTo_S1x2_S1_d1 h_S_))))

/-- The result from layer 2's features: the logarithmic soft-max of the logits. -/
def tail (o2 : FVec Ideal S50000x64 .f32) (W7 : FVec Ideal S2x64 .f32) (b7 : FVec Ideal S2 .f32) : FVec Ideal S1x2 .f32 :=
  logSoftmax (logits o2 W7 b7)

/-- The reference's result, [1, 2], as a function of its nine argument arrays. -/
def result (x : FVec Ideal S50000x20 .f32) (edge : IVec S2x1600000 32) (w : FVec Ideal S1600000 .f32)
    (W1 : FVec Ideal S32x20 .f32) (b1 : FVec Ideal S32 .f32) (W3 : FVec Ideal S64x32 .f32) (b3 : FVec Ideal S64 .f32)
    (W7 : FVec Ideal S2x64 .f32) (b7 : FVec Ideal S2 .f32) : FVec Ideal S1x2 .f32 :=
  tail (out2 (out1 x edge w W1 b1) edge w W3 b3) W7 b7

end Cert.ReferenceIdeal.RefSide

end
-- ==== Proof.LibRealEntries.lean ====
/-
  Real entries among the extended reals, and the associativity of a product of three matrices on them.

  An extended real is REAL when it is a real number (neither infinity). Sums, products and maxima of real entries are
  real, and the inclusion of the reals commutes with finite sums. On real entries multiplication distributes over
  sums, so the two ways of bracketing a product of three matrices agree entry by entry:
      Σ_k (Σ_i a i · x i k) · w k  =  Σ_i a i · (Σ_k x i k · w k)
  (`sum_mul_assoc`, over any two finite index types). With an infinite entry the two sides can differ, which is why the
  statement asks for real entries.
-/
import Idealize.ShloMosaic.PureOps.Ideal

open scoped BigOperators

noncomputable section

namespace Cert.Lib.RealEntries

/-- An extended real that is a real number. -/
def IsReal (x : EReal) : Prop := ∃ r : ℝ, x = (r : EReal)

theorem isReal_zero : IsReal 0 := ⟨0, rfl⟩

theorem isReal_coe (r : ℝ) : IsReal (r : EReal) := ⟨r, rfl⟩

/-- A sum of two real entries is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A product of two real entries is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The larger of two real entries is real. -/
theorem IsReal.max {x y : EReal} (hx : IsReal x) (hy : IsReal y) : IsReal (max x y) := by
  rcases max_choice x y with h | h <;> rw [h] <;> assumption

/-- A finite sum of real entries is real. -/
theorem IsReal.sum {ι : Type} (s : Finset ι) (f : ι → EReal) (hf : ∀ i, IsReal (f i)) : IsReal (∑ i ∈ s, f i) := by
  classical
  induction s using Finset.induction_on with
  | empty => rw [Finset.sum_empty]; exact isReal_zero
  | insert a s ha ih => rw [Finset.sum_insert ha]; exact (hf a).add ih

/-- The inclusion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty]; rfl
  | insert a s ha ih => rw [Finset.sum_insert ha, Finset.sum_insert ha, EReal.coe_add, ih]

/-- Associativity of a product of three matrices, entry by entry, for real entries:
    Σ_k (Σ_i a i · x i k) · w k = Σ_i a i · (Σ_k x i k · w k). -/
theorem sum_mul_assoc {ι κ : Type} [Fintype ι] [Fintype κ] (a : ι → EReal) (x : ι → κ → EReal) (w : κ → EReal)
    (ha : ∀ i, IsReal (a i)) (hx : ∀ i k, IsReal (x i k)) (hw : ∀ k, IsReal (w k)) :
    ∑ k, (∑ i, a i * x i k) * w k = ∑ i, a i * ∑ k, x i k * w k := by
  choose a' ha using ha
  choose x' hx using hx
  choose w' hw using hw
  have hl : ∑ k, (∑ i, a i * x i k) * w k = ((∑ k, (∑ i, a' i * x' i k) * w' k : ℝ) : EReal) := by
    rw [coe_sum]
    refine Finset.sum_congr rfl fun k _ => ?_
    rw [EReal.coe_mul, coe_sum, hw k]
    refine congrArg (· * (w' k : EReal)) (Finset.sum_congr rfl fun i _ => ?_)
    rw [EReal.coe_mul, ha i, hx i k]
  have hr : ∑ i, a i * ∑ k, x i k * w k = ((∑ i, a' i * ∑ k, x' i k * w' k : ℝ) : EReal) := by
    rw [coe_sum]
    refine Finset.sum_congr rfl fun i _ => ?_
    rw [EReal.coe_mul, coe_sum, ha i]
    refine congrArg ((a' i : EReal) * ·) (Finset.sum_congr rfl fun k _ => ?_)
    rw [EReal.coe_mul, hx i k, hw k]
  rw [hl, hr]
  refine congrArg _ ?_
  simp only [Finset.sum_mul, Finset.mul_sum]
  rw [Finset.sum_comm]
  exact Finset.sum_congr rfl fun i _ => Finset.sum_congr rfl fun k _ => mul_assoc _ _ _

end Cert.Lib.RealEntries

end
-- ==== Proof.LibQuotient.lean ====
/-
  Quotients by a nonzero divisor on the extended reals, at the ideal instance's division.

  `Ideal.div a d` is `a · d⁻¹` whenever `d ≠ 0` — at the infinities too — so dividing by `d` is multiplying by the
  quotient `1 / d`, on either side; and a value clipped below at one is never zero. Together: one program's
  `x / max n 1` meets another's `x · (1 / max n 1)` (a mean over a count clipped at one) at every extended real,
  with no finiteness assumed of `x` or of `n`.
-/
import Idealize.ShloMosaic.PureOps.Ideal

namespace Cert.Lib.Quotient

open Idealize.ShloMosaic

/-- Dividing by a nonzero `d` is multiplying by the quotient `1 / d`, at every extended real. -/
theorem div_eq_mul_one_div (a d : EReal) (hd : d ≠ 0) : Ideal.div a d = a * Ideal.div 1 d := by
  unfold Ideal.div
  rw [if_neg hd, if_neg hd, one_mul]

/-- The same with the quotient `1 / d` as the left factor. -/
theorem div_eq_one_div_mul (a d : EReal) (hd : d ≠ 0) : Ideal.div a d = Ideal.div 1 d * a := by
  rw [div_eq_mul_one_div a d hd, mul_comm]

/-- A value clipped below at one is not zero. -/
theorem max_one_ne_zero (x : EReal) : max x (1 : EReal) ≠ 0 :=
  ne_of_gt (lt_of_lt_of_le zero_lt_one (le_max_right x 1))

/-- The same with the one on the left. -/
theorem one_max_ne_zero (x : EReal) : max (1 : EReal) x ≠ 0 :=
  ne_of_gt (lt_of_lt_of_le zero_lt_one (le_max_left 1 x))

/-- A quotient by a value clipped below at one is the product with the reciprocal of the clipped value. -/
theorem div_max_one (a x : EReal) : Ideal.div a (max x 1) = a * Ideal.div 1 (max x 1) :=
  div_eq_mul_one_div a _ (max_one_ne_zero x)

end Cert.Lib.Quotient
-- ==== Proof.LibLayerAlgebra.lean ====
/-
  The algebra of one message-passing layer over the extended reals.

  A layer sends, along every edge `e` from its source node, the leaky rectifier of a linear image of the source's
  features scaled by the edge weight, and averages what arrives at each node.  Scaling by the edge weight may be done
  before the linear map, feature by feature, `∑ d, (x d * w) * W d`, or after it, `w * ∑ d, x d * W d`: the two agree
  when every number involved is real (on the extended reals a product does not distribute over a sum that holds
  infinities of both signs).  The average may divide the sum by `max count 1` or multiply it by the reciprocal
  `1 / max count 1`: these agree on all extended reals, the divisor being nonzero.  The leaky rectifier, the quotient by a
  nonzero real and finite sums keep real entries real, so a layer's output is real when its inputs are — which is what
  lets the argument be repeated on the second layer.
-/
import proofs.«168688_j12120397709448_2_alg».proof.Proof.LibNodeLinear
import proofs.«168688_j12120397709448_2_alg».proof.Proof.LibRealEntries
import proofs.«168688_j12120397709448_2_alg».proof.Proof.LibQuotient
import Idealize.ShloMosaic.PureOps.Ideal.Laws

noncomputable section

namespace Cert.GNN

open Idealize.ShloMosaic Cert.Lib.RealEntries

/-- A pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  simp only []
  rw [if_neg h]
  split_ifs <;> exact ⟨_, rfl⟩

/-- The single-precision pattern of `1.0` is the extended real `1`. -/
theorem one_f32 : Ideal.ofBits .f32 0x3F800000#32 = 1 := by
  simp [Ideal.ofBits, Ideal.ieee]
  rw [← EReal.coe_mul]; norm_num

/-- The slope literal is a real number. -/
theorem slope_isReal : IsReal (Ideal.ofBits .f32 0x3C23D70A#32) :=
  (ieee_isReal 8 23 (0x3C23D70A#32 : BitVec 32) (by decide) : IsReal (Ideal.ieee 8 23 (0x3C23D70A#32 : BitVec 32)))

/-- The leaky rectifier of a real is real: it is the value itself or the slope times it. -/
theorem lrelu_isReal {v : EReal} (hv : IsReal v) : IsReal (lrelu v) := by
  unfold lrelu Scalar.select
  split_ifs
  · exact hv
  · exact slope_isReal.mul hv

/-- On real entries the edge weight moves across the linear map: `w * ∑ d, a d * b d = ∑ d, (a d * w) * b d`. -/
theorem scale_sum {ι : Type} [Fintype ι] (w : EReal) (a b : ι → EReal) (hw : IsReal w) (ha : ∀ d, IsReal (a d))
    (hb : ∀ d, IsReal (b d)) : w * ∑ d, a d * b d = ∑ d, (a d * w) * b d := by
  obtain ⟨w', rfl⟩ := hw
  choose a' ha' using ha
  choose b' hb' using hb
  obtain rfl : a = fun d => ((a' d : ℝ) : EReal) := funext ha'
  obtain rfl : b = fun d => ((b' d : ℝ) : EReal) := funext hb'
  simp only [← EReal.coe_mul, ← coe_sum]
  refine congrArg _ ?_
  rw [Finset.mul_sum]
  exact Finset.sum_congr rfl fun d _ => by ring

/-- A sum of products of reals is real. -/
theorem sum_mul_isReal {ι : Type} [Fintype ι] (a b : ι → EReal) (ha : ∀ d, IsReal (a d)) (hb : ∀ d, IsReal (b d)) :
    IsReal (∑ d, a d * b d) := IsReal.sum _ _ fun d => (ha d).mul (hb d)

/-- The quotient of a real by a nonzero real is real. -/
theorem div_isReal {a d : EReal} (ha : IsReal a) (hd : IsReal d) (h0 : d ≠ 0) : IsReal (Ideal.div a d) := by
  obtain ⟨a', rfl⟩ := ha
  obtain ⟨d', rfl⟩ := hd
  have hd' : d' ≠ 0 := fun h => h0 (by rw [h]; rfl)
  rw [Ideal.div_coe hd']
  exact (isReal_coe _).mul (isReal_coe _)

/-- Multiplying by the reciprocal of `max c 1` is dividing by it, on all extended reals. -/
theorem mean_eq (S c : EReal) :
    S * Ideal.div (Ideal.ofBits .f32 0x3F800000#32) (max c (Ideal.ofBits .f32 0x3F800000#32))
      = Ideal.div S (max c (Ideal.ofBits .f32 0x3F800000#32)) := by
  rw [one_f32]; exact (Cert.Lib.Quotient.div_max_one S c).symm

/-- The mean of real messages over a real count is real. -/
theorem mean_isReal {S c : EReal} (hS : IsReal S) (hc : IsReal c) :
    IsReal (Ideal.div S (max c (Ideal.ofBits .f32 0x3F800000#32))) := by
  rw [one_f32]
  exact div_isReal hS (hc.max (isReal_coe 1 |> fun h => by simpa using h)) (Cert.Lib.Quotient.max_one_ne_zero c)

end Cert.GNN

end
-- ==== Proof.LibGatherRows.lean ====
/-
  A gather of whole rows of a matrix, read at coordinates, at any extents.

  The operand is an `[N, C]` matrix and the start indices an `[E, 1]` column of integers; the gather collapses
  the operand's first axis, takes slices of one row of `C` entries, and maps each start index to a row.  Result
  entry `(e, j)` is then the operand's entry `(r, j)`, where the row `r` is the start index `idx (e, 0)` read as a
  signed integer and clamped into `[0, N - 1]` — the row depends on `e` alone, the column is `j` itself.
-/
import Idealize.ShloMosaic.Lib.ValueIdx

noncomputable section

namespace Cert.Lib.GatherRows

open Idealize.ShloMosaic Idealize.ShloMosaic.ValueIdx

variable {α : Type}

/-- The dimension numbers of a row gather: offset axis 1, collapsed operand axis 0, start index map `[0]`, the index
    vector on axis 1 of the start indices, slices of one row. -/
abbrev rowsDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The source row of result row `e`: the start index at `(e, 0)`, read signed and clamped into `[0, N - 1]`. -/
def srcRow {N E w : Nat} (hN : 0 < N) (idx : IVec ⟨2, ![E, 1]⟩ w) (e : Fin E) : Fin N :=
  ⟨min (idx (ix2 e (0 : Fin 1))).toInt.toNat (N - 1), by omega⟩

/-- The row gather at `(e, j)`: the operand at the source row of `e` and column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowsDims N E C wf) x idx (ix2 e j) = x (ix2 (srcRow hN idx e) j) := by
  unfold Host.gather
  refine congrArg x ?_
  funext a
  refine Fin.ext ?_
  match a with
  | ⟨0, _⟩ =>
    show (rowsDims N E C wf).start (ix2 e j) idx 0 + (rowsDims N E C wf).batchCoord (ix2 e j) 0
      + (rowsDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e j) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E C wf).start (ix2 e j) idx 1 + (rowsDims N E C wf).batchCoord (ix2 e j) 1
      + (rowsDims N E C wf).offCoord (ix2 e j) 1 = j.val
    have hs : (rowsDims N E C wf).start (ix2 e j) idx 1 = 0 := by
      unfold GatherDims.start
      rw [dif_neg (show ¬ (1 : Fin 2) ∈ (rowsDims N E C wf).startIndexMap from (by decide : ¬ (1 : Fin 2) ∈ ([0] : List (Fin 2))))]
    have ho : (rowsDims N E C wf).offCoord (ix2 e j) 1 = j.val := by
      unfold GatherDims.offCoord
      rw [dif_pos (show (1 : Fin 2) ∈ (rowsDims N E C wf).sKept from
        (GatherDims.mem_sKept _ _).mpr ⟨(by decide : ¬ (1 : Fin 2) ∈ ([0] : List (Fin 2))), List.not_mem_nil⟩)]
      rfl
    rw [hs, GatherDims.batchCoord_eq_zero _ _ _ List.not_mem_nil, ho]
    omega

end Cert.Lib.GatherRows

end
-- ==== Proof.LibScatterRows.lean ====
/-
  A scatter of whole rows into a matrix: where an update lands, at any extents.

  The operand is an `[N, C]` matrix, the scatter indices an `[E, 1]` column of integers and the updates an `[E, C]`
  matrix of rows; update row `e` goes to the operand row its start index names, read as a signed integer and NOT
  clamped — an update whose row falls outside the operand is dropped. So if update entry `(e, q)` lands at operand
  index `i`, the start index at `(e, 0)` is the integer `i 0` (and the column is kept).

  Over the extended reals the accumulating scatter into a matrix of zeros is, at `i`, the sum of the update entries that
  land there; a factor that depends only on the landing row and is a non-negative real may be taken out of that sum.
-/
import Idealize.ShloMosaic.Lib.ValueIdx
import Idealize.ShloMosaic.PureOps.Ideal

open scoped BigOperators

noncomputable section

namespace Cert.Lib.ScatterRows

open Idealize.ShloMosaic Idealize.ShloMosaic.ValueIdx

/-- The dimension numbers of a row scatter: update window axis 1, inserted operand axis 0, the start index mapped to
    operand axis 0, the index vector on axis 1 of the scatter indices. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The window's start on the operand's row axis: the start index at `(e, 0)`, read signed. -/
theorem start_row {N E C w : Nat} (wf : ScatterDims.WF ⟨2, ![N, C]⟩ ⟨2, ![E, 1]⟩ ⟨2, ![E, C]⟩ [1] [0] [0] 1)
    (idx : IVec ⟨2, ![E, 1]⟩ w) (e : Fin E) (q : Fin C) :
    (rowsDims N E C wf).start (ix2 e q) idx 0 = (idx (ix2 e (0 : Fin 1))).toInt := by
  unfold ScatterDims.start
  rw [dif_pos (show (0 : Fin 2) ∈ (rowsDims N E C wf).scatterDimsToOperandDims from List.mem_singleton.mpr rfl)]
  have hsi : (rowsDims N E C wf).siIdx (ix2 e q) ⟨List.idxOf (0 : Fin 2) (rowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The row axis is inserted: the window coordinate there is zero. -/
theorem window_row {N E C : Nat} (wf : ScatterDims.WF ⟨2, ![N, C]⟩ ⟨2, ![E, 1]⟩ ⟨2, ![E, C]⟩ [1] [0] [0] 1)
    (j : (⟨2, ![E, C]⟩ : Shape).Idx) : (rowsDims N E C wf).window j 0 = 0 := by
  unfold ScatterDims.window
  rw [dif_neg (show ¬ (0 : Fin 2) ∈ (rowsDims N E C wf).sKept from by
    simp [ScatterDims.sKept, Shape.kept, List.mem_filter, List.mem_finRange])]

/-- An update entry `(e, q)` that lands at operand index `i` has start index `i 0` at `(e, 0)`. -/
theorem row_of_resultIdx {N E C w : Nat} (wf : ScatterDims.WF ⟨2, ![N, C]⟩ ⟨2, ![E, 1]⟩ ⟨2, ![E, C]⟩ [1] [0] [0] 1)
    (idx : IVec ⟨2, ![E, 1]⟩ w) (e : Fin E) (q : Fin C) (i : (⟨2, ![N, C]⟩ : Shape).Idx)
    (h : (rowsDims N E C wf).resultIdx? (ix2 e q) idx = some i) :
    (idx (ix2 e (0 : Fin 1))).toInt = ((i 0).val : Int) := by
  unfold ScatterDims.resultIdx? at h
  split at h
  · rename_i hh
    have h0 : ((rowsDims N E C wf).start (ix2 e q) idx 0 + ((rowsDims N E C wf).window (ix2 e q) 0 : Nat)).toNat = (i 0).val :=
      congrArg (fun f : (⟨2, ![N, C]⟩ : Shape).Idx => (f 0).val) (Option.some.inj h)
    have hb := hh 0
    rw [start_row, window_row] at h0 hb
    omega
  · cases h

/-- A non-negative real factor comes out of a finite sum of extended reals. -/
theorem sum_mul_coe_nonneg {ι : Type} (S : Finset ι) (f : ι → EReal) {r : ℝ} (hr : 0 ≤ r) :
    ∑ j ∈ S, f j * (r : EReal) = (∑ j ∈ S, f j) * (r : EReal) := by
  classical
  induction S using Finset.induction_on with
  | empty => simp
  | insert a S ha ih =>
    rw [Finset.sum_insert ha, Finset.sum_insert ha, ih]
    exact (EReal.right_distrib_of_nonneg_of_ne_top (by exact_mod_cast hr) (EReal.coe_ne_top r) _ _).symm

/-- THE SCALED ROW SCATTER. Two accumulating row scatters into zeros at the same scatter indices, the second's updates
    the first's times a factor `s` of the LANDING row, `s` non-negative real: the second's result is the first's times
    `s` of the row, entry by entry. -/
theorem hostScatterAdd_scaled {N E C w : Nat} (wf : ScatterDims.WF ⟨2, ![N, C]⟩ ⟨2, ![E, 1]⟩ ⟨2, ![E, C]⟩ [1] [0] [0] 1)
    (idx : IVec ⟨2, ![E, 1]⟩ w) (u u' : (⟨2, ![E, C]⟩ : Shape).Idx → EReal) (s : Fin N → ℝ) (hs : ∀ v, 0 ≤ s v)
    (hu : ∀ (e : Fin E) (q : Fin C) (i : (⟨2, ![N, C]⟩ : Shape).Idx),
      (rowsDims N E C wf).resultIdx? (ix2 e q) idx = some i → u' (ix2 e q) = u (ix2 e q) * ((s ⟨(i 0).val, idx2_lt0 i⟩ : ℝ) : EReal))
    (i : (⟨2, ![N, C]⟩ : Shape).Idx) :
    Ideal.hostScatterAdd (rowsDims N E C wf) (fun _ => (0 : EReal)) idx u' i
      = Ideal.hostScatterAdd (rowsDims N E C wf) (fun _ => (0 : EReal)) idx u i * ((s ⟨(i 0).val, idx2_lt0 i⟩ : ℝ) : EReal) := by
  unfold Ideal.hostScatterAdd
  rw [zero_add, zero_add, ← sum_mul_coe_nonneg _ _ (hs _)]
  refine Finset.sum_congr rfl fun j hj => ?_
  obtain ⟨e, q, rfl⟩ : ∃ (e : Fin E) (q : Fin C), j = ix2 e q := ⟨⟨(j 0).val, idx2_lt0 j⟩, ⟨(j 1).val, idx2_lt1 j⟩, eq_ix2 j⟩
  exact hu e q i (Finset.mem_filter.mp hj).2

/-- The same for the host's accumulating scatter at the ideal instance, into any matrix `z` of zeros. -/
theorem scatterAdd_scaled {N E C w : Nat} (wf : ScatterDims.WF ⟨2, ![N, C]⟩ ⟨2, ![E, 1]⟩ ⟨2, ![E, C]⟩ [1] [0] [0] 1)
    (z : FVec Ideal ⟨2, ![N, C]⟩ .f32) (hz : ∀ i, z i = 0)
    (idx : IVec ⟨2, ![E, 1]⟩ w) (u u' : FVec Ideal ⟨2, ![E, C]⟩ .f32) (s : Fin N → ℝ) (hs : ∀ v, 0 ≤ s v)
    (hu : ∀ (e : Fin E) (q : Fin C) (i : (⟨2, ![N, C]⟩ : Shape).Idx),
      (rowsDims N E C wf).resultIdx? (ix2 e q) idx = some i → u' (ix2 e q) = u (ix2 e q) * ((s ⟨(i 0).val, idx2_lt0 i⟩ : ℝ) : EReal))
    (v : Fin N) (q : Fin C) :
    Host.scatterAdd (F := Ideal) (rowsDims N E C wf) z idx u' (ix2 v q)
      = Host.scatterAdd (F := Ideal) (rowsDims N E C wf) z idx u (ix2 v q) * ((s v : ℝ) : EReal) := by
  have hz' : z = fun _ => (0 : EReal) := funext hz
  subst hz'
  exact hostScatterAdd_scaled wf idx u u' s hs hu (ix2 v q)

/-- The same for ANY record that is the row scatter's (a program's printed record, by `rfl`). -/
theorem scatterAdd_scaled_of_eq {N E C w : Nat} (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = rowsDims N E C wf)
    (z : FVec Ideal ⟨2, ![N, C]⟩ .f32) (hz : ∀ i, z i = 0)
    (idx : IVec ⟨2, ![E, 1]⟩ w) (u u' : FVec Ideal ⟨2, ![E, C]⟩ .f32) (s : Fin N → ℝ) (hs : ∀ v, 0 ≤ s v)
    (hu : ∀ (e : Fin E) (q : Fin C) (i : (⟨2, ![N, C]⟩ : Shape).Idx),
      d.resultIdx? (ix2 e q) idx = some i → u' (ix2 e q) = u (ix2 e q) * ((s ⟨(i 0).val, idx2_lt0 i⟩ : ℝ) : EReal))
    (v : Fin N) (q : Fin C) :
    Host.scatterAdd (F := Ideal) d z idx u' (ix2 v q) = Host.scatterAdd (F := Ideal) d z idx u (ix2 v q) * ((s v : ℝ) : EReal) := by
  subst hd
  exact scatterAdd_scaled wf z hz idx u u' s hs hu v q

/-- and the landing row, for such a record. -/
theorem row_of_resultIdx_of_eq {N E C w : Nat} (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = rowsDims N E C wf)
    (idx : IVec ⟨2, ![E, 1]⟩ w) (e : Fin E) (q : Fin C) (i : (⟨2, ![N, C]⟩ : Shape).Idx)
    (h : d.resultIdx? (ix2 e q) idx = some i) : (idx (ix2 e (0 : Fin 1))).toInt = ((i 0).val : Int) := by
  subst hd
  exact row_of_resultIdx wf idx e q i h

end Cert.Lib.ScatterRows

end
-- ==== Proof.LibScatterSum.lean ====
/-
  An accumulating scatter read at an index, at any extents, over the extended reals.

  A vector scatter adds update `e` of an `[E]` vector into the entry of an `[N]` vector that the integer at `(e, 0)`
  of an `[E, 1]` column names; a row scatter adds update row `e` of an `[E, C]` matrix into the row of an `[N, C]`
  matrix that integer names, column by column. The integer is read signed and is not clamped: an update whose
  integer names no entry is dropped. So the result at `v` (at `(v, j)`) is the operand there plus the sum of the updates
  `e` (of their entries in column `j`) whose integer is exactly `v`.
-/
import Idealize.ShloMosaic.Lib.ValueIdx
import Idealize.ShloMosaic.PureOps.Ideal
import proofs.«168688_j12120397709448_2_alg».proof.Proof.LibScatterRows

open scoped BigOperators

noncomputable section

namespace Cert.Lib.ScatterSum

open Idealize.ShloMosaic Idealize.ShloMosaic.ValueIdx Cert.Lib.ScatterRows

/-! ## Rows -/

section Rows

variable {N E C w : Nat} (wf : ScatterDims.WF ⟨2, ![N, C]⟩ ⟨2, ![E, 1]⟩ ⟨2, ![E, C]⟩ [1] [0] [0] 1)

/-- The column axis is not mapped: the window starts at zero there. -/
theorem start_col (idx : IVec ⟨2, ![E, 1]⟩ w) (j : (⟨2, ![E, C]⟩ : Shape).Idx) :
    (rowsDims N E C wf).start j idx 1 = 0 := by
  unfold ScatterDims.start
  rw [dif_neg (show ¬ (1 : Fin 2) ∈ ([0] : List (Fin 2)) from by decide)]

/-- The column axis is a window axis: the window coordinate there is the update's column. -/
theorem window_col (e : Fin E) (q : Fin C) : (rowsDims N E C wf).window (ix2 e q) 1 = q.val := by
  unfold ScatterDims.window
  rw [dif_pos (show (1 : Fin 2) ∈ (rowsDims N E C wf).sKept from by
    simp [ScatterDims.sKept, Shape.kept, List.mem_filter, List.mem_finRange])]
  rfl

/-- Update entry `(e, q)` lands at `(v, j)` exactly when the integer at `(e, 0)` is `v` and `q` is `j`. -/
theorem rows_resultIdx_iff (idx : IVec ⟨2, ![E, 1]⟩ w) (e : Fin E) (q : Fin C) (v : Fin N) (j : Fin C) :
    (rowsDims N E C wf).resultIdx? (ix2 e q) idx = some (ix2 v j)
      ↔ (idx (ix2 e (0 : Fin 1))).toInt = ((v.val : ℕ) : Int) ∧ q = j := by
  constructor
  · intro h
    refine ⟨row_of_resultIdx wf idx e q (ix2 v j) h, ?_⟩
    unfold ScatterDims.resultIdx? at h
    split at h
    · have h1 : ((rowsDims N E C wf).start (ix2 e q) idx 1 + ((rowsDims N E C wf).window (ix2 e q) 1 : Nat)).toNat = j.val :=
        congrArg (fun f : (⟨2, ![N, C]⟩ : Shape).Idx => (f 1).val) (Option.some.inj h)
      rw [start_col, window_col] at h1
      exact Fin.ext (by omega)
    · cases h
  · rintro ⟨hv, rfl⟩
    unfold ScatterDims.resultIdx?
    have hall : ∀ a, 0 ≤ (rowsDims N E C wf).start (ix2 e q) idx a + ((rowsDims N E C wf).window (ix2 e q) a : Nat)
        ∧ (rowsDims N E C wf).start (ix2 e q) idx a + ((rowsDims N E C wf).window (ix2 e q) a : Nat) < ((⟨2, ![N, C]⟩ : Shape).size a : Nat) := by
      intro a
      match a with
      | ⟨0, _⟩ =>
        have := v.isLt
        rw [show (⟨0, by omega⟩ : Fin 2) = 0 from rfl, start_row, window_row, hv]
        exact ⟨by omega, by show ((v.val : ℕ) : Int) + ((0 : ℕ) : Int) < ((N : ℕ) : Int); omega⟩
      | ⟨1, _⟩ =>
        have := q.isLt
        rw [show (⟨1, by omega⟩ : Fin 2) = 1 from rfl, start_col, window_col]
        exact ⟨by omega, by show (0 : Int) + ((q.val : ℕ) : Int) < ((C : ℕ) : Int); omega⟩
    rw [dif_pos hall]
    refine congrArg some ?_
    funext a
    refine Fin.ext ?_
    match a with
    | ⟨0, _⟩ =>
      show ((rowsDims N E C wf).start (ix2 e q) idx 0 + ((rowsDims N E C wf).window (ix2 e q) 0 : Nat)).toNat = v.val
      rw [start_row, window_row, hv]; omega
    | ⟨1, _⟩ =>
      show ((rowsDims N E C wf).start (ix2 e q) idx 1 + ((rowsDims N E C wf).window (ix2 e q) 1 : Nat)).toNat = q.val
      rw [start_col, window_col]; omega

/-- THE ROW SCATTER AT AN INDEX. -/
theorem scatterAdd_rows_apply (x : FVec Ideal ⟨2, ![N, C]⟩ .f32) (idx : IVec ⟨2, ![E, 1]⟩ w)
    (u : FVec Ideal ⟨2, ![E, C]⟩ .f32) (v : Fin N) (j : Fin C) :
    Host.scatterAdd (F := Ideal) (rowsDims N E C wf) x idx u (ix2 v j)
      = x (ix2 v j) + ∑ e ∈ Finset.univ.filter (fun e : Fin E => (idx (ix2 e (0 : Fin 1))).toInt = ((v.val : ℕ) : Int)), u (ix2 e j) := by
  show Ideal.hostScatterAdd (rowsDims N E C wf) x idx u (ix2 v j) = _
  unfold Ideal.hostScatterAdd
  refine congrArg (x (ix2 v j) + ·) ?_
  refine Finset.sum_bij' (fun jj _ => (⟨(jj 0).val, idx2_lt0 jj⟩ : Fin E)) (fun e _ => ix2 e j) ?_ ?_ ?_ ?_ ?_
  · intro jj hjj
    obtain ⟨e, q, rfl⟩ : ∃ (e : Fin E) (q : Fin C), jj = ix2 e q := ⟨⟨(jj 0).val, idx2_lt0 jj⟩, ⟨(jj 1).val, idx2_lt1 jj⟩, eq_ix2 jj⟩
    have h := (rows_resultIdx_iff wf idx e q v j).mp (Finset.mem_filter.mp hjj).2
    exact Finset.mem_filter.mpr ⟨Finset.mem_univ _, h.1⟩
  · intro e he
    exact Finset.mem_filter.mpr ⟨Finset.mem_univ _, (rows_resultIdx_iff wf idx e j v j).mpr ⟨(Finset.mem_filter.mp he).2, rfl⟩⟩
  · intro jj hjj
    obtain ⟨e, q, rfl⟩ : ∃ (e : Fin E) (q : Fin C), jj = ix2 e q := ⟨⟨(jj 0).val, idx2_lt0 jj⟩, ⟨(jj 1).val, idx2_lt1 jj⟩, eq_ix2 jj⟩
    have h := (rows_resultIdx_iff wf idx e q v j).mp (Finset.mem_filter.mp hjj).2
    rw [h.2]; rfl
  · intro e he
    exact Fin.ext rfl
  · intro jj hjj
    obtain ⟨e, q, rfl⟩ : ∃ (e : Fin E) (q : Fin C), jj = ix2 e q := ⟨⟨(jj 0).val, idx2_lt0 jj⟩, ⟨(jj 1).val, idx2_lt1 jj⟩, eq_ix2 jj⟩
    have h := (rows_resultIdx_iff wf idx e q v j).mp (Finset.mem_filter.mp hjj).2
    rw [h.2]; rfl

/-- The same for ANY record that is the row scatter's (a program's printed record, by `rfl`). -/
theorem scatterAdd_rows_apply_of_eq (d : ScatterDims ⟨2, ![N, C]⟩ ⟨2, ![E, 1]⟩ ⟨2, ![E, C]⟩) (hd : d = rowsDims N E C wf)
    (x : FVec Ideal ⟨2, ![N, C]⟩ .f32) (idx : IVec ⟨2, ![E, 1]⟩ w) (u : FVec Ideal ⟨2, ![E, C]⟩ .f32) (v : Fin N) (j : Fin C) :
    Host.scatterAdd (F := Ideal) d x idx u (ix2 v j)
      = x (ix2 v j) + ∑ e ∈ Finset.univ.filter (fun e : Fin E => (idx (ix2 e (0 : Fin 1))).toInt = ((v.val : ℕ) : Int)), u (ix2 e j) := by
  subst hd; exact scatterAdd_rows_apply wf x idx u v j

end Rows

/-! ## Vectors -/

section Vectors

variable {N E w : Nat} (wf : ScatterDims.WF ⟨1, ![N]⟩ ⟨2, ![E, 1]⟩ ⟨1, ![E]⟩ [] [0] [0] 1)

/-- The dimension numbers of a vector scatter: no window axis, the one operand axis inserted and mapped, the index
    vector on axis 1 of the scatter indices. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window's start: the integer at `(e, 0)`, read signed. -/
theorem start_vec (idx : IVec ⟨2, ![E, 1]⟩ w) (e : Fin E) :
    (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one axis is inserted: no window coordinate. -/
theorem window_vec (j : (⟨1, ![E]⟩ : Shape).Idx) : (vecDims N E wf).window j 0 = 0 := by
  unfold ScatterDims.window
  rw [dif_neg (show ¬ (0 : Fin 1) ∈ (vecDims N E wf).sKept from by
    simp [ScatterDims.sKept, Shape.kept, List.mem_filter, List.mem_finRange])]

/-- Update `e` lands at `v` exactly when the integer at `(e, 0)` is `v`. -/
theorem vec_resultIdx_iff (idx : IVec ⟨2, ![E, 1]⟩ w) (e : Fin E) (v : Fin N) :
    (vecDims N E wf).resultIdx? (ix1 e) idx = some (ix1 v) ↔ (idx (ix2 e (0 : Fin 1))).toInt = ((v.val : ℕ) : Int) := by
  constructor
  · intro h
    unfold ScatterDims.resultIdx? at h
    split at h
    · rename_i hh
      have h0 : ((vecDims N E wf).start (ix1 e) idx 0 + ((vecDims N E wf).window (ix1 e) 0 : Nat)).toNat = v.val :=
        congrArg (fun f : (⟨1, ![N]⟩ : Shape).Idx => (f 0).val) (Option.some.inj h)
      have hb := hh 0
      rw [start_vec, window_vec] at h0 hb
      omega
    · cases h
  · intro hv
    unfold ScatterDims.resultIdx?
    have hall : ∀ a, 0 ≤ (vecDims N E wf).start (ix1 e) idx a + ((vecDims N E wf).window (ix1 e) a : Nat)
        ∧ (vecDims N E wf).start (ix1 e) idx a + ((vecDims N E wf).window (ix1 e) a : Nat) < ((⟨1, ![N]⟩ : Shape).size a : Nat) := by
      intro a
      match a with
      | ⟨0, _⟩ =>
        have := v.isLt
        rw [show (⟨0, by omega⟩ : Fin 1) = 0 from rfl, start_vec, window_vec, hv]
        exact ⟨by omega, by show ((v.val : ℕ) : Int) + ((0 : ℕ) : Int) < ((N : ℕ) : Int); omega⟩
    rw [dif_pos hall]
    refine congrArg some ?_
    funext a
    refine Fin.ext ?_
    match a with
    | ⟨0, _⟩ =>
      show ((vecDims N E wf).start (ix1 e) idx 0 + ((vecDims N E wf).window (ix1 e) 0 : Nat)).toNat = v.val
      rw [start_vec, window_vec, hv]; omega

/-- THE VECTOR SCATTER AT AN INDEX. -/
theorem scatterAdd_vec_apply (x : FVec Ideal ⟨1, ![N]⟩ .f32) (idx : IVec ⟨2, ![E, 1]⟩ w)
    (u : FVec Ideal ⟨1, ![E]⟩ .f32) (v : Fin N) :
    Host.scatterAdd (F := Ideal) (vecDims N E wf) x idx u (ix1 v)
      = x (ix1 v) + ∑ e ∈ Finset.univ.filter (fun e : Fin E => (idx (ix2 e (0 : Fin 1))).toInt = ((v.val : ℕ) : Int)), u (ix1 e) := by
  show Ideal.hostScatterAdd (vecDims N E wf) x idx u (ix1 v) = _
  unfold Ideal.hostScatterAdd
  refine congrArg (x (ix1 v) + ·) ?_
  refine Finset.sum_bij' (fun jj _ => (⟨(jj 0).val, (jj 0).isLt⟩ : Fin E)) (fun e _ => ix1 e) ?_ ?_ ?_ ?_ ?_
  · intro jj hjj
    obtain ⟨e, rfl⟩ : ∃ (e : Fin E), jj = ix1 e := ⟨⟨(jj 0).val, (jj 0).isLt⟩, eq_ix1 jj⟩
    exact Finset.mem_filter.mpr ⟨Finset.mem_univ _, (vec_resultIdx_iff wf idx e v).mp (Finset.mem_filter.mp hjj).2⟩
  · intro e he
    exact Finset.mem_filter.mpr ⟨Finset.mem_univ _, (vec_resultIdx_iff wf idx e v).mpr (Finset.mem_filter.mp he).2⟩
  · intro jj hjj
    exact (eq_ix1 jj).symm
  · intro e he
    exact Fin.ext rfl
  · intro jj hjj
    exact congrArg u (eq_ix1 jj)

/-- The same for ANY record that is the vector scatter's. -/
theorem scatterAdd_vec_apply_of_eq (d : ScatterDims ⟨1, ![N]⟩ ⟨2, ![E, 1]⟩ ⟨1, ![E]⟩) (hd : d = vecDims N E wf)
    (x : FVec Ideal ⟨1, ![N]⟩ .f32) (idx : IVec ⟨2, ![E, 1]⟩ w) (u : FVec Ideal ⟨1, ![E]⟩ .f32) (v : Fin N) :
    Host.scatterAdd (F := Ideal) d x idx u (ix1 v)
      = x (ix1 v) + ∑ e ∈ Finset.univ.filter (fun e : Fin E => (idx (ix2 e (0 : Fin 1))).toInt = ((v.val : ℕ) : Int)), u (ix1 e) := by
  subst hd; exact scatterAdd_vec_apply wf x idx u v

end Vectors

end Cert.Lib.ScatterSum

end
-- ==== Proof.LibProjection.lean ====
/-
  One matrix of a stack multiplied into a row block, read at an entry, over the extended reals, at any extents.

  `slab_apply`: slab `r` of a stack `[R, b, c]`, cut out as `[1, b, c]` and viewed as the matrix `[b, c]`, reads at
  `(p, q)` the stack at `(r, p, q)`.
  `dotGeneral_plain_apply`: the host's plain product of `[M, K]` by `[K, N]` at `(p, e)` is the sum over the contracted
  coordinate `f` of the left operand at `(p, f)` times the right at `(f, e)` (it has no accumulator).
  `slabProduct_apply`: a row block `[M, K]` (viewed as itself) times a one-matrix block `[1, K, N]` viewed as `[K, N]`,
  into the zero accumulator, the product viewed as the one-slab block `[1, M, N]`: at `(u, p, e)` the sum over `f` of the
  row block at `(p, f)` times the matrix block at `(0, f, e)`.
-/
import Idealize.ShloMosaic.Lib.ValueIdx
import Idealize.ShloMosaic.Lib.ValueLayout
import Idealize.ShloMosaic.Lib.Pipeline.Value
import Idealize.ShloMosaic.PureOps.Ideal.Laws
import proofs.«168688_j12120397709448_2_alg».proof.Proof.LibMatmul

open scoped BigOperators

noncomputable section

namespace Cert.Lib.Projection

open Idealize.ShloMosaic Idealize.ShloMosaic.ValueIdx

/-- Slab `r` of a stack, cut out and viewed as a matrix, at `(p, q)`. -/
theorem slab_apply {α : Type} {R b c : ℕ} (off : Fin 3 → ℕ) (x : (⟨3, ![R, b, c]⟩ : Shape).Idx → α)
    (h : (⟨3, ![R, b, c]⟩ : Shape).Slices off ⟨3, ![1, b, c]⟩)
    (h' : (⟨3, ![1, b, c]⟩ : Shape).ShapeCasts ⟨2, ![b, c]⟩)
    (r : Fin R) (h0 : off 0 = r.val) (h1 : off 1 = 0) (h2 : off 2 = 0) (p : Fin b) (q : Fin c) :
    shapeCast ⟨2, ![b, c]⟩ (extractStridedSlice ⟨3, ![1, b, c]⟩ off x h) h' (ix2 p q) = x (ix3 r p q) :=
  (shapeCast_1ab_ab_apply _ h' p q).trans (extractStridedSlice_apply off x h _ _ (fun a => by
    match a with
    | ⟨0, _⟩ => show r.val = off 0 + 0; omega
    | ⟨1, _⟩ => show p.val = off 1 + p.val; omega
    | ⟨2, _⟩ => show q.val = off 2 + q.val; omega))

/-- The host's plain product at `(p, e)`. -/
theorem dotGeneral_plain_apply {M K N : ℕ} {φ₁ φ₂ : FTy} (prec : Option ContractPrecision)
    (L : FVec Ideal ⟨2, ![M, K]⟩ φ₁) (R : FVec Ideal ⟨2, ![K, N]⟩ φ₂) (p : Fin M) (e : Fin N) :
    Host.dotGeneral (F := Ideal) (DotDims.plain M K N) prec L R (ix2 p e) = ∑ f : Fin K, L (ix2 p f) * R (ix2 f e) :=
  (Ideal.dotGeneral_apply (DotDims.plain M K N) prec .single L R (ix2 p e)).trans (Cert.Lib.Matmul.plain_sum L R p e)

/-- A row block times one matrix block into zero, viewed as a one-slab block, at `(u, p, e)`. -/
theorem slabProduct_apply {M K N : ℕ} {φ₁ φ₂ : FTy} (prec : Option ContractPrecision)
    (v0 : FVec Ideal ⟨2, ![M, K]⟩ φ₁) (h0 : (⟨2, ![M, K]⟩ : Shape).ShapeCasts ⟨2, ![M, K]⟩)
    (v2 : FVec Ideal ⟨3, ![1, K, N]⟩ φ₂) (h2 : (⟨3, ![1, K, N]⟩ : Shape).ShapeCasts ⟨2, ![K, N]⟩)
    (h3 : (⟨2, ![M, N]⟩ : Shape).ShapeCasts ⟨3, ![1, M, N]⟩) (u : Fin 1) (p : Fin M) (e : Fin N) :
    shapeCast ⟨3, ![1, M, N]⟩ (matmul (F := Ideal) (DotDims.plain M K N) prec (shapeCast ⟨2, ![M, K]⟩ v0 h0)
        (shapeCast ⟨2, ![K, N]⟩ v2 h2) (constant ⟨2, ![M, N]⟩ .f32 0x00000000#32)) h3 (ix3 u p e)
      = ∑ f : Fin K, v0 (ix2 p f) * v2 (ix3 (0 : Fin 1) f e) := by
  refine (shapeCast_ab_1ab_apply _ h3 u p e).trans ?_
  refine (Cert.Lib.Matmul.matmul_plain_zero_apply prec _ _ p e).trans ?_
  refine Finset.sum_congr rfl fun f _ => ?_
  rw [shapeCast_self, shapeCast_1ab_ab_apply]

end Cert.Lib.Projection

end
-- ==== Proof.LibHostColumns.lean ====
/-
  Host operations around a row statistic of a matrix, read at an index given by coordinates, at any extents: a vector
  `[a]` given a trailing unit axis, the column `[a, 1]`; a column `[a, 1]` broadcast along its rows to `[a, b]`; and,
  over the extended reals, the host's sum of a matrix `[a, b]` along its second axis, read as the initial value plus the
  sum of one row. Each is the general read-at-an-index lemma of the value library with the index arithmetic done.
-/
import Idealize.ShloMosaic.Lib.Pipeline.Value
import Idealize.ShloMosaic.Lib.ValueIdx
import Idealize.ShloMosaic.PureOps.Ideal.Laws

open scoped BigOperators

namespace Cert.Lib.HostColumns

open Idealize.ShloMosaic Idealize.ShloMosaic.ValueIdx

variable {α : Type}

/-- An `[a]` array given a trailing unit axis reads, at `(i, u)`, the operand at `i`, whatever the unit coordinate. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` broadcast to `[a, b]` reads, at `(i, j)`, the column's entry of row `i`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- Over the extended reals, the host's sum of an `[a, b]` matrix along its second axis is, at row `r`, the initial
    value plus the sum of that row's `b` entries. -/
theorem hostReduceAdd_ab_a_apply {φ : FTy} {a b : ℕ} {u : Shape} (x : FVec Ideal ⟨2, ![a, b]⟩ φ)
    (init : FVec Ideal u φ) (h' : (⟨2, ![a, b]⟩ : Shape).ReducesTo [(1 : Fin 2)] ⟨1, ![a]⟩)
    (h : (⟨2, ![a, b]⟩ : Shape).Reduces [(1 : Fin 2)] ⟨1, ![a]⟩) (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => ?_)
  exact congrArg x (funext fun d => Fin.ext (by
    match d with | ⟨0, _⟩ => rfl | ⟨1, _⟩ => rfl))

end Cert.Lib.HostColumns
-- ==== Proof.LibRowBcast.lean ====
/-
  A vector broadcast to a matrix through a single row, read at an index given by coordinates, at any extents: a vector
  `[b]` given a leading unit axis, the row `[1, b]` (host broadcast_in_dim along axis 1); and a row `[1, b]` broadcast
  down the rows to `[a, b]` (host broadcast_in_dim along axes 0 and 1). Each is the general read-at-an-index lemma of the
  value library with the index arithmetic done.
-/
import Idealize.ShloMosaic.Lib.Pipeline.Value
import Idealize.ShloMosaic.Lib.ValueIdx

namespace Cert.Lib.RowBcast

open Idealize.ShloMosaic Idealize.ShloMosaic.ValueIdx

variable {α : Type}

/-- A `[b]` array given a leading unit axis reads, at `(u, k)`, the operand at `k`. -/
theorem broadcastInDim_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply _ h x (ix2 u k) (ix1 k) fun ax => ?_
  match ax with
  | ⟨0, _⟩ =>
    show k.val = if b = 1 then 0 else k.val
    split
    · have := k.isLt; omega
    · rfl

/-- A row `[1, b]` broadcast to `[a, b]` reads, at `(p, k)`, the row's entry `k`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (k : Fin b) :
    broadcastInDim ⟨2, ![a, b]⟩ ![0, 1] h x (ix2 p k) = x (ix2 (0 : Fin 1) k) := by
  refine broadcastInDim_apply _ h x (ix2 p k) (ix2 (0 : Fin 1) k) fun ax => ?_
  match ax with
  | ⟨0, _⟩ =>
    show (0 : ℕ) = if (1 : ℕ) = 1 then 0 else p.val
    rw [if_pos rfl]
  | ⟨1, _⟩ =>
    show k.val = if b = 1 then 0 else k.val
    split
    · have := k.isLt; omega
    · rfl

end Cert.Lib.RowBcast
-- ==== Proof.LibHostRows.lean ====
/-
  Host operations around a row statistic of a rank-3 array, read at an index given by coordinates, at any extents: a
  scalar broadcast to any shape; an array `[a, c]` given a unit middle axis, `[a, 1, c]`; an array `[a, 1, c]`
  broadcast along its unit middle axis to `[a, b, c]`; an array
  `[a, b]` given a trailing unit axis, `[a, b, 1]`; an array `[a, b, 1]` broadcast along its unit last axis to
  `[a, b, c]`; and, over the extended reals, the host's sum of an array `[a, b, c]` along its last axis, read as the
  initial value plus the sum of one row. Each is the general read-at-an-index lemma of the value library with the index
  arithmetic done.
-/
import Idealize.ShloMosaic.Lib.Pipeline.Value
import Idealize.ShloMosaic.Lib.ValueIdx
import Idealize.ShloMosaic.PureOps.Ideal.Laws

open scoped BigOperators

namespace Cert.Lib.HostRows

open Idealize.ShloMosaic Idealize.ShloMosaic.ValueIdx

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- An `[a, c]` array given a unit middle axis reads, at `(i, u, k)`, the operand at `(i, k)`. -/
theorem broadcastInDim_ac_a1c_apply {a c : ℕ} (x : (⟨2, ![a, c]⟩ : Shape).Idx → α)
    (h : (⟨2, ![a, c]⟩ : Shape).BroadcastsInDim ⟨3, ![a, 1, c]⟩ ![0, 2]) (i : Fin a) (u : Fin 1) (k : Fin c) :
    broadcastInDim ⟨3, ![a, 1, c]⟩ ![0, 2] h x (ix3 i u k) = x (ix2 i k) := by
  refine broadcastInDim_apply _ h x (ix3 i u k) (ix2 i k) fun ax => ?_
  match ax with
  | ⟨0, _⟩ =>
    show i.val = if a = 1 then 0 else i.val
    split
    · have := i.isLt; omega
    · rfl
  | ⟨1, _⟩ =>
    show k.val = if c = 1 then 0 else k.val
    split
    · have := k.isLt; omega
    · rfl

/-- An `[a, 1, c]` array broadcast to `[a, b, c]` reads, at `(i, j, k)`, the operand at `(i, 0, k)`. -/
theorem broadcastInDim_a1c_abc_apply {a b c : ℕ} (x : (⟨3, ![a, 1, c]⟩ : Shape).Idx → α)
    (h : (⟨3, ![a, 1, c]⟩ : Shape).BroadcastsInDim ⟨3, ![a, b, c]⟩ ![0, 1, 2]) (i : Fin a) (j : Fin b) (k : Fin c) :
    broadcastInDim ⟨3, ![a, b, c]⟩ ![0, 1, 2] h x (ix3 i j k) = x (ix3 i (0 : Fin 1) k) := by
  refine broadcastInDim_apply _ h x (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- An `[a, b]` array given a trailing unit axis reads, at `(i, j, u)`, the operand at `(i, j)`. -/
theorem broadcastInDim_ab_ab1_apply {a b : ℕ} (x : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h x (ix3 i j u) = x (ix2 i j) := by
  refine broadcastInDim_apply _ h x (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array broadcast to `[a, b, c]` reads, at `(i, j, k)`, the operand at `(i, j, 0)`. -/
theorem broadcastInDim_ab1_abc_apply {a b c : ℕ} (x : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- Over the extended reals, the host's sum of an `[a, b, c]` array along its last axis is, at `(p, r)`, the initial
    value plus the sum of the `c` entries of that row. -/
theorem hostReduceAdd_abc_ab_apply {φ : FTy} {a b c : ℕ} {u : Shape} (x : FVec Ideal ⟨3, ![a, b, c]⟩ φ)
    (init : FVec Ideal u φ) (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < u.numel) (p : Fin a) (r : Fin b) :
    Host.reduceAdd x init h' hu (ix2 p r) = init (Shape.Idx.first hu) + ∑ k : Fin c, x (ix3 p r k) := by
  simp only [Host.reduceAdd, Ideal.hostReduceAdd_def]
  rw [Ideal.hostReduceAdd_single h' h]
  refine congrArg (_ + ·) (Finset.sum_congr rfl fun k _ => ?_)
  exact congrArg x (funext fun d => Fin.ext (by
    match d with | ⟨0, _⟩ => rfl | ⟨1, _⟩ => rfl | ⟨2, _⟩ => rfl))

end Cert.Lib.HostRows
-- ==== Proof.LibMessageLayer.lean ====
/-
  One message-passing layer on the host, read entry by entry, at any extents: `N` nodes, `E` edges, `Din` input and `Dout`
  output features.

  Along edge `e` the message is the leaky rectifier of a linear image of the source node's row (the source is the edge's
  start index, read signed and clamped into the node range) scaled by the edge weight `w e`, plus the bias.  One program
  scales the gathered row first and then applies the linear map, `∑ d, (x (src e, d) * w e) * W (j, d)`; the other applies the
  linear map to every node once, gathers the image's row and scales it, `w e * ∑ d, x (src e, d) * W (j, d)`.  On real
  entries these are equal (`msg_eq`).  The messages are then added into their target rows (a scatter with an add body, the
  same on both sides), the row sums are divided by the clamped degree count — or multiplied by its reciprocal — and the
  node's own rectified linear image is added (`node_eq`).  Every step keeps real entries real (`msg_isReal`,
  `scatter_isReal`, `node_isReal`), which is what the next layer needs of this one's output.
-/
import proofs.«168688_j12120397709448_2_alg».proof.Proof.LibNodeLinear
import proofs.«168688_j12120397709448_2_alg».proof.Proof.LibLayerAlgebra
import proofs.«168688_j12120397709448_2_alg».proof.Proof.LibGatherRows
import proofs.«168688_j12120397709448_2_alg».proof.Proof.LibScatterSum
import proofs.«168688_j12120397709448_2_alg».proof.Proof.LibProjection
import proofs.«168688_j12120397709448_2_alg».proof.Proof.LibHostColumns
import proofs.«168688_j12120397709448_2_alg».proof.Proof.LibRowBcast
import proofs.«168688_j12120397709448_2_alg».proof.Proof.LibHostRows
import Idealize.ShloMosaic.Lib.ValueIdx
import Idealize.ShloMosaic.Lib.ValueLayout
import Idealize.ShloMosaic.Lib.Pipeline.Value

noncomputable section

namespace Cert.GNN.Layer

open Idealize.ShloMosaic Idealize.ShloMosaic.ValueIdx Cert.Lib.RealEntries Cert.GNN
open Cert.Lib.HostColumns Cert.Lib.RowBcast Cert.Lib.HostRows Cert.Lib.GatherRows Cert.Lib.Projection

/-- The leaky rectifier as the host spells it on a whole array: compare with a splat zero, scale by a splat slope, select. -/
def hostLrelu {s : Shape} (hb : (⟨0, ![]⟩ : Shape).BroadcastsInDim s (![] : Fin 0 → Fin s.rank)) (v : FVec Ideal s .f32) :
    FVec Ideal s .f32 :=
  select (cmpf .oge v (broadcastInDim s ![] hb (constant (F := Ideal) ⟨0, ![]⟩ .f32 0x00000000#32))) v
    (mulf (broadcastInDim s ![] hb (id (constant (F := Ideal) ⟨0, ![]⟩ .f32 0x3C23D70A#32))) v)

theorem hostLrelu_apply {s : Shape} (hb : (⟨0, ![]⟩ : Shape).BroadcastsInDim s (![] : Fin 0 → Fin s.rank))
    (v : FVec Ideal s .f32) (i : s.Idx) : hostLrelu hb v i = lrelu (v i) := by
  unfold hostLrelu lrelu
  rw [select_apply, cmpf_apply, mulf_apply, broadcastInDim_scalar_apply, broadcastInDim_scalar_apply]
  rfl

variable {N E Din Dout : ℕ}

section Messages

variable
  (gK : GatherDims.WF ⟨2, ![N, Dout]⟩ ⟨2, ![E, 1]⟩ ⟨2, ![E, Dout]⟩ [1] [0] [] [0] [] 1 ![1, Dout])
  (gR : GatherDims.WF ⟨2, ![N, Din]⟩ ⟨2, ![E, 1]⟩ ⟨2, ![E, Din]⟩ [1] [0] [] [0] [] 1 ![1, Din])
  (hE1 : (⟨1, ![E]⟩ : Shape).BroadcastsInDim ⟨2, ![E, 1]⟩ ![0])
  (hEK : (⟨2, ![E, 1]⟩ : Shape).BroadcastsInDim ⟨2, ![E, Dout]⟩ ![0, 1])
  (hER : (⟨2, ![E, 1]⟩ : Shape).BroadcastsInDim ⟨2, ![E, Din]⟩ ![0, 1])
  (hT : (⟨2, ![Dout, Din]⟩ : Shape).Transposes [1, 0] ⟨2, ![Din, Dout]⟩)
  (x : FVec Ideal ⟨2, ![N, Din]⟩ .f32) (W : FVec Ideal ⟨2, ![Dout, Din]⟩ .f32) (w : FVec Ideal ⟨1, ![E]⟩ .f32)
  (col : IVec ⟨2, ![E, 1]⟩ 32)

/-- The scaled-then-mapped message argument at `(e, j)`. -/
theorem mapped_apply (hN : 0 < N) (e : Fin E) (j : Fin Dout) :
    Host.dotGeneral (F := Ideal) (DotDims.plain E Din Dout) none
        (mulf (Host.gather (rowsDims N E Din gR) x col)
          (broadcastInDim ⟨2, ![E, Din]⟩ ![0, 1] hER (broadcastInDim ⟨2, ![E, 1]⟩ ![0] hE1 w)))
        (transpose ⟨2, ![Din, Dout]⟩ [1, 0] W hT) (ix2 e j)
      = ∑ d : Fin Din, (x (ix2 (srcRow hN col e) d) * w (ix1 e)) * W (ix2 j d) := by
  rw [dotGeneral_plain_apply]
  refine Finset.sum_congr rfl fun d _ => ?_
  rw [mulf_apply, gather_rows_apply hN, broadcastInDim_a1_ab_apply, broadcastInDim_a_a1_apply, transpose_ix2_apply]

/-- On real entries, scaling the mapped row is mapping the scaled row. -/
theorem msg_eq (hN : 0 < N) (hx : ∀ i, IsReal (x i)) (hW : ∀ i, IsReal (W i)) (hw : ∀ i, IsReal (w i)) :
    mulf (broadcastInDim ⟨2, ![E, Dout]⟩ ![0, 1] hEK (broadcastInDim ⟨2, ![E, 1]⟩ ![0] hE1 w))
        (Host.gather (rowsDims N E Dout gK) (zfun x W) col)
      = Host.dotGeneral (F := Ideal) (DotDims.plain E Din Dout) none
          (mulf (Host.gather (rowsDims N E Din gR) x col)
            (broadcastInDim ⟨2, ![E, Din]⟩ ![0, 1] hER (broadcastInDim ⟨2, ![E, 1]⟩ ![0] hE1 w)))
          (transpose ⟨2, ![Din, Dout]⟩ [1, 0] W hT) := by
  funext i
  obtain ⟨e, j, rfl⟩ : ∃ (e : Fin E) (j : Fin Dout), i = ix2 e j :=
    ⟨⟨(i 0).val, idx2_lt0 i⟩, ⟨(i 1).val, idx2_lt1 i⟩, eq_ix2 i⟩
  rw [mapped_apply gR hE1 hER hT x W w col hN e j, mulf_apply, broadcastInDim_a1_ab_apply, broadcastInDim_a_a1_apply,
    gather_rows_apply hN, zfun_apply]
  exact scale_sum _ _ _ (hw _) (fun d => hx _) (fun d => hW _)

/-- The messages of real inputs are real. -/
theorem msg_isReal (hN : 0 < N) (hbE : (⟨0, ![]⟩ : Shape).BroadcastsInDim ⟨2, ![E, Dout]⟩ (![] : Fin 0 → Fin 2))
    (h1D : (⟨1, ![Dout]⟩ : Shape).BroadcastsInDim ⟨2, ![1, Dout]⟩ ![1])
    (h1E : (⟨2, ![1, Dout]⟩ : Shape).BroadcastsInDim ⟨2, ![E, Dout]⟩ ![0, 1])
    (b : FVec Ideal ⟨1, ![Dout]⟩ .f32)
    (hx : ∀ i, IsReal (x i)) (hW : ∀ i, IsReal (W i)) (hw : ∀ i, IsReal (w i)) (hb : ∀ i, IsReal (b i)) (i) :
    IsReal (hostLrelu hbE (addf (Host.dotGeneral (F := Ideal) (DotDims.plain E Din Dout) none
          (mulf (Host.gather (rowsDims N E Din gR) x col)
            (broadcastInDim ⟨2, ![E, Din]⟩ ![0, 1] hER (broadcastInDim ⟨2, ![E, 1]⟩ ![0] hE1 w)))
          (transpose ⟨2, ![Din, Dout]⟩ [1, 0] W hT))
        (broadcastInDim ⟨2, ![E, Dout]⟩ ![0, 1] h1E (broadcastInDim ⟨2, ![1, Dout]⟩ ![1] h1D b))) i) := by
  obtain ⟨e, j, rfl⟩ : ∃ (e : Fin E) (j : Fin Dout), i = ix2 e j :=
    ⟨⟨(i 0).val, idx2_lt0 i⟩, ⟨(i 1).val, idx2_lt1 i⟩, eq_ix2 i⟩
  rw [hostLrelu_apply, addf_apply, mapped_apply gR hE1 hER hT x W w col hN e j, broadcastInDim_1b_ab_apply,
    broadcastInDim_b_1b_apply]
  exact lrelu_isReal ((IsReal.sum _ _ fun d => ((hx _).mul (hw _)).mul (hW _)).add (hb _))

end Messages

/-- Adding real updates into a real array leaves real entries. -/
theorem scatter_isReal {C w : ℕ} (sw : ScatterDims.WF ⟨2, ![N, C]⟩ ⟨2, ![E, 1]⟩ ⟨2, ![E, C]⟩ [1] [0] [0] 1)
    (z : FVec Ideal ⟨2, ![N, C]⟩ .f32) (row : IVec ⟨2, ![E, 1]⟩ w) (u : FVec Ideal ⟨2, ![E, C]⟩ .f32)
    (hz : ∀ i, IsReal (z i)) (hu : ∀ i, IsReal (u i)) (i) :
    IsReal (Host.scatterAdd (F := Ideal) (Cert.Lib.ScatterRows.rowsDims N E C sw) z row u i) := by
  obtain ⟨v, j, rfl⟩ : ∃ (v : Fin N) (j : Fin C), i = ix2 v j :=
    ⟨⟨(i 0).val, idx2_lt0 i⟩, ⟨(i 1).val, idx2_lt1 i⟩, eq_ix2 i⟩
  rw [Cert.Lib.ScatterSum.scatterAdd_rows_apply sw z row u v j]
  exact (hz _).add (IsReal.sum _ _ fun e => hu _)

section Nodes

variable (hN1 : (⟨2, ![N, 1]⟩ : Shape).BroadcastsInDim ⟨2, ![N, Dout]⟩ ![0, 1])
  (hbN : (⟨0, ![]⟩ : Shape).BroadcastsInDim ⟨2, ![N, Dout]⟩ (![] : Fin 0 → Fin 2))
  (h1D : (⟨1, ![Dout]⟩ : Shape).BroadcastsInDim ⟨2, ![1, Dout]⟩ ![1])
  (h1N : (⟨2, ![1, Dout]⟩ : Shape).BroadcastsInDim ⟨2, ![N, Dout]⟩ ![0, 1])
  (hT : (⟨2, ![Dout, Din]⟩ : Shape).Transposes [1, 0] ⟨2, ![Din, Dout]⟩)
  (x : FVec Ideal ⟨2, ![N, Din]⟩ .f32) (W : FVec Ideal ⟨2, ![Dout, Din]⟩ .f32) (b : FVec Ideal ⟨1, ![Dout]⟩ .f32)
  (S : FVec Ideal ⟨2, ![N, Dout]⟩ .f32) (one1 cnt0 : FVec Ideal ⟨2, ![N, 1]⟩ .f32)

/-- The node's own branch on the host at `(n, j)`. -/
theorem own_apply (n : Fin N) (j : Fin Dout) :
    hostLrelu hbN (addf (Host.dotGeneral (F := Ideal) (DotDims.plain N Din Dout) none x (transpose ⟨2, ![Din, Dout]⟩ [1, 0] W hT))
        (broadcastInDim ⟨2, ![N, Dout]⟩ ![0, 1] h1N (broadcastInDim ⟨2, ![1, Dout]⟩ ![1] h1D b))) (ix2 n j)
      = lrelu ((∑ d : Fin Din, x (ix2 n d) * W (ix2 j d)) + b (ix1 j)) := by
  rw [hostLrelu_apply, addf_apply, dotGeneral_plain_apply, broadcastInDim_1b_ab_apply, broadcastInDim_b_1b_apply]
  refine congrArg (fun s => lrelu (s + b (ix1 j))) ?_
  exact Finset.sum_congr rfl fun d _ => by rw [transpose_ix2_apply]

/-- Row sums times the reciprocal of the clamped count plus the node's branch, against row sums over the clamped count plus
    the host's spelling of that branch: equal on all extended reals. -/
theorem node_eq (hone : ∀ i, one1 i = Ideal.ofBits .f32 0x3F800000#32) :
    addf (mulf S (broadcastInDim ⟨2, ![N, Dout]⟩ ![0, 1] hN1 (Host.divf one1 (maximumf cnt0 one1)))) (resfun x W b)
      = addf (Host.divf S (broadcastInDim ⟨2, ![N, Dout]⟩ ![0, 1] hN1 (maximumf cnt0 one1)))
          (hostLrelu hbN (addf (Host.dotGeneral (F := Ideal) (DotDims.plain N Din Dout) none x
              (transpose ⟨2, ![Din, Dout]⟩ [1, 0] W hT))
            (broadcastInDim ⟨2, ![N, Dout]⟩ ![0, 1] h1N (broadcastInDim ⟨2, ![1, Dout]⟩ ![1] h1D b)))) := by
  funext i
  obtain ⟨n, j, rfl⟩ : ∃ (n : Fin N) (j : Fin Dout), i = ix2 n j :=
    ⟨⟨(i 0).val, idx2_lt0 i⟩, ⟨(i 1).val, idx2_lt1 i⟩, eq_ix2 i⟩
  rw [addf_apply, addf_apply, mulf_apply, own_apply hbN h1D h1N hT x W b n j, resfun_apply,
    broadcastInDim_a1_ab_apply]
  refine congrArg (· + lrelu ((∑ d : Fin Din, x (ix2 n d) * W (ix2 j d)) + b (ix1 j))) ?_
  show S (ix2 n j) * Ideal.div (one1 (ix2 n 0)) (max (cnt0 (ix2 n 0)) (one1 (ix2 n 0)))
    = Ideal.div (S (ix2 n j)) (broadcastInDim ⟨2, ![N, Dout]⟩ ![0, 1] hN1 (maximumf cnt0 one1) (ix2 n j))
  rw [broadcastInDim_a1_ab_apply, maximumf_apply, hone]
  exact mean_eq _ _

/-- The layer's output (in the dividing form) is real when the row sums, the count and the inputs are. -/
theorem node_isReal (hone : ∀ i, one1 i = Ideal.ofBits .f32 0x3F800000#32)
    (hS : ∀ i, IsReal (S i)) (hc : ∀ i, IsReal (cnt0 i)) (hx : ∀ i, IsReal (x i)) (hW : ∀ i, IsReal (W i))
    (hb : ∀ i, IsReal (b i)) (i) :
    IsReal (addf (Host.divf S (broadcastInDim ⟨2, ![N, Dout]⟩ ![0, 1] hN1 (maximumf cnt0 one1)))
          (hostLrelu hbN (addf (Host.dotGeneral (F := Ideal) (DotDims.plain N Din Dout) none x
              (transpose ⟨2, ![Din, Dout]⟩ [1, 0] W hT))
            (broadcastInDim ⟨2, ![N, Dout]⟩ ![0, 1] h1N (broadcastInDim ⟨2, ![1, Dout]⟩ ![1] h1D b)))) i) := by
  obtain ⟨n, j, rfl⟩ : ∃ (n : Fin N) (j : Fin Dout), i = ix2 n j :=
    ⟨⟨(i 0).val, idx2_lt0 i⟩, ⟨(i 1).val, idx2_lt1 i⟩, eq_ix2 i⟩
  rw [addf_apply, own_apply hbN h1D h1N hT x W b n j]
  refine IsReal.add ?_ (lrelu_isReal ((sum_mul_isReal _ _ (fun d => hx _) (fun d => hW _)).add (hb _)))
  show IsReal (Ideal.div (S (ix2 n j)) (broadcastInDim ⟨2, ![N, Dout]⟩ ![0, 1] hN1 (maximumf cnt0 one1) (ix2 n j)))
  rw [broadcastInDim_a1_ab_apply, maximumf_apply, hone]
  exact mean_isReal (hS _) (hc _)

end Nodes

end Cert.GNN.Layer

end
-- ==== Proof.LibMessageLayerTerms.lean ====
/-
  One message-passing layer as two whole-array terms of host operations, at any extents, and their equality.

  `kerLayer` is the form that maps every node first: from the node-side product `z` and the node's own rectified branch
  `res`, gather `z`'s row of each edge's source, scale it by the edge weight, add the bias, rectify, add the messages into their
  target rows, multiply each row by the reciprocal of its clamped count and add `res`.  `refLayer` is the form that scales
  the gathered input row first and maps it edge by edge, divides the row sums by the clamped count and adds the host's
  spelling of the node's own branch.  With `z = x · Wᵀ` and `res` its rectified, biased image they are one array when the
  inputs are real (`layer_eq`), and that array's entries are real (`refLayer_isReal`).
-/
import proofs.«168688_j12120397709448_2_alg».proof.Proof.LibMessageLayer

noncomputable section

namespace Cert.GNN.Layer

open Idealize.ShloMosaic Idealize.ShloMosaic.ValueIdx Cert.Lib.RealEntries Cert.GNN
open Cert.Lib.HostRows

/-- The shape relations one layer's host operations cite, at extents `N E Din Dout`. -/
structure Facts (N E Din Dout : ℕ) : Prop where
  hN : 0 < N
  gK : GatherDims.WF ⟨2, ![N, Dout]⟩ ⟨2, ![E, 1]⟩ ⟨2, ![E, Dout]⟩ [1] [0] [] [0] [] 1 ![1, Dout]
  gR : GatherDims.WF ⟨2, ![N, Din]⟩ ⟨2, ![E, 1]⟩ ⟨2, ![E, Din]⟩ [1] [0] [] [0] [] 1 ![1, Din]
  hE1 : (⟨1, ![E]⟩ : Shape).BroadcastsInDim ⟨2, ![E, 1]⟩ ![0]
  hEK : (⟨2, ![E, 1]⟩ : Shape).BroadcastsInDim ⟨2, ![E, Dout]⟩ ![0, 1]
  hER : (⟨2, ![E, 1]⟩ : Shape).BroadcastsInDim ⟨2, ![E, Din]⟩ ![0, 1]
  hT : (⟨2, ![Dout, Din]⟩ : Shape).Transposes [1, 0] ⟨2, ![Din, Dout]⟩
  hbE : (⟨0, ![]⟩ : Shape).BroadcastsInDim ⟨2, ![E, Dout]⟩ (![] : Fin 0 → Fin 2)
  h1D : (⟨1, ![Dout]⟩ : Shape).BroadcastsInDim ⟨2, ![1, Dout]⟩ ![1]
  h1E : (⟨2, ![1, Dout]⟩ : Shape).BroadcastsInDim ⟨2, ![E, Dout]⟩ ![0, 1]
  sw : ScatterDims.WF ⟨2, ![N, Dout]⟩ ⟨2, ![E, 1]⟩ ⟨2, ![E, Dout]⟩ [1] [0] [0] 1
  sw1 : ScatterDims.WF ⟨2, ![N, 1]⟩ ⟨2, ![E, 1]⟩ ⟨2, ![E, 1]⟩ [1] [0] [0] 1
  hbN : (⟨0, ![]⟩ : Shape).BroadcastsInDim ⟨2, ![N, Dout]⟩ (![] : Fin 0 → Fin 2)
  hbN1 : (⟨0, ![]⟩ : Shape).BroadcastsInDim ⟨2, ![N, 1]⟩ (![] : Fin 0 → Fin 2)
  hbE1 : (⟨0, ![]⟩ : Shape).BroadcastsInDim ⟨2, ![E, 1]⟩ (![] : Fin 0 → Fin 2)
  hN1 : (⟨2, ![N, 1]⟩ : Shape).BroadcastsInDim ⟨2, ![N, Dout]⟩ ![0, 1]
  h1N : (⟨2, ![1, Dout]⟩ : Shape).BroadcastsInDim ⟨2, ![N, Dout]⟩ ![0, 1]

variable {N E Din Dout : ℕ} (F : Facts N E Din Dout)

/-- A splat of a single-precision literal. -/
abbrev splat {s : Shape} (hb : (⟨0, ![]⟩ : Shape).BroadcastsInDim s (![] : Fin 0 → Fin s.rank)) (bits : BitVec 32) :
    FVec Ideal s .f32 :=
  broadcastInDim s ![] hb (constant (F := Ideal) ⟨0, ![]⟩ .f32 bits)

theorem splat_apply {s : Shape} (hb : (⟨0, ![]⟩ : Shape).BroadcastsInDim s (![] : Fin 0 → Fin s.rank)) (bits : BitVec 32)
    (i : s.Idx) : splat hb bits i = Ideal.ofBits .f32 bits := by
  unfold splat; rw [broadcastInDim_scalar_apply]; rfl

/-- The in-degree count of every node: ones added at the target rows over zeros. -/
def count (row : IVec ⟨2, ![E, 1]⟩ 32) : FVec Ideal ⟨2, ![N, 1]⟩ .f32 :=
  Host.scatterAdd (F := Ideal) (Cert.Lib.ScatterRows.rowsDims N E 1 F.sw1) (splat F.hbN1 0x00000000#32) row
    (splat F.hbE1 0x3F800000#32)

/-- The bias along the rows of an `[a, Dout]` array. -/
abbrev biasE (b : FVec Ideal ⟨1, ![Dout]⟩ .f32) : FVec Ideal ⟨2, ![E, Dout]⟩ .f32 :=
  broadcastInDim ⟨2, ![E, Dout]⟩ ![0, 1] F.h1E (broadcastInDim ⟨2, ![1, Dout]⟩ ![1] F.h1D b)

/-- The layer, mapping the nodes first. -/
def kerLayer (w : FVec Ideal ⟨1, ![E]⟩ .f32) (b : FVec Ideal ⟨1, ![Dout]⟩ .f32) (row col : IVec ⟨2, ![E, 1]⟩ 32)
    (z res : FVec Ideal ⟨2, ![N, Dout]⟩ .f32) : FVec Ideal ⟨2, ![N, Dout]⟩ .f32 :=
  addf
    (mulf
      (Host.scatterAdd (F := Ideal) (Cert.Lib.ScatterRows.rowsDims N E Dout F.sw) (splat F.hbN 0x00000000#32) row
        (hostLrelu F.hbE
          (addf
            (mulf (broadcastInDim ⟨2, ![E, Dout]⟩ ![0, 1] F.hEK (broadcastInDim ⟨2, ![E, 1]⟩ ![0] F.hE1 w))
              (Host.gather (Cert.Lib.GatherRows.rowsDims N E Dout F.gK) z col))
            (biasE F b))))
      (broadcastInDim ⟨2, ![N, Dout]⟩ ![0, 1] F.hN1
        (Host.divf (splat F.hbN1 0x3F800000#32) (maximumf (count F row) (splat F.hbN1 0x3F800000#32)))))
    res

/-- The messages of the form that scales the gathered row first. -/
def refMsg (x : FVec Ideal ⟨2, ![N, Din]⟩ .f32) (W : FVec Ideal ⟨2, ![Dout, Din]⟩ .f32) (w : FVec Ideal ⟨1, ![E]⟩ .f32)
    (b : FVec Ideal ⟨1, ![Dout]⟩ .f32) (col : IVec ⟨2, ![E, 1]⟩ 32) : FVec Ideal ⟨2, ![E, Dout]⟩ .f32 :=
  hostLrelu F.hbE
    (addf
      (Host.dotGeneral (F := Ideal) (DotDims.plain E Din Dout) none
        (mulf (Host.gather (Cert.Lib.GatherRows.rowsDims N E Din F.gR) x col)
          (broadcastInDim ⟨2, ![E, Din]⟩ ![0, 1] F.hER (broadcastInDim ⟨2, ![E, 1]⟩ ![0] F.hE1 w)))
        (transpose ⟨2, ![Din, Dout]⟩ [1, 0] W F.hT))
      (biasE F b))

/-- The layer, mapping edge by edge. -/
def refLayer (x : FVec Ideal ⟨2, ![N, Din]⟩ .f32) (W : FVec Ideal ⟨2, ![Dout, Din]⟩ .f32) (w : FVec Ideal ⟨1, ![E]⟩ .f32)
    (b : FVec Ideal ⟨1, ![Dout]⟩ .f32) (row col : IVec ⟨2, ![E, 1]⟩ 32) : FVec Ideal ⟨2, ![N, Dout]⟩ .f32 :=
  addf
    (Host.divf
      (Host.scatterAdd (F := Ideal) (Cert.Lib.ScatterRows.rowsDims N E Dout F.sw) (splat F.hbN 0x00000000#32) row
        (refMsg F x W w b col))
      (broadcastInDim ⟨2, ![N, Dout]⟩ ![0, 1] F.hN1 (maximumf (count F row) (splat F.hbN1 0x3F800000#32))))
    (hostLrelu F.hbN
      (addf (Host.dotGeneral (F := Ideal) (DotDims.plain N Din Dout) none x (transpose ⟨2, ![Din, Dout]⟩ [1, 0] W F.hT))
        (broadcastInDim ⟨2, ![N, Dout]⟩ ![0, 1] F.h1N (broadcastInDim ⟨2, ![1, Dout]⟩ ![1] F.h1D b))))

/-- On real inputs the two forms of the layer are one array. -/
theorem layer_eq (x : FVec Ideal ⟨2, ![N, Din]⟩ .f32) (W : FVec Ideal ⟨2, ![Dout, Din]⟩ .f32)
    (w : FVec Ideal ⟨1, ![E]⟩ .f32) (b : FVec Ideal ⟨1, ![Dout]⟩ .f32) (row col : IVec ⟨2, ![E, 1]⟩ 32)
    (hx : ∀ i, IsReal (x i)) (hW : ∀ i, IsReal (W i)) (hw : ∀ i, IsReal (w i)) :
    kerLayer F w b row col (zfun x W) (resfun x W b) = refLayer F x W w b row col := by
  unfold kerLayer refLayer refMsg
  rw [msg_eq F.gK F.gR F.hE1 F.hEK F.hER F.hT x W w col F.hN hx hW hw]
  exact node_eq F.hN1 F.hbN F.h1D F.h1N F.hT x W b _ _ _ (fun i => splat_apply F.hbN1 _ i)

/-- The count's entries are real. -/
theorem count_isReal (row : IVec ⟨2, ![E, 1]⟩ 32) (i) : IsReal (count F row i) := by
  unfold count
  refine scatter_isReal F.sw1 _ row _ (fun i => ?_) (fun i => ?_) i
  · rw [splat_apply, Ideal.ofBits_zero_f32]; exact isReal_zero
  · rw [splat_apply, one_f32]; exact ⟨1, rfl⟩

/-- On real inputs the layer's entries are real. -/
theorem refLayer_isReal (x : FVec Ideal ⟨2, ![N, Din]⟩ .f32) (W : FVec Ideal ⟨2, ![Dout, Din]⟩ .f32)
    (w : FVec Ideal ⟨1, ![E]⟩ .f32) (b : FVec Ideal ⟨1, ![Dout]⟩ .f32) (row col : IVec ⟨2, ![E, 1]⟩ 32)
    (hx : ∀ i, IsReal (x i)) (hW : ∀ i, IsReal (W i)) (hw : ∀ i, IsReal (w i)) (hb : ∀ i, IsReal (b i)) (i) :
    IsReal (refLayer F x W w b row col i) := by
  unfold refLayer
  refine node_isReal F.hN1 F.hbN F.h1D F.h1N F.hT x W b _ _ _ (fun i => splat_apply F.hbN1 _ i) (fun i => ?_)
    (count_isReal F row) hx hW hb i
  refine scatter_isReal F.sw _ row _ (fun i => ?_) (fun i => ?_) i
  · rw [splat_apply, Ideal.ofBits_zero_f32]; exact isReal_zero
  · unfold refMsg
    exact msg_isReal F.gR F.hE1 F.hER F.hT x W w col F.hN F.hbE F.h1D F.h1E b hx hW hw hb i

end Cert.GNN.Layer

end
-- ==== Proof.Bridge.lean ====
/-
  The two programs' host sides joined: each layer of the program that maps the nodes first equals the same layer of the
  program that maps edge by edge, when the first is fed the node-side products `x · Wᵀ` and their rectified, biased images.

  Both programs read the same index columns off the edge list (row 0 the targets, row 1 the sources), count the same in-degrees
  and end with the same tail (mean over the nodes, a linear map, a logarithmic soft-max), so these are equal by unfolding.  In
  between, layer 1 is the general layer at extents 50000 × 1600000 × 20 × 32 and layer 2 at 50000 × 1600000 × 32 × 64; the
  second needs the first's output to be real, which the general layer also gives.
-/
import proofs.«168688_j12120397709448_2_alg».proof.Proof.KerTerm
import proofs.«168688_j12120397709448_2_alg».proof.Proof.RefTerm
import proofs.«168688_j12120397709448_2_alg».proof.Proof.LibMessageLayerTerms

noncomputable section

namespace Cert.GNN.Bridge

open Idealize.ShloMosaic Cert.Lib.RealEntries Cert.GNN Cert.GNN.Layer

/-- The first layer's shape relations: 50000 nodes, 1600000 edges, 20 features in, 32 out. -/
theorem F1 : Facts 50000 1600000 20 32 where
  hN := by norm_num
  gK := Cert.KernelIdeal.Facts₀.gather_S50000x32_S1600000x1_S1600000x32_1_0_n_n_0_1_132_wf
  gR := Cert.ReferenceIdeal.Facts₀.gather_S50000x20_S1600000x1_S1600000x20_1_0_n_n_0_1_120_wf
  hE1 := Cert.ReferenceIdeal.Facts₀.bcast_S1600000_S1600000x1_0
  hEK := Cert.ReferenceIdeal.Facts₀.bcast_S1600000x1_S1600000x32_0_1
  hER := Cert.ReferenceIdeal.Facts₀.bcast_S1600000x1_S1600000x20_0_1
  hT := Cert.ReferenceIdeal.Facts₀.transposes_S32x20_S20x32_1_0
  hbE := Cert.ReferenceIdeal.Facts₀.bcast_S_S1600000x32
  h1D := Cert.ReferenceIdeal.Facts₀.bcast_S32_S1x32_1
  h1E := Cert.ReferenceIdeal.Facts₀.bcast_S1x32_S1600000x32_0_1
  sw := Cert.ReferenceIdeal.Facts₀.scatter_S50000x32_S1600000x1_S1600000x32_1_0_0_1_wf
  sw1 := Cert.ReferenceIdeal.Facts₀.scatter_S50000x1_S1600000x1_S1600000x1_1_0_0_1_wf
  hbN := Cert.ReferenceIdeal.Facts₀.bcast_S_S50000x32
  hbN1 := Cert.ReferenceIdeal.Facts₀.bcast_S_S50000x1
  hbE1 := Cert.ReferenceIdeal.Facts₀.bcast_S_S1600000x1
  hN1 := Cert.ReferenceIdeal.Facts₀.bcast_S50000x1_S50000x32_0_1
  h1N := Cert.ReferenceIdeal.Facts₀.bcast_S1x32_S50000x32_0_1

/-- The second layer's shape relations: 32 features in, 64 out. -/
theorem F2 : Facts 50000 1600000 32 64 where
  hN := by norm_num
  gK := Cert.KernelIdeal.Facts₀.gather_S50000x64_S1600000x1_S1600000x64_1_0_n_n_0_1_164_wf
  gR := Cert.ReferenceIdeal.Facts₀.gather_S50000x32_S1600000x1_S1600000x32_1_0_n_n_0_1_132_wf
  hE1 := Cert.ReferenceIdeal.Facts₀.bcast_S1600000_S1600000x1_0
  hEK := Cert.KernelIdeal.Facts₀.bcast_S1600000x1_S1600000x64_0_1
  hER := Cert.ReferenceIdeal.Facts₀.bcast_S1600000x1_S1600000x32_0_1
  hT := Cert.ReferenceIdeal.Facts₀.transposes_S64x32_S32x64_1_0
  hbE := Cert.ReferenceIdeal.Facts₀.bcast_S_S1600000x64
  h1D := Cert.ReferenceIdeal.Facts₀.bcast_S64_S1x64_1
  h1E := Cert.ReferenceIdeal.Facts₀.bcast_S1x64_S1600000x64_0_1
  sw := Cert.ReferenceIdeal.Facts₀.scatter_S50000x64_S1600000x1_S1600000x64_1_0_0_1_wf
  sw1 := Cert.ReferenceIdeal.Facts₀.scatter_S50000x1_S1600000x1_S1600000x1_1_0_0_1_wf
  hbN := Cert.ReferenceIdeal.Facts₀.bcast_S_S50000x64
  hbN1 := Cert.ReferenceIdeal.Facts₀.bcast_S_S50000x1
  hbE1 := Cert.ReferenceIdeal.Facts₀.bcast_S_S1600000x1
  hN1 := Cert.ReferenceIdeal.Facts₀.bcast_S50000x1_S50000x64_0_1
  h1N := Cert.ReferenceIdeal.Facts₀.bcast_S1x64_S50000x64_0_1

open Cert.KernelIdeal (KerSide.out1 KerSide.out2 KerSide.tail KerSide.rowIdx KerSide.colIdx)
open Cert.ReferenceIdeal (RefSide.out1 RefSide.out2 RefSide.tail RefSide.rowIdx RefSide.colIdx RefSide.result)

variable (edge : IVec ⟨2, ![2, 1600000]⟩ 32) (w : FVec Ideal ⟨1, ![1600000]⟩ .f32)

/-- Both programs read the same target column off the edge list. -/
theorem row_eq : Cert.KernelIdeal.KerSide.rowIdx edge = Cert.ReferenceIdeal.RefSide.rowIdx edge := rfl

/-- Both programs read the same source column off the edge list. -/
theorem col_eq : Cert.KernelIdeal.KerSide.colIdx edge = Cert.ReferenceIdeal.RefSide.colIdx edge := rfl

/-- The first program's layer 1 is the general node-first layer. -/
theorem ker1 (b1 : FVec Ideal ⟨1, ![32]⟩ .f32) (z1 res1 : FVec Ideal ⟨2, ![50000, 32]⟩ .f32) :
    Cert.KernelIdeal.KerSide.out1 edge w b1 z1 res1
      = kerLayer F1 w b1 (Cert.ReferenceIdeal.RefSide.rowIdx edge) (Cert.ReferenceIdeal.RefSide.colIdx edge) z1 res1 := rfl

/-- The second program's layer 1 is the general edge-by-edge layer. -/
theorem ref1 (x : FVec Ideal ⟨2, ![50000, 20]⟩ .f32) (W1 : FVec Ideal ⟨2, ![32, 20]⟩ .f32) (b1 : FVec Ideal ⟨1, ![32]⟩ .f32) :
    Cert.ReferenceIdeal.RefSide.out1 x edge w W1 b1
      = refLayer F1 x W1 w b1 (Cert.ReferenceIdeal.RefSide.rowIdx edge) (Cert.ReferenceIdeal.RefSide.colIdx edge) := rfl

theorem ker2 (b3 : FVec Ideal ⟨1, ![64]⟩ .f32) (z2 res2 : FVec Ideal ⟨2, ![50000, 64]⟩ .f32) :
    Cert.KernelIdeal.KerSide.out2 edge w b3 z2 res2
      = kerLayer F2 w b3 (Cert.ReferenceIdeal.RefSide.rowIdx edge) (Cert.ReferenceIdeal.RefSide.colIdx edge) z2 res2 := rfl

theorem ref2 (o1 : FVec Ideal ⟨2, ![50000, 32]⟩ .f32) (W3 : FVec Ideal ⟨2, ![64, 32]⟩ .f32) (b3 : FVec Ideal ⟨1, ![64]⟩ .f32) :
    Cert.ReferenceIdeal.RefSide.out2 o1 edge w W3 b3
      = refLayer F2 o1 W3 w b3 (Cert.ReferenceIdeal.RefSide.rowIdx edge) (Cert.ReferenceIdeal.RefSide.colIdx edge) := rfl

/-- Both programs end with the same tail. -/
theorem tail_eq (o2 : FVec Ideal ⟨2, ![50000, 64]⟩ .f32) (W7 : FVec Ideal ⟨2, ![2, 64]⟩ .f32) (b7 : FVec Ideal ⟨1, ![2]⟩ .f32) :
    Cert.KernelIdeal.KerSide.tail o2 W7 b7 = Cert.ReferenceIdeal.RefSide.tail o2 W7 b7 := rfl

/-- On real inputs the first program's result term, fed the node-side products of each layer, is the second program's. -/
theorem result_eq (x : FVec Ideal ⟨2, ![50000, 20]⟩ .f32) (W1 : FVec Ideal ⟨2, ![32, 20]⟩ .f32) (b1 : FVec Ideal ⟨1, ![32]⟩ .f32)
    (W3 : FVec Ideal ⟨2, ![64, 32]⟩ .f32) (b3 : FVec Ideal ⟨1, ![64]⟩ .f32)
    (W7 : FVec Ideal ⟨2, ![2, 64]⟩ .f32) (b7 : FVec Ideal ⟨1, ![2]⟩ .f32)
    (hx : ∀ i, IsReal (x i)) (hw : ∀ i, IsReal (w i)) (hW1 : ∀ i, IsReal (W1 i)) (hb1 : ∀ i, IsReal (b1 i))
    (hW3 : ∀ i, IsReal (W3 i)) :
    Cert.KernelIdeal.KerSide.tail
        (Cert.KernelIdeal.KerSide.out2 edge w b3
          (zfun (Cert.KernelIdeal.KerSide.out1 edge w b1 (zfun x W1) (resfun x W1 b1)) W3)
          (resfun (Cert.KernelIdeal.KerSide.out1 edge w b1 (zfun x W1) (resfun x W1 b1)) W3 b3))
        W7 b7
      = Cert.ReferenceIdeal.RefSide.result x edge w W1 b1 W3 b3 W7 b7 := by
  have h1 : Cert.KernelIdeal.KerSide.out1 edge w b1 (zfun x W1) (resfun x W1 b1)
      = Cert.ReferenceIdeal.RefSide.out1 x edge w W1 b1 := by
    rw [ker1, ref1]; exact layer_eq F1 x W1 w b1 _ _ hx hW1 hw
  have hr : ∀ i, IsReal (Cert.ReferenceIdeal.RefSide.out1 x edge w W1 b1 i) := by
    rw [ref1]; exact refLayer_isReal F1 x W1 w b1 _ _ hx hW1 hw hb1
  rw [h1, tail_eq]
  unfold Cert.ReferenceIdeal.RefSide.result
  refine congrArg (fun o => Cert.ReferenceIdeal.RefSide.tail o W7 b7) ?_
  rw [ker2, ref2]
  exact layer_eq F2 _ W3 w b3 _ _ hr hW3 hw

end Cert.GNN.Bridge

end
-- ==== Proof.LibFiniteEntries.lean ====
/-
  "Every entry is finite", read: at any shape, if the conjunction over a whole float array of "the entry's absolute
  value is below +∞" is 1, every entry of the array is a real number.

  This is one conjunct of a precondition of the form all(|x| < +∞): the comparison of |x| = max(x, −x) with the
  literal +∞ at every entry, reduced by "and" over every axis into a scalar. A reduction by "and" that is 1 had a 1 at
  every entry; the comparison is 1 exactly when max(x, −x) < +∞; and that holds exactly when x is neither infinity.
-/
import proofs.«168688_j12120397709448_2_alg».proof.Proof.LibRealEntries
import Idealize.ShloMosaic.Lib.ReduceAll
import Idealize.ShloMosaic.Lib.ValueIdx

noncomputable section

namespace Cert.Lib.FiniteEntries

open Idealize.ShloMosaic Idealize.ShloMosaic.ValueIdx Cert.Lib.RealEntries

/-- The scalar shape has one index. -/
instance scalarIdx_subsingleton : Subsingleton (⟨0, ![]⟩ : Shape).Idx := ⟨fun a b => funext fun d => d.elim0⟩

/-- The literal +∞. -/
theorem inf_f32 : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x using EReal.rec with
  | bot => exact absurd h (by simp)
  | coe r => exact ⟨r, rfl⟩
  | top => exact absurd h (by simp)

/-- If "every |entry| < +∞", reduced by "and" over the whole array, is 1, every entry is real. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi
        (cmpf .olt (Host.absf x) (broadcastInDim s ![] hb (constant (F := Ideal) ⟨0, ![]⟩ .f32 0x7F800000#32)))
        (constantI ⟨0, ![]⟩ 1 1#1) hr hu ix0 = 1#1) (i : s.Idx) : IsReal (x i) := by
  have hi := Host.reduce_andi_all _ _ hr hu ix0 h i
  have hi' : Ideal.cmp .olt (max (x i) (-(x i))) (Ideal.ofBits .f32 0x7F800000#32) = 1#1 := hi
  rw [inf_f32] at hi'
  refine isReal_of_abs_lt_top (x i) ?_
  by_contra hn
  have h0 : Ideal.cmp .olt (max (x i) (-(x i))) ⊤ = 0#1 := by simp [Ideal.cmp, hn]
  rw [h0] at hi'
  exact absurd hi' (by decide)

end Cert.Lib.FiniteEntries

end
-- ==== Proof.Finite.lean ====
/-
  The precondition read entry by entry: when "every float input has finite entries" evaluates to true, every entry of the node
  features, the edge weights, the two weight matrices and the two biases is a real number.

  The precondition is a conjunction, folded left to right, of one "all entries of |a| are below +∞" per float argument; a
  conjunction that is true has every conjunct true, and an "all" that is true holds at every index.
-/
import proofs.«168688_j12120397709448_2_alg».proof.Pre_finite_inputs
import proofs.«168688_j12120397709448_2_alg».proof.Proof.Gen.Pre_finite_inputs
import proofs.«168688_j12120397709448_2_alg».proof.Proof.LibFiniteEntries
import Idealize.ShloMosaic.Lib.Affine
import Idealize.ShloMosaic.Lib.ReduceAll

noncomputable section

namespace Cert.GNN.Finite

open Idealize.ShloMosaic Idealize.ShloMosaic.ValueIdx Cert.Lib.RealEntries Cert.Lib.FiniteEntries Cert.Pre_finite_inputs

/-- Under the precondition the entries of `x`, `w`, `W1`, `b1`, `W3`, `b3` are real. -/
theorem real_inputs (x : FVec Ideal S50000x20 .f32) (edge : IVec S2x1600000 32) (w : FVec Ideal S1600000 .f32)
    (W1 : FVec Ideal S32x20 .f32) (b1 : FVec Ideal S32 .f32) (W3 : FVec Ideal S64x32 .f32) (b3 : FVec Ideal S64 .f32)
    (W7 : FVec Ideal S2x64 .f32) (b7 : FVec Ideal S2 .f32)
    (h : fn (F := Ideal) x edge w W1 b1 W3 b3 W7 b7 = fun _ => 1#1) :
    (∀ i, IsReal (x i)) ∧ (∀ i, IsReal (w i)) ∧ (∀ i, IsReal (W1 i)) ∧ (∀ i, IsReal (b1 i)) ∧ (∀ i, IsReal (W3 i))
      ∧ (∀ i, IsReal (b3 i)) := by
  have h0 := congrFun h ix0
  dsimp only [fn, fn_part1, fn_part2, andi] at h0
  obtain ⟨h33, -⟩ := IntOp.andi_eq_one.mp h0
  obtain ⟨h28, -⟩ := IntOp.andi_eq_one.mp h33
  obtain ⟨h23, hb3⟩ := IntOp.andi_eq_one.mp h28
  obtain ⟨h18, hW3⟩ := IntOp.andi_eq_one.mp h23
  obtain ⟨h13, hb1⟩ := IntOp.andi_eq_one.mp h18
  obtain ⟨h8, hW1⟩ := IntOp.andi_eq_one.mp h13
  obtain ⟨hx, hw⟩ := IntOp.andi_eq_one.mp h8
  exact ⟨real_of_all x _ _ _ hx, real_of_all w _ _ _ hw, real_of_all W1 _ _ _ hW1, real_of_all b1 _ _ _ hb1,
    real_of_all W3 _ _ _ hW3, real_of_all b3 _ _ _ hb3⟩

end Cert.GNN.Finite

end
-- ==== Proof.KerValue.lean ====
/-
  The first program's result under the precondition: the second program's result term of the same argument arrays.

  The run leaves the result buffer at the fold of the host operations through the two regions.  That fold is the tail of the
  second layer's host term, whose two region arrays are the node-side product and its rectified, biased image of the first
  layer's output; the first layer's output is the first layer's host term over the two region arrays of the input features.
  With every float input real, each layer agrees with the edge-by-edge layer of the second program.
-/
import proofs.«168688_j12120397709448_2_alg».proof.Proof.KerFold
import proofs.«168688_j12120397709448_2_alg».proof.Proof.RegionValue0
import proofs.«168688_j12120397709448_2_alg».proof.Proof.RegionValue1
import proofs.«168688_j12120397709448_2_alg».proof.Proof.Bridge
import proofs.«168688_j12120397709448_2_alg».proof.Proof.Finite

noncomputable section

namespace Cert.KernelIdeal.KerSide

open Cert.KernelIdeal Cert.KernelIdeal.Gen Idealize.ShloMosaic Idealize.SL.Sem

/-- Under the precondition, the contents the run leaves in the result buffer are the reference's result term. -/
theorem result_is_reference (m : (ℓ : Loc nD τ sig) → Buf (Elt Ideal) ℓ) (ρ : Dev nD → PrngReg) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) = fun _ => 1#1) :
    W10 m ρ c (Proc.devRef .tc main_v61)
      = Cert.ReferenceIdeal.RefSide.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) := by
  obtain ⟨hx, hw, hW1, hb1, hW3, -⟩ := Cert.GNN.Finite.real_inputs _ _ _ _ _ _ _ _ _ hpre
  rw [result_eq m ρ c, Cert.KernelIdeal.RegionValue.arr1_3 (V5 m ρ) c, Cert.KernelIdeal.RegionValue.arr1_4 (V5 m ρ) c,
    V5_v32, V5_arg5, V5_arg6]
  unfold o1
  rw [Cert.KernelIdeal.RegionValue.arr0_3 (V1 m ρ) c, Cert.KernelIdeal.RegionValue.arr0_4 (V1 m ρ) c, V1_arg0, V1_arg3, V1_arg4]
  exact Cert.GNN.Bridge.result_eq _ _ _ _ _ _ _ _ _ hx hw hW1 hb1 hW3

end Cert.KernelIdeal.KerSide

end
-- ==== Proof.RefOps.lean ====
/-
  The reference program as a straight line of host operations, in six consecutive stretches, and the proof that the program is
  that line: the outlined functions' bodies are unfolded at their call sites (each value of an inlined body has its own buffer),
  and sequencing is reassociated.  Every operation touches TensorCore buffers only and determines what it writes.
-/
import proofs.«168688_j12120397709448_2_alg».proof.ReferenceIdeal
import proofs.«168688_j12120397709448_2_alg».proof.Proof.Gen.ReferenceIdeal
import Idealize.ShloMosaic.PureOps.Ideal
import Idealize.ShloMosaic.Lib.StableHlo.Run

noncomputable section

namespace Cert.ReferenceIdeal.RefSide

open Cert.ReferenceIdeal Cert.ReferenceIdeal.Facts₀ Idealize.ShloMosaic Idealize.ShloMosaic.TcCoe Idealize.SL.Sem Idealize.ShloMosaic.StableHlo

variable {F : FTy → Type} [FloatOps F]

/-- The first stretch: the two rows of the edge array, the source indices made non-negative, and layer 1's edge messages (through the leaky rectifier, inlined). -/
abbrev ops1 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v3 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 50000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v3 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v3 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S50000x20_S1600000x1_S1600000x20_1_0_n_n_0_1_120 x i) : (⟨S50000x20, .f32⟩ : BufTy).Contents (Elt F) → (⟨S1600000x1, .i32⟩ : BufTy).Contents (Elt F) → (⟨S1600000x20, .f32⟩ : BufTy).Contents (Elt F)),
    StableHlo.unary main_arg2 main_v11 (broadcastInDim S1600000x1 ![0] bcast_S1600000_S1600000x1_0 : (⟨S1600000, .f32⟩ : BufTy).Contents (Elt F) → (⟨S1600000x1, .f32⟩ : BufTy).Contents (Elt F)),
    StableHlo.unary main_v11 main_v12 (broadcastInDim S1600000x20 ![0, 1] bcast_S1600000x1_S1600000x20_0_1 : (⟨S1600000x1, .f32⟩ : BufTy).Contents (Elt F) → (⟨S1600000x20, .f32⟩ : BufTy).Contents (Elt F)),
    StableHlo.binary main_v10 main_v12 main_v13 (mulf : (⟨S1600000x20, .f32⟩ : BufTy).Contents (Elt F) → (⟨S1600000x20, .f32⟩ : BufTy).Contents (Elt F) → (⟨S1600000x20, .f32⟩ : BufTy).Contents (Elt F)),
    StableHlo.unary main_arg3 main_v14 ((transpose S20x32 [1, 0] · transposes_S32x20_S20x32_1_0) : (⟨S32x20, .f32⟩ : BufTy).Contents (Elt F) → (⟨S20x32, .f32⟩ : BufTy).Contents (Elt F)),
    StableHlo.binary main_v13 main_v14 main_v15 ((fun l r => Host.dotGeneral dot_S1600000x20_S20x32_S1600000x32_1_0_0_1_n_n none l r) : (⟨S1600000x20, .f32⟩ : BufTy).Contents (Elt F) → (⟨S20x32, .f32⟩ : BufTy).Contents (Elt F) → (⟨S1600000x32, .f32⟩ : BufTy).Contents (Elt F)),
    StableHlo.unary main_arg4 main_v16 (broadcastInDim S1x32 ![1] bcast_S32_S1x32_1 : (⟨S32, .f32⟩ : BufTy).Contents (Elt F) → (⟨S1x32, .f32⟩ : BufTy).Contents (Elt F)),
    StableHlo.unary main_v16 main_v17 (broadcastInDim S1600000x32 ![0, 1] bcast_S1x32_S1600000x32_0_1 : (⟨S1x32, .f32⟩ : BufTy).Contents (Elt F) → (⟨S1600000x32, .f32⟩ : BufTy).Contents (Elt F)),
    StableHlo.binary main_v15 main_v17 main_v18 (addf : (⟨S1600000x32, .f32⟩ : BufTy).Contents (Elt F) → (⟨S1600000x32, .f32⟩ : BufTy).Contents (Elt F) → (⟨S1600000x32, .f32⟩ : BufTy).Contents (Elt F)),
    StableHlo.nullary main_cst (constant S_ .f32 0x3C23D70A#32),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S1600000x32, .f32⟩) (broadcastInDim S1600000x32 ![] bcast_S_S1600000x32),
    StableHlo.TRef.binary (.of main_v18 : StableHlo.TRef sig ⟨S1600000x32, .f32⟩) (.of main_call0_v0 : StableHlo.TRef sig ⟨S1600000x32, .f32⟩) (.of main_call0_v1 : StableHlo.TRef sig ⟨S1600000x32, .i1⟩) (cmpf .oge),
    StableHlo.TRef.unary (.of main_cst : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S1600000x32, .f32⟩) (broadcastInDim S1600000x32 ![] bcast_S_S1600000x32),
    StableHlo.TRef.binary (.of main_call0_v3 : StableHlo.TRef sig ⟨S1600000x32, .f32⟩) (.of main_v18 : StableHlo.TRef sig ⟨S1600000x32, .f32⟩) (.of main_call0_v4 : StableHlo.TRef sig ⟨S1600000x32, .f32⟩) mulf,
    StableHlo.TRef.ternary (.of main_call0_v1 : StableHlo.TRef sig ⟨S1600000x32, .i1⟩) (.of main_v18 : StableHlo.TRef sig ⟨S1600000x32, .f32⟩) (.of main_call0_v4 : StableHlo.TRef sig ⟨S1600000x32, .f32⟩) (.of main_v19 : StableHlo.TRef sig ⟨S1600000x32, .f32⟩) select ]

theorem ops1_sub : (ops1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The second stretch: layer 1's messages summed at the target nodes, the edge counts, the quotient, the node's own rectified linear image, their sum. -/
abbrev ops2 : List (HloOp τ sig (Elt F)) :=
  [ StableHlo.nullary main_cst_1 (constant S_ .f32 0x00000000#32),
    StableHlo.unary main_cst_1 main_v20 (broadcastInDim S50000x32 ![] bcast_S_S50000x32 : (⟨S_, .f32⟩ : BufTy).Contents (Elt F) → (⟨S50000x32, .f32⟩ : BufTy).Contents (Elt F)),
    StableHlo.unary main_v1 main_v21 (broadcastInDim S1600000x1 ![0] bcast_S1600000_S1600000x1_0 : (⟨S1600000, .i32⟩ : BufTy).Contents (Elt F) → (⟨S1600000x1, .i32⟩ : BufTy).Contents (Elt F)),
    StableHlo.ternary main_v20 main_v21 main_v19 main_v22 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)),
    StableHlo.nullary main_cst_2 (constant S_ .f32 0x3F800000#32),
    StableHlo.unary main_cst_2 main_v23 (broadcastInDim S1600000x1 ![] bcast_S_S1600000x1 : (⟨S_, .f32⟩ : BufTy).Contents (Elt F) → (⟨S1600000x1, .f32⟩ : BufTy).Contents (Elt F)),
    StableHlo.nullary main_cst_3 (constant S_ .f32 0x00000000#32),
    StableHlo.unary main_cst_3 main_v24 (broadcastInDim S50000x1 ![] bcast_S_S50000x1 : (⟨S_, .f32⟩ : BufTy).Contents (Elt F) → (⟨S50000x1, .f32⟩ : BufTy).Contents (Elt F)),
    StableHlo.unary main_v1 main_v25 (broadcastInDim S1600000x1 ![0] bcast_S1600000_S1600000x1_0 : (⟨S1600000, .i32⟩ : BufTy).Contents (Elt F) → (⟨S1600000x1, .i32⟩ : BufTy).Contents (Elt F)),
    StableHlo.ternary main_v24 main_v25 main_v23 main_v26 ((fun x i u => Host.scatterAdd scatter_S50000x1_S1600000x1_S1600000x1_1_0_0_1 x i u) : (⟨S50000x1, .f32⟩ : BufTy).Contents (Elt F) → (⟨S1600000x1, .i32⟩ : BufTy).Contents (Elt F) → (⟨S1600000x1, .f32⟩ : BufTy).Contents (Elt F) → (⟨S50000x1, .f32⟩ : BufTy).Contents (Elt F)),
    StableHlo.nullary main_cst_4 (constant S_ .f32 0x3F800000#32),
    StableHlo.unary main_cst_4 main_v27 (broadcastInDim S50000x1 ![] bcast_S_S50000x1 : (⟨S_, .f32⟩ : BufTy).Contents (Elt F) → (⟨S50000x1, .f32⟩ : BufTy).Contents (Elt F)),
    StableHlo.binary main_v26 main_v27 main_v28 (maximumf : (⟨S50000x1, .f32⟩ : BufTy).Contents (Elt F) → (⟨S50000x1, .f32⟩ : BufTy).Contents (Elt F) → (⟨S50000x1, .f32⟩ : BufTy).Contents (Elt F)),
    StableHlo.unary main_v28 main_v29 (broadcastInDim S50000x32 ![0, 1] bcast_S50000x1_S50000x32_0_1 : (⟨S50000x1, .f32⟩ : BufTy).Contents (Elt F) → (⟨S50000x32, .f32⟩ : BufTy).Contents (Elt F)),
    StableHlo.binary main_v22 main_v29 main_v30 (Host.divf : (⟨S50000x32, .f32⟩ : BufTy).Contents (Elt F) → (⟨S50000x32, .f32⟩ : BufTy).Contents (Elt F) → (⟨S50000x32, .f32⟩ : BufTy).Contents (Elt F)),
    StableHlo.unary main_arg3 main_v31 ((transpose S20x32 [1, 0] · transposes_S32x20_S20x32_1_0) : (⟨S32x20, .f32⟩ : BufTy).Contents (Elt F) → (⟨S20x32, .f32⟩ : BufTy).Contents (Elt F)),
    StableHlo.binary main_arg0 main_v31 main_v32 ((fun l r => Host.dotGeneral dot_S50000x20_S20x32_S50000x32_1_0_0_1_n_n none l r) : (⟨S50000x20, .f32⟩ : BufTy).Contents (Elt F) → (⟨S20x32, .f32⟩ : BufTy).Contents (Elt F) → (⟨S50000x32, .f32⟩ : BufTy).Contents (Elt F)),
    StableHlo.unary main_arg4 main_v33 (broadcastInDim S1x32 ![1] bcast_S32_S1x32_1 : (⟨S32, .f32⟩ : BufTy).Contents (Elt F) → (⟨S1x32, .f32⟩ : BufTy).Contents (Elt F)),
    StableHlo.unary main_v33 main_v34 (broadcastInDim S50000x32 ![0, 1] bcast_S1x32_S50000x32_0_1 : (⟨S1x32, .f32⟩ : BufTy).Contents (Elt F) → (⟨S50000x32, .f32⟩ : BufTy).Contents (Elt F)),
    StableHlo.binary main_v32 main_v34 main_v35 (addf : (⟨S50000x32, .f32⟩ : BufTy).Contents (Elt F) → (⟨S50000x32, .f32⟩ : BufTy).Contents (Elt F) → (⟨S50000x32, .f32⟩ : BufTy).Contents (Elt F)),
    StableHlo.nullary main_cst_5 (constant S_ .f32 0x3C23D70A#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x32, .f32⟩) (broadcastInDim S50000x32 ![] bcast_S_S50000x32),
    StableHlo.TRef.binary (.of main_v35 : StableHlo.TRef sig ⟨S50000x32, .f32⟩) (.of main_call1_v0 : StableHlo.TRef sig ⟨S50000x32, .f32⟩) (.of main_call1_v1 : StableHlo.TRef sig ⟨S50000x32, .i1⟩) (cmpf .oge),
    StableHlo.TRef.unary (.of main_cst_5 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S50000x32, .f32⟩) (broadcastInDim S50000x32 ![] bcast_S_S50000x32),
    StableHlo.TRef.binary (.of main_call1_v3 : StableHlo.TRef sig ⟨S50000x32, .f32⟩) (.of main_v35 : StableHlo.TRef sig ⟨S50000x32, .f32⟩) (.of main_call1_v4 : StableHlo.TRef sig ⟨S50000x32, .f32⟩) mulf,
    StableHlo.TRef.ternary (.of main_call1_v1 : StableHlo.TRef sig ⟨S50000x32, .i1⟩) (.of main_v35 : StableHlo.TRef sig ⟨S50000x32, .f32⟩) (.of main_call1_v4 : StableHlo.TRef sig ⟨S50000x32, .f32⟩) (.of main_v36 : StableHlo.TRef sig ⟨S50000x32, .f32⟩) select,
    StableHlo.binary main_v30 main_v36 main_v37 (addf : (⟨S50000x32, .f32⟩ : BufTy).Contents (Elt F) → (⟨S50000x32, .f32⟩ : BufTy).Contents (Elt F) → (⟨S50000x32, .f32⟩ : BufTy).Contents (Elt F)) ]

theorem ops2_sub : (ops2 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub .., StableHlo.binary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The third stretch: the source indices again, layer 1's features gathered and scaled, the product with the transposed second weight matrix. -/
abbrev ops3 : List (HloOp τ sig (Elt F)) :=
  [ StableHlo.nullary main_c_6 (constantI S_ 32 0#32),
    StableHlo.unary main_c_6 main_v38 (broadcastInDim S1600000 ![] bcast_S_S1600000 : (⟨S_, .i32⟩ : BufTy).Contents (Elt F) → (⟨S1600000, .i32⟩ : BufTy).Contents (Elt F)),
    StableHlo.binary main_v3 main_v38 main_v39 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 50000#32),
    StableHlo.unary main_c_7 main_v40 (broadcastInDim S1600000 ![] bcast_S_S1600000 : (⟨S_, .i32⟩ : BufTy).Contents (Elt F) → (⟨S1600000, .i32⟩ : BufTy).Contents (Elt F)),
    StableHlo.binary main_v3 main_v40 main_v41 (addi : (⟨S1600000, .i32⟩ : BufTy).Contents (Elt F) → (⟨S1600000, .i32⟩ : BufTy).Contents (Elt F) → (⟨S1600000, .i32⟩ : BufTy).Contents (Elt F)),
    StableHlo.ternary main_v39 main_v41 main_v3 main_v42 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v42 main_v43 (broadcastInDim S1600000x1 ![0] bcast_S1600000_S1600000x1_0 : (⟨S1600000, .i32⟩ : BufTy).Contents (Elt F) → (⟨S1600000x1, .i32⟩ : BufTy).Contents (Elt F)),
    StableHlo.binary main_v37 main_v43 main_v44 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    StableHlo.unary main_arg2 main_v45 (broadcastInDim S1600000x1 ![0] bcast_S1600000_S1600000x1_0 : (⟨S1600000, .f32⟩ : BufTy).Contents (Elt F) → (⟨S1600000x1, .f32⟩ : BufTy).Contents (Elt F)),
    StableHlo.unary main_v45 main_v46 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v44 main_v46 main_v47 (mulf : (⟨S1600000x32, .f32⟩ : BufTy).Contents (Elt F) → (⟨S1600000x32, .f32⟩ : BufTy).Contents (Elt F) → (⟨S1600000x32, .f32⟩ : BufTy).Contents (Elt F)),
    StableHlo.unary main_arg5 main_v48 ((transpose S32x64 [1, 0] · transposes_S64x32_S32x64_1_0) : (⟨S64x32, .f32⟩ : BufTy).Contents (Elt F) → (⟨S32x64, .f32⟩ : BufTy).Contents (Elt F)),
    StableHlo.binary main_v47 main_v48 main_v49 ((fun l r => Host.dotGeneral dot_S1600000x32_S32x64_S1600000x64_1_0_0_1_n_n none l r) : (⟨S1600000x32, .f32⟩ : BufTy).Contents (Elt F) → (⟨S32x64, .f32⟩ : BufTy).Contents (Elt F) → (⟨S1600000x64, .f32⟩ : BufTy).Contents (Elt F)) ]

theorem ops3_sub : (ops3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl⟩

/-- The fourth stretch: the bias added to the edge products and the leaky rectifier (inlined): layer 2's edge messages. -/
abbrev ops4 : List (HloOp τ sig (Elt F)) :=
  [ StableHlo.unary main_arg6 main_v50 (broadcastInDim S1x64 ![1] bcast_S64_S1x64_1 : (⟨S64, .f32⟩ : BufTy).Contents (Elt F) → (⟨S1x64, .f32⟩ : BufTy).Contents (Elt F)),
    StableHlo.unary main_v50 main_v51 (broadcastInDim S1600000x64 ![0, 1] bcast_S1x64_S1600000x64_0_1 : (⟨S1x64, .f32⟩ : BufTy).Contents (Elt F) → (⟨S1600000x64, .f32⟩ : BufTy).Contents (Elt F)),
    StableHlo.binary main_v49 main_v51 main_v52 (addf : (⟨S1600000x64, .f32⟩ : BufTy).Contents (Elt F) → (⟨S1600000x64, .f32⟩ : BufTy).Contents (Elt F) → (⟨S1600000x64, .f32⟩ : BufTy).Contents (Elt F)),
    StableHlo.nullary main_cst_8 (constant S_ .f32 0x3C23D70A#32),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S1600000x64, .f32⟩) (broadcastInDim S1600000x64 ![] bcast_S_S1600000x64),
    StableHlo.TRef.binary (.of main_v52 : StableHlo.TRef sig ⟨S1600000x64, .f32⟩) (.of main_call2_v0 : StableHlo.TRef sig ⟨S1600000x64, .f32⟩) (.of main_call2_v1 : StableHlo.TRef sig ⟨S1600000x64, .i1⟩) (cmpf .oge),
    StableHlo.TRef.unary (.of main_cst_8 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S1600000x64, .f32⟩) (broadcastInDim S1600000x64 ![] bcast_S_S1600000x64),
    StableHlo.TRef.binary (.of main_call2_v3 : StableHlo.TRef sig ⟨S1600000x64, .f32⟩) (.of main_v52 : StableHlo.TRef sig ⟨S1600000x64, .f32⟩) (.of main_call2_v4 : StableHlo.TRef sig ⟨S1600000x64, .f32⟩) mulf,
    StableHlo.TRef.ternary (.of main_call2_v1 : StableHlo.TRef sig ⟨S1600000x64, .i1⟩) (.of main_v52 : StableHlo.TRef sig ⟨S1600000x64, .f32⟩) (.of main_call2_v4 : StableHlo.TRef sig ⟨S1600000x64, .f32⟩) (.of main_v53 : StableHlo.TRef sig ⟨S1600000x64, .f32⟩) select ]

theorem ops4_sub : (ops4 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩

theorem ops4_fresh : (ops4 : List (HloOp τ sig (Elt F))).Forall fun op => op.fresh = ∅ :=
  ⟨rfl, rfl, rfl, rfl, rfl, rfl, rfl, rfl, rfl, rfl, rfl⟩

/-- The fifth stretch: layer 2's messages summed at the target nodes, the edge counts, the quotient, the node's own rectified linear image, their sum. -/
abbrev ops5 : List (HloOp τ sig (Elt F)) :=
  [ StableHlo.nullary main_cst_9 (constant S_ .f32 0x00000000#32),
    StableHlo.unary main_cst_9 main_v54 (broadcastInDim S50000x64 ![] bcast_S_S50000x64 : (⟨S_, .f32⟩ : BufTy).Contents (Elt F) → (⟨S50000x64, .f32⟩ : BufTy).Contents (Elt F)),
    StableHlo.unary main_v1 main_v55 (broadcastInDim S1600000x1 ![0] bcast_S1600000_S1600000x1_0 : (⟨S1600000, .i32⟩ : BufTy).Contents (Elt F) → (⟨S1600000x1, .i32⟩ : BufTy).Contents (Elt F)),
    StableHlo.ternary main_v54 main_v55 main_v53 main_v56 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    StableHlo.nullary main_cst_10 (constant S_ .f32 0x3F800000#32),
    StableHlo.unary main_cst_10 main_v57 (broadcastInDim S1600000x1 ![] bcast_S_S1600000x1 : (⟨S_, .f32⟩ : BufTy).Contents (Elt F) → (⟨S1600000x1, .f32⟩ : BufTy).Contents (Elt F)),
    StableHlo.nullary main_cst_11 (constant S_ .f32 0x00000000#32),
    StableHlo.unary main_cst_11 main_v58 (broadcastInDim S50000x1 ![] bcast_S_S50000x1 : (⟨S_, .f32⟩ : BufTy).Contents (Elt F) → (⟨S50000x1, .f32⟩ : BufTy).Contents (Elt F)),
    StableHlo.unary main_v1 main_v59 (broadcastInDim S1600000x1 ![0] bcast_S1600000_S1600000x1_0 : (⟨S1600000, .i32⟩ : BufTy).Contents (Elt F) → (⟨S1600000x1, .i32⟩ : BufTy).Contents (Elt F)),
    StableHlo.ternary main_v58 main_v59 main_v57 main_v60 ((fun x i u => Host.scatterAdd scatter_S50000x1_S1600000x1_S1600000x1_1_0_0_1 x i u) : (⟨S50000x1, .f32⟩ : BufTy).Contents (Elt F) → (⟨S1600000x1, .i32⟩ : BufTy).Contents (Elt F) → (⟨S1600000x1, .f32⟩ : BufTy).Contents (Elt F) → (⟨S50000x1, .f32⟩ : BufTy).Contents (Elt F)),
    StableHlo.nullary main_cst_12 (constant S_ .f32 0x3F800000#32),
    StableHlo.unary main_cst_12 main_v61 (broadcastInDim S50000x1 ![] bcast_S_S50000x1 : (⟨S_, .f32⟩ : BufTy).Contents (Elt F) → (⟨S50000x1, .f32⟩ : BufTy).Contents (Elt F)),
    StableHlo.binary main_v60 main_v61 main_v62 (maximumf : (⟨S50000x1, .f32⟩ : BufTy).Contents (Elt F) → (⟨S50000x1, .f32⟩ : BufTy).Contents (Elt F) → (⟨S50000x1, .f32⟩ : BufTy).Contents (Elt F)),
    StableHlo.unary main_v62 main_v63 (broadcastInDim S50000x64 ![0, 1] bcast_S50000x1_S50000x64_0_1 : (⟨S50000x1, .f32⟩ : BufTy).Contents (Elt F) → (⟨S50000x64, .f32⟩ : BufTy).Contents (Elt F)),
    StableHlo.binary main_v56 main_v63 main_v64 (Host.divf : (⟨S50000x64, .f32⟩ : BufTy).Contents (Elt F) → (⟨S50000x64, .f32⟩ : BufTy).Contents (Elt F) → (⟨S50000x64, .f32⟩ : BufTy).Contents (Elt F)),
    StableHlo.unary main_arg5 main_v65 ((transpose S32x64 [1, 0] · transposes_S64x32_S32x64_1_0) : (⟨S64x32, .f32⟩ : BufTy).Contents (Elt F) → (⟨S32x64, .f32⟩ : BufTy).Contents (Elt F)),
    StableHlo.binary main_v37 main_v65 main_v66 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    StableHlo.unary main_arg6 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S50000x64 ![0, 1] bcast_S1x64_S50000x64_0_1 : (⟨S1x64, .f32⟩ : BufTy).Contents (Elt F) → (⟨S50000x64, .f32⟩ : BufTy).Contents (Elt F)),
    StableHlo.binary main_v66 main_v68 main_v69 (addf : (⟨S50000x64, .f32⟩ : BufTy).Contents (Elt F) → (⟨S50000x64, .f32⟩ : BufTy).Contents (Elt F) → (⟨S50000x64, .f32⟩ : BufTy).Contents (Elt F)),
    StableHlo.nullary main_cst_13 (constant S_ .f32 0x3C23D70A#32),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x64, .f32⟩) (broadcastInDim S50000x64 ![] bcast_S_S50000x64),
    StableHlo.TRef.binary (.of main_v69 : StableHlo.TRef sig ⟨S50000x64, .f32⟩) (.of main_call3_v0 : StableHlo.TRef sig ⟨S50000x64, .f32⟩) (.of main_call3_v1 : StableHlo.TRef sig ⟨S50000x64, .i1⟩) (cmpf .oge),
    StableHlo.TRef.unary (.of main_cst_13 : StableHlo.TRef sig ⟨S_, .f32⟩) (.of main_call3_v2 : StableHlo.TRef sig ⟨S_, .f32⟩) id,
    StableHlo.TRef.unary (.of main_call3_v2 : StableHlo.TRef sig ⟨S_, .f32⟩) (.of main_call3_v3 : StableHlo.TRef sig ⟨S50000x64, .f32⟩) (broadcastInDim S50000x64 ![] bcast_S_S50000x64),
    StableHlo.TRef.binary (.of main_call3_v3 : StableHlo.TRef sig ⟨S50000x64, .f32⟩) (.of main_v69 : StableHlo.TRef sig ⟨S50000x64, .f32⟩) (.of main_call3_v4 : StableHlo.TRef sig ⟨S50000x64, .f32⟩) mulf,
    StableHlo.TRef.ternary (.of main_call3_v1 : StableHlo.TRef sig ⟨S50000x64, .i1⟩) (.of main_v69 : StableHlo.TRef sig ⟨S50000x64, .f32⟩) (.of main_call3_v4 : StableHlo.TRef sig ⟨S50000x64, .f32⟩) (.of main_v70 : StableHlo.TRef sig ⟨S50000x64, .f32⟩) select,
    StableHlo.binary main_v64 main_v70 main_v71 (addf : (⟨S50000x64, .f32⟩ : BufTy).Contents (Elt F) → (⟨S50000x64, .f32⟩ : BufTy).Contents (Elt F) → (⟨S50000x64, .f32⟩ : BufTy).Contents (Elt F)) ]

theorem ops5_sub : (ops5 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub .., StableHlo.binary_bufs_sub ..⟩

theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The sixth stretch: the mean over the nodes, the classifier, and the logarithmic soft-max (inlined). -/
abbrev ops6 : List (HloOp τ sig (Elt F)) :=
  [ StableHlo.nullary main_cst_14 (constant S_ .f32 0x00000000#32),
    StableHlo.binary main_v71 main_cst_14 main_v72 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.unary main_v72 main_v73 (broadcastInDim S1x64 ![1] bcast_S64_S1x64_1 : (⟨S64, .f32⟩ : BufTy).Contents (Elt F) → (⟨S1x64, .f32⟩ : BufTy).Contents (Elt F)),
    StableHlo.nullary main_cst_15 (constant S_ .f32 0x47435000#32),
    StableHlo.unary main_cst_15 main_v74 (broadcastInDim S1x64 ![] bcast_S_S1x64 : (⟨S_, .f32⟩ : BufTy).Contents (Elt F) → (⟨S1x64, .f32⟩ : BufTy).Contents (Elt F)),
    StableHlo.binary main_v73 main_v74 main_v75 (Host.divf : (⟨S1x64, .f32⟩ : BufTy).Contents (Elt F) → (⟨S1x64, .f32⟩ : BufTy).Contents (Elt F) → (⟨S1x64, .f32⟩ : BufTy).Contents (Elt F)),
    StableHlo.unary main_arg7 main_v76 ((transpose S64x2 [1, 0] · transposes_S2x64_S64x2_1_0) : (⟨S2x64, .f32⟩ : BufTy).Contents (Elt F) → (⟨S64x2, .f32⟩ : BufTy).Contents (Elt F)),
    StableHlo.binary main_v75 main_v76 main_v77 ((fun l r => Host.dotGeneral dot_S1x64_S64x2_S1x2_1_0_0_1_n_n none l r) : (⟨S1x64, .f32⟩ : BufTy).Contents (Elt F) → (⟨S64x2, .f32⟩ : BufTy).Contents (Elt F) → (⟨S1x2, .f32⟩ : BufTy).Contents (Elt F)),
    StableHlo.unary main_arg8 main_v78 (broadcastInDim S1x2 ![1] bcast_S2_S1x2_1 : (⟨S2, .f32⟩ : BufTy).Contents (Elt F) → (⟨S1x2, .f32⟩ : BufTy).Contents (Elt F)),
    StableHlo.binary main_v77 main_v78 main_v79 (addf : (⟨S1x2, .f32⟩ : BufTy).Contents (Elt F) → (⟨S1x2, .f32⟩ : BufTy).Contents (Elt F) → (⟨S1x2, .f32⟩ : BufTy).Contents (Elt F)),
    StableHlo.TRef.nullary (.of main_call4_cst : StableHlo.TRef sig ⟨S_, .f32⟩) (constant S_ .f32 0xFF800000#32),
    StableHlo.TRef.binary (.of main_v79 : StableHlo.TRef sig ⟨S1x2, .f32⟩) (.of main_call4_cst : StableHlo.TRef sig ⟨S_, .f32⟩) (.of main_call4_v0 : StableHlo.TRef sig ⟨S1, .f32⟩) (fun x v => Host.reduce FloatOps.maximumf x v reducesTo_S1x2_S1_d1 h_S_),
    StableHlo.TRef.nullary (.of main_call4_cst_0 : StableHlo.TRef sig ⟨S_, .f32⟩) (constant S_ .f32 0xFF800000#32),
    StableHlo.TRef.unary (.of main_call4_cst_0 : StableHlo.TRef sig ⟨S_, .f32⟩) (.of main_call4_v1 : StableHlo.TRef sig ⟨S1, .f32⟩) (broadcastInDim S1 ![] bcast_S_S1),
    StableHlo.TRef.binary (.of main_call4_v1 : StableHlo.TRef sig ⟨S1, .f32⟩) (.of main_call4_v0 : StableHlo.TRef sig ⟨S1, .f32⟩) (.of main_call4_v2 : StableHlo.TRef sig ⟨S1, .f32⟩) maximumf,
    StableHlo.TRef.unary (.of main_call4_v2 : StableHlo.TRef sig ⟨S1, .f32⟩) (.of main_call4_v3 : StableHlo.TRef sig ⟨S1x1, .f32⟩) (broadcastInDim S1x1 ![0] bcast_S1_S1x1_0),
    StableHlo.TRef.unary (.of main_call4_v3 : StableHlo.TRef sig ⟨S1x1, .f32⟩) (.of main_call4_v4 : StableHlo.TRef sig ⟨S1x2, .f32⟩) (broadcastInDim S1x2 ![0, 1] bcast_S1x1_S1x2_0_1),
    StableHlo.TRef.binary (.of main_v79 : StableHlo.TRef sig ⟨S1x2, .f32⟩) (.of main_call4_v4 : StableHlo.TRef sig ⟨S1x2, .f32⟩) (.of main_call4_v5 : StableHlo.TRef sig ⟨S1x2, .f32⟩) subf,
    StableHlo.TRef.unary (.of main_call4_v5 : StableHlo.TRef sig ⟨S1x2, .f32⟩) (.of main_call4_v6 : StableHlo.TRef sig ⟨S1x2, .f32⟩) Host.exp,
    StableHlo.TRef.nullary (.of main_call4_cst_1 : StableHlo.TRef sig ⟨S_, .f32⟩) (constant S_ .f32 0x00000000#32),
    StableHlo.TRef.binary (.of main_call4_v6 : StableHlo.TRef sig ⟨S1x2, .f32⟩) (.of main_call4_cst_1 : StableHlo.TRef sig ⟨S_, .f32⟩) (.of main_call4_v7 : StableHlo.TRef sig ⟨S1, .f32⟩) (fun x v => Host.reduceAdd x v reducesTo_S1x2_S1_d1 h_S_),
    StableHlo.TRef.unary (.of main_call4_v7 : StableHlo.TRef sig ⟨S1, .f32⟩) (.of main_call4_v8 : StableHlo.TRef sig ⟨S1x1, .f32⟩) (broadcastInDim S1x1 ![0] bcast_S1_S1x1_0),
    StableHlo.TRef.unary (.of main_call4_v8 : StableHlo.TRef sig ⟨S1x1, .f32⟩) (.of main_call4_v9 : StableHlo.TRef sig ⟨S1x1, .f32⟩) Host.log,
    StableHlo.TRef.unary (.of main_call4_v9 : StableHlo.TRef sig ⟨S1x1, .f32⟩) (.of main_call4_v10 : StableHlo.TRef sig ⟨S1x2, .f32⟩) (broadcastInDim S1x2 ![0, 1] bcast_S1x1_S1x2_0_1),
    StableHlo.TRef.binary (.of main_call4_v5 : StableHlo.TRef sig ⟨S1x2, .f32⟩) (.of main_call4_v10 : StableHlo.TRef sig ⟨S1x2, .f32⟩) (.of main_v80 : StableHlo.TRef sig ⟨S1x2, .f32⟩) subf ]

theorem ops6_sub : (ops6 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩

theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- The whole line: the first window's three stretches, then the second window's three. -/
abbrev ops : List (HloOp τ sig (Elt F)) := (ops1 ++ (ops2 ++ ops3)) ++ (ops4 ++ (ops5 ++ ops6))

set_option maxRecDepth 8192 in
/-- Statements 1 … 60 are the first three stretches. -/
theorem part0_eq (c : Dev nD) : main_part0 (F := F) c = seq (ops1 ++ (ops2 ++ ops3)) := rfl

set_option maxRecDepth 8192 in
/-- Statements 61 … 100 are the last three stretches. -/
theorem part1_eq (c : Dev nD) : main_part1 (F := F) c = seq (ops4 ++ (ops5 ++ ops6)) := rfl

/-- The program is the line: its two windows one after the other are the two halves of the line run as one. -/
theorem main_eq (c : Dev nD) : main (F := F) c = seq ops := by
  rw [seq_append (ops1 ++ (ops2 ++ ops3)) (ops4 ++ (ops5 ++ ops6)), ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  List.forall_iff_forall_mem.mpr fun op h => by
    simp only [ops, List.mem_append] at h
    rcases h with (h | h | h) | (h | h | h)
    exacts [List.forall_iff_forall_mem.mp ops1_sub op h, List.forall_iff_forall_mem.mp ops2_sub op h,
      List.forall_iff_forall_mem.mp ops3_sub op h, List.forall_iff_forall_mem.mp ops4_sub op h,
      List.forall_iff_forall_mem.mp ops5_sub op h, List.forall_iff_forall_mem.mp ops6_sub op h]

/-- Every operation of the line determines what it writes. -/
theorem ops_fresh : ∀ op ∈ (ops : List (HloOp τ sig (Elt F))), op.fresh = ∅ := fun op h => by
  simp only [ops, List.mem_append] at h
  rcases h with (h | h | h) | (h | h | h)
  exacts [List.forall_iff_forall_mem.mp ops1_fresh op h, List.forall_iff_forall_mem.mp ops2_fresh op h,
    List.forall_iff_forall_mem.mp ops3_fresh op h, List.forall_iff_forall_mem.mp ops4_fresh op h,
    List.forall_iff_forall_mem.mp ops5_fresh op h, List.forall_iff_forall_mem.mp ops6_fresh op h]

end Cert.ReferenceIdeal.RefSide

end
-- ==== Proof.LibAfter.lean ====
/-
  The buffer contents after a line of host operations, cut at a position: running the operations of a list in order is running its
  first `n` and then the rest from what they leave, and running a concatenation is running its parts one after the other.
-/
import Idealize.ShloMosaic.Lib.StableHlo.Run

namespace Cert.Lib.After

open Idealize.ShloMosaic Idealize.ShloMosaic.StableHlo

variable {τ : Topo} {sig : RefSig} {Val : EltTy → Type}

/-- The contents after two lines run one after the other are those after their concatenation. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The contents after a line are those after its tail past position `n`, run from what its first `n` operations leave. -/
theorem after_split (n : ℕ) (l : List (HloOp τ sig Val)) (V : Valuation τ sig Val) :
    after l V = after (l.drop n) (after (l.take n) V) := by
  rw [← after_append, List.take_append_drop]

end Cert.Lib.After
-- ==== Proof.RefRun.lean ====
/-
  The run of the reference program, read back: every weakly fair execution terminates with the result buffer at the composed
  term `result` of the nine argument arrays and the argument arrays unchanged.

  The program is a straight line of host operations (the preceding module), so a run leaves in every buffer the fold of the
  operations' results over the launch contents.  The fold is read stretch by stretch: for each of the six stretches, from ANY
  contents `W` that hold the argument arrays and the few earlier values the stretch reads, the buffers still needed afterwards
  hold their composed terms (each operation's result buffer holds its function of its operands' contents, every other buffer
  what it held); the six readings chain, each stretch starting from what the earlier ones leave.
-/
import proofs.«168688_j12120397709448_2_alg».proof.Proof.RefTerm
import proofs.«168688_j12120397709448_2_alg».proof.Proof.RefOps
import proofs.«168688_j12120397709448_2_alg».proof.Proof.LibAfter

noncomputable section

namespace Cert.ReferenceIdeal.RefSide

open Cert.ReferenceIdeal Cert.ReferenceIdeal.Facts₀ Idealize.ShloMosaic Idealize.ShloMosaic.TcCoe Idealize.SL.Sem Idealize.ShloMosaic.StableHlo Cert.Lib.After

/-- The valuation holds the nine argument arrays. -/
structure Args (W : Valuation τ sig (Elt Ideal)) (x : FVec Ideal S50000x20 .f32) (e : IVec S2x1600000 32) (w : FVec Ideal S1600000 .f32)
    (W1 : FVec Ideal S32x20 .f32) (b1 : FVec Ideal S32 .f32) (W3 : FVec Ideal S64x32 .f32) (b3 : FVec Ideal S64 .f32)
    (W7 : FVec Ideal S2x64 .f32) (b7 : FVec Ideal S2 .f32) : Prop where
  a0 : W (Proc.devRef .tc main_arg0) = x
  a1 : W (Proc.devRef .tc main_arg1) = e
  a2 : W (Proc.devRef .tc main_arg2) = w
  a3 : W (Proc.devRef .tc main_arg3) = W1
  a4 : W (Proc.devRef .tc main_arg4) = b1
  a5 : W (Proc.devRef .tc main_arg5) = W3
  a6 : W (Proc.devRef .tc main_arg6) = b3
  a7 : W (Proc.devRef .tc main_arg7) = W7
  a8 : W (Proc.devRef .tc main_arg8) = b7

variable {W : Valuation τ sig (Elt Ideal)} {x : FVec Ideal S50000x20 .f32} {e : IVec S2x1600000 32} {w : FVec Ideal S1600000 .f32}
    {W1 : FVec Ideal S32x20 .f32} {b1 : FVec Ideal S32 .f32} {W3 : FVec Ideal S64x32 .f32} {b3 : FVec Ideal S64 .f32}
    {W7 : FVec Ideal S2x64 .f32} {b7 : FVec Ideal S2 .f32}
    {o1 : FVec Ideal S50000x32 .f32} {o2 : FVec Ideal S50000x64 .f32}

/-! ## Stretch 1 -/

set_option maxRecDepth 8192 in
/-- After stretch 1 the target-node vector is row 0 of the edge array. -/
theorem s1_v1 (A : Args W x e w W1 b1 W3 b3 W7 b7) :
    after ops1 W (Proc.devRef .tc main_v1) = rowVec e := by
  after_results_simp
  rw [A.a1]
  rfl

set_option maxRecDepth 8192 in
/-- After stretch 1 the source-node vector is row 1 of the edge array. -/
theorem s1_v3 (A : Args W x e w W1 b1 W3 b3 W7 b7) :
    after ops1 W (Proc.devRef .tc main_v3) = colVec e := by
  after_results_simp
  rw [A.a1]
  rfl

set_option maxRecDepth 8192 in
/-- After stretch 1 the rectifier's result buffer holds layer 1's edge messages. -/
theorem s1_v19 (A : Args W x e w W1 b1 W3 b3 W7 b7) :
    after ops1 W (Proc.devRef .tc main_v19) = msg1 x e w W1 b1 := by
  after_results_simp
  rw [A.a0, A.a1, A.a2, A.a3, A.a4]
  rfl

set_option maxRecDepth 8192 in
/-- No operation of stretch 1 writes an argument array. -/
theorem keep1 (A : Args W x e w W1 b1 W3 b3 W7 b7) : Args (after ops1 W) x e w W1 b1 W3 b3 W7 b7 :=
  ⟨by after_results_simp; exact A.a0,
   by after_results_simp; exact A.a1,
   by after_results_simp; exact A.a2,
   by after_results_simp; exact A.a3,
   by after_results_simp; exact A.a4,
   by after_results_simp; exact A.a5,
   by after_results_simp; exact A.a6,
   by after_results_simp; exact A.a7,
   by after_results_simp; exact A.a8⟩

/-! ## Stretch 2 -/

set_option maxRecDepth 8192 in
theorem s2_v1 : after ops2 W (Proc.devRef .tc main_v1) = W (Proc.devRef .tc main_v1) := by
  after_results_simp

set_option maxRecDepth 8192 in
theorem s2_v3 : after ops2 W (Proc.devRef .tc main_v3) = W (Proc.devRef .tc main_v3) := by
  after_results_simp

set_option maxRecDepth 8192 in
/-- From the target-node vector and layer 1's messages, stretch 2 leaves layer 1's node features. -/
theorem s2_v37 (A : Args W x e w W1 b1 W3 b3 W7 b7) (h1 : W (Proc.devRef .tc main_v1) = rowVec e) (h19 : W (Proc.devRef .tc main_v19) = msg1 x e w W1 b1) :
    after ops2 W (Proc.devRef .tc main_v37) = out1 x e w W1 b1 := by
  after_results_simp
  rw [h1, h19, A.a0, A.a3, A.a4]
  rfl

set_option maxRecDepth 8192 in
/-- No operation of stretch 2 writes an argument array. -/
theorem keep2 (A : Args W x e w W1 b1 W3 b3 W7 b7) : Args (after ops2 W) x e w W1 b1 W3 b3 W7 b7 :=
  ⟨by after_results_simp; exact A.a0,
   by after_results_simp; exact A.a1,
   by after_results_simp; exact A.a2,
   by after_results_simp; exact A.a3,
   by after_results_simp; exact A.a4,
   by after_results_simp; exact A.a5,
   by after_results_simp; exact A.a6,
   by after_results_simp; exact A.a7,
   by after_results_simp; exact A.a8⟩

/-! ## Stretch 3 -/

set_option maxRecDepth 8192 in
theorem s3_v1 : after ops3 W (Proc.devRef .tc main_v1) = W (Proc.devRef .tc main_v1) := by
  after_results_simp

set_option maxRecDepth 8192 in
theorem s3_v37 : after ops3 W (Proc.devRef .tc main_v37) = W (Proc.devRef .tc main_v37) := by
  after_results_simp

set_option maxRecDepth 8192 in
/-- From the source-node vector and layer 1's features, stretch 3 leaves layer 2's edge products. -/
theorem s3_v49 (A : Args W x e w W1 b1 W3 b3 W7 b7) (h3 : W (Proc.devRef .tc main_v3) = colVec e) (h37 : W (Proc.devRef .tc main_v37) = o1) :
    after ops3 W (Proc.devRef .tc main_v49) = edgeLin2 o1 e w W3 := by
  after_results_simp
  rw [h3, h37, A.a2, A.a5]
  rfl

set_option maxRecDepth 8192 in
/-- No operation of stretch 3 writes an argument array. -/
theorem keep3 (A : Args W x e w W1 b1 W3 b3 W7 b7) : Args (after ops3 W) x e w W1 b1 W3 b3 W7 b7 :=
  ⟨by after_results_simp; exact A.a0,
   by after_results_simp; exact A.a1,
   by after_results_simp; exact A.a2,
   by after_results_simp; exact A.a3,
   by after_results_simp; exact A.a4,
   by after_results_simp; exact A.a5,
   by after_results_simp; exact A.a6,
   by after_results_simp; exact A.a7,
   by after_results_simp; exact A.a8⟩

/-! ## Stretch 4 -/

set_option maxRecDepth 8192 in
theorem s4_v1 : after ops4 W (Proc.devRef .tc main_v1) = W (Proc.devRef .tc main_v1) := by
  after_results_simp

set_option maxRecDepth 8192 in
theorem s4_v37 : after ops4 W (Proc.devRef .tc main_v37) = W (Proc.devRef .tc main_v37) := by
  after_results_simp

set_option maxRecDepth 8192 in
/-- From layer 2's edge products, stretch 4 leaves layer 2's edge messages. -/
theorem s4_v53 (A : Args W x e w W1 b1 W3 b3 W7 b7) (h49 : W (Proc.devRef .tc main_v49) = edgeLin2 o1 e w W3) :
    after ops4 W (Proc.devRef .tc main_v53) = msg2 o1 e w W3 b3 := by
  after_results_simp
  rw [h49, A.a6]
  rfl

set_option maxRecDepth 8192 in
/-- No operation of stretch 4 writes an argument array. -/
theorem keep4 (A : Args W x e w W1 b1 W3 b3 W7 b7) : Args (after ops4 W) x e w W1 b1 W3 b3 W7 b7 :=
  ⟨by after_results_simp; exact A.a0,
   by after_results_simp; exact A.a1,
   by after_results_simp; exact A.a2,
   by after_results_simp; exact A.a3,
   by after_results_simp; exact A.a4,
   by after_results_simp; exact A.a5,
   by after_results_simp; exact A.a6,
   by after_results_simp; exact A.a7,
   by after_results_simp; exact A.a8⟩

/-! ## Stretch 5 -/

set_option maxRecDepth 8192 in
/-- From the target-node vector, layer 1's features and layer 2's messages, stretch 5 leaves layer 2's node features. -/
theorem s5_v71 (A : Args W x e w W1 b1 W3 b3 W7 b7) (h1 : W (Proc.devRef .tc main_v1) = rowVec e) (h37 : W (Proc.devRef .tc main_v37) = o1) (h53 : W (Proc.devRef .tc main_v53) = msg2 o1 e w W3 b3) :
    after ops5 W (Proc.devRef .tc main_v71) = out2 o1 e w W3 b3 := by
  after_results_simp
  rw [h1, h37, h53, A.a5, A.a6]
  rfl

set_option maxRecDepth 8192 in
/-- No operation of stretch 5 writes an argument array. -/
theorem keep5 (A : Args W x e w W1 b1 W3 b3 W7 b7) : Args (after ops5 W) x e w W1 b1 W3 b3 W7 b7 :=
  ⟨by after_results_simp; exact A.a0,
   by after_results_simp; exact A.a1,
   by after_results_simp; exact A.a2,
   by after_results_simp; exact A.a3,
   by after_results_simp; exact A.a4,
   by after_results_simp; exact A.a5,
   by after_results_simp; exact A.a6,
   by after_results_simp; exact A.a7,
   by after_results_simp; exact A.a8⟩

/-! ## Stretch 6 -/

set_option maxRecDepth 8192 in
/-- From layer 2's features, stretch 6 leaves the result. -/
theorem s6_v80 (A : Args W x e w W1 b1 W3 b3 W7 b7) (h71 : W (Proc.devRef .tc main_v71) = o2) :
    after ops6 W (Proc.devRef .tc main_v80) = tail o2 W7 b7 := by
  after_results_simp
  rw [h71, A.a7, A.a8]
  rfl

set_option maxRecDepth 8192 in
/-- No operation of stretch 6 writes an argument array. -/
theorem keep6 (A : Args W x e w W1 b1 W3 b3 W7 b7) : Args (after ops6 W) x e w W1 b1 W3 b3 W7 b7 :=
  ⟨by after_results_simp; exact A.a0,
   by after_results_simp; exact A.a1,
   by after_results_simp; exact A.a2,
   by after_results_simp; exact A.a3,
   by after_results_simp; exact A.a4,
   by after_results_simp; exact A.a5,
   by after_results_simp; exact A.a6,
   by after_results_simp; exact A.a7,
   by after_results_simp; exact A.a8⟩

/-! ## The six stretches chained -/

/-- The contents after the whole line are those after the six stretches in turn. -/
theorem after_ops (V : Valuation τ sig (Elt Ideal)) :
    after ops V = after ops6 (after ops5 (after ops4 (after ops3 (after ops2 (after ops1 V))))) := by
  simp only [ops, after_append]

/-- The whole line writes no argument array. -/
theorem args_eq (V : Valuation τ sig (Elt Ideal)) :
    Args (after ops V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [after_ops]
  exact keep6 (keep5 (keep4 (keep3 (keep2 (keep1 ⟨rfl, rfl, rfl, rfl, rfl, rfl, rfl, rfl, rfl⟩)))))

/-- After the whole line the result buffer holds `result` of the argument arrays' contents before it. -/
theorem out_eq (V : Valuation τ sig (Elt Ideal)) :
    after ops V (Proc.devRef .tc main_v80) = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have A0 : Args V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := ⟨rfl, rfl, rfl, rfl, rfl, rfl, rfl, rfl, rfl⟩
  have A1 := keep1 A0
  have A2 := keep2 A1
  have A3 := keep3 A2
  have A4 := keep4 A3
  have A5 := keep5 A4
  have r2 := s2_v37 A1 (s1_v1 A0) (s1_v19 A0)
  have r3 := s3_v49 A2 (s2_v3.trans (s1_v3 A0)) r2
  have r4 := s4_v53 A3 r3
  have r5 := s5_v71 A4 (s4_v1.trans (s3_v1.trans (s2_v1.trans (s1_v1 A0)))) (s4_v37.trans (s3_v37.trans r2)) r4
  rw [after_ops]
  exact s6_v80 A5 r5

/-- On every device, from any memory with zero counters: every weakly fair execution of the reference terminates with the result
    buffer at `result` of the argument arrays' launch contents and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v80) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v80).trans (out_eq (launchContents m c)),
      (h c main_arg0).trans (args_eq (launchContents m c)).a0,
      (h c main_arg1).trans (args_eq (launchContents m c)).a1,
      (h c main_arg2).trans (args_eq (launchContents m c)).a2,
      (h c main_arg3).trans (args_eq (launchContents m c)).a3,
      (h c main_arg4).trans (args_eq (launchContents m c)).a4,
      (h c main_arg5).trans (args_eq (launchContents m c)).a5,
      (h c main_arg6).trans (args_eq (launchContents m c)).a6,
      (h c main_arg7).trans (args_eq (launchContents m c)).a7,
      (h c main_arg8).trans (args_eq (launchContents m c)).a8⟩)
    (run_seq scopedRefs_eq scopedSems_eq defs main (fun _ => ops) main_eq (fun _ => ops_sub) m ρ (fun _ => ops_fresh))

end Cert.ReferenceIdeal.RefSide

end
-- ==== Proof.lean ====
/-
  A two-layer message-passing network on a graph of 50000 nodes and 1600000 weighted edges, followed by a mean over the nodes, a
  linear classifier and a logarithmic soft-max: the kernel program against its reference, over the extended reals.

  In each layer an edge carries the leaky rectifier of a linear image of its source node's features scaled by the edge's weight,
  the messages arriving at a node are averaged (over at least one), and the node's own rectified linear image is added.  The
  reference scales the gathered features and maps them edge by edge; the kernel program maps all nodes once (in two tiled
  regions, ten blocks of 5000 rows each, producing the product and its rectified, biased image), gathers the product's rows,
  scales them, and multiplies the row sums by the reciprocal of the count.  Moving the weight across the linear map needs every
  entry real — the precondition for the first layer, and the first layer's own realness for the second; the quotient against the
  reciprocal needs nothing.  Everything else (the index columns, the counts, the scatter of the messages, the tail) is the same
  term on both sides.

  The frames of the two kernel programs are the generated ones; the reference's frame is its run with the result dropped; the
  idealization rewrote nothing.
-/
import proofs.«168688_j12120397709448_2_alg».proof.Defs
import proofs.«168688_j12120397709448_2_alg».proof.Proof.Gen.Kernel
import proofs.«168688_j12120397709448_2_alg».proof.Proof.Gen.Kernel.Frame
import proofs.«168688_j12120397709448_2_alg».proof.Proof.Gen.KernelIdeal
import proofs.«168688_j12120397709448_2_alg».proof.Proof.Gen.KernelIdeal.Frame
import proofs.«168688_j12120397709448_2_alg».proof.Proof.Gen.ReferenceIdeal
import proofs.«168688_j12120397709448_2_alg».proof.Proof.Gen.Pre_finite_inputs
import proofs.«168688_j12120397709448_2_alg».proof.Proof.KerRun
import proofs.«168688_j12120397709448_2_alg».proof.Proof.KerValue
import proofs.«168688_j12120397709448_2_alg».proof.Proof.RefRun

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.RefSide.run m ρ)

/-- Both idealized programs, from memories agreeing on the arguments, end with the reference's result term of those arguments. -/
theorem algebraic : Cert.algebraic_KernelIdeal_ReferenceIdeal := by
  intro m ρ m' ρ' hpre hagree
  refine ⟨fun c => Cert.ReferenceIdeal.RefSide.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KerSide.result_is_reference m ρ c (hpre c)), (h c).2⟩)
      (Cert.KernelIdeal.KerSide.run_main (F := Ideal) m ρ)
  · refine (θ_run Cert.ReferenceIdeal.defs _ _).mono (fun r h c => ⟨?_, (h c).2⟩)
      (Cert.ReferenceIdeal.RefSide.run m' ρ')
    obtain ⟨h0, h1, h2, h3, h4, h5, h6, h7, h8⟩ := hagree c
    rw [(h c).1, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
